-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x4x128x128 : Shape := ⟨4, ![512, 4, 128, 128]⟩
abbrev S512x512 : Shape := ⟨2, ![512, 512]⟩
abbrev S512x768 : Shape := ⟨2, ![512, 768]⟩
abbrev S512 : Shape := ⟨1, ![512]⟩
abbrev S12x512 : Shape := ⟨2, ![12, 512]⟩
abbrev S12 : Shape := ⟨1, ![12]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512x4x128x128 : S_.BroadcastsInDim S512x4x128x128 (![] : Fin 0 → Fin S512x4x128x128.rank)
  reducesTo_S512x4x128x128_S_d0_1_2_3 : S512x4x128x128.ReducesTo [0, 1, 2, 3] S_
  bcast_S_S512x512 : S_.BroadcastsInDim S512x512 (![] : Fin 0 → Fin S512x512.rank)
  reducesTo_S512x512_S_d0_1 : S512x512.ReducesTo [0, 1] S_
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S12x512 : S_.BroadcastsInDim S12x512 (![] : Fin 0 → Fin S12x512.rank)
  reducesTo_S12x512_S_d0_1 : S12x512.ReducesTo [0, 1] S_
  bcast_S_S12 : S_.BroadcastsInDim S12 (![] : Fin 0 → Fin S12.rank)
  reducesTo_S12_S_d0 : S12.ReducesTo [0] S_

variable [Facts]

def fn_part3 {F : FTy → Type} [FloatOps F] (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S12x512 .f32) (main_arg10 : FVec F S12 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S12x512 .f32 := Host.absf main_arg9
  let main_cst_16 : FVec F S_ .f32 := constant S_ .f32 0x7F800000#32
  let main_v45 : FVec F S12x512 .f32 := broadcastInDim S12x512 ![] bcast_S_S12x512 main_cst_16
  let main_v46 : IVec S12x512 1 := cmpf .olt main_v44 main_v45
  let main_c_17 : IVec S_ 1 := constantI S_ 1 1#1
  let main_v47 : IVec S_ 1 := (fun x v => Host.reduce IntOp.andi x v reducesTo_S12x512_S_d0_1 h_S_) main_v46 main_c_17
  let main_v48 : IVec S_ 1 := andi main_v43 main_v47
  let main_v49 : FVec F S12 .f32 := Host.absf main_arg10
  let main_cst_18 : FVec F S_ .f32 := constant S_ .f32 0x7F800000#32
  let main_v50 : FVec F S12 .f32 := broadcastInDim S12 ![] bcast_S_S12 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S12x512 .f32) (main_arg10 : FVec F S12 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S512x256 .f32) (main_arg1 : FVec F S512x4x128x128 .f32) (main_arg2 : FVec F S512x512 .f32) (main_arg3 : FVec F S512x768 .f32) (main_arg4 : FVec F S512 .f32) (main_arg5 : FVec F S512x512 .f32) (main_arg6 : FVec F S512 .f32) (main_arg7 : FVec F S512x512 .f32) (main_arg8 : FVec F S512 .f32) (main_arg9 : FVec F S12x512 .f32) (main_arg10 : FVec F S12 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x4x128x128 .f32 := Host.absf main_arg1
  let main_cst_0 : FVec F S_ .f32 := constant S_ .f32 0x7F800000#32
  let main_v5 : FVec F S512x4x128x128 .f32 := broadcastInDim S512x4x128x128 ![] bcast_S_S512x4x128x128 main_cst_0
  let main_v6 : IVec S512x4x128x128 1 := cmpf .olt main_v4 main_v5
  let main_c_1 : IVec S_ 1 := constantI S_ 1 1#1
  let main_v7 : IVec S_ 1 := (fun x v => Host.reduce IntOp.andi x v reducesTo_S512x4x128x128_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_arg5 main_arg6 main_arg7 main_arg8 main_arg9 main_arg10 main_v13 main_v16
-- ==== Kernel.lean ====
abbrev S512x256 : Shape := ⟨2, ![512, 256]⟩
abbrev S512x4x128x128 : Shape := ⟨4, ![512, 4, 128, 128]⟩
abbrev S512x512 : Shape := ⟨2, ![512, 512]⟩
abbrev S512x768 : Shape := ⟨2, ![512, 768]⟩
abbrev S512 : Shape := ⟨1, ![512]⟩
abbrev S12x512 : Shape := ⟨2, ![12, 512]⟩
abbrev S12 : Shape := ⟨1, ![12]⟩
abbrev S768x512 : Shape := ⟨2, ![768, 512]⟩
abbrev S512x12 : Shape := ⟨2, ![512, 12]⟩
abbrev S16x256 : Shape := ⟨2, ![16, 256]⟩
abbrev S16x4x128x128 : Shape := ⟨4, ![16, 4, 128, 128]⟩
abbrev S16x512 : Shape := ⟨2, ![16, 512]⟩
abbrev S16x1x1x128 : Shape := ⟨4, ![16, 1, 1, 128]⟩
abbrev S16x128 : Shape := ⟨2, ![16, 128]⟩
abbrev S16x768 : Shape := ⟨2, ![16, 768]⟩
abbrev S1x512 : Shape := ⟨2, ![1, 512]⟩
abbrev S16x12 : Shape := ⟨2, ![16, 12]⟩
abbrev S1x12 : Shape := ⟨2, ![1, 12]⟩
abbrev S16 : Shape := ⟨1, ![16]⟩
abbrev S16x1 : Shape := ⟨2, ![16, 1]⟩
abbrev S16x128x128 : Shape := ⟨3, ![16, 128, 128]⟩
abbrev S16x1x128x128 : Shape := ⟨4, ![16, 1, 128, 128]⟩
abbrev S16x1x128 : Shape := ⟨3, ![16, 1, 128]⟩
abbrev S16x1x1 : Shape := ⟨3, ![16, 1, 1]⟩

abbrev nBuf : Space → Nat
  | .hbm => 21
  | .vmem => 18
  | .smem => 0
  | _ => 0

abbrev bufTy : (tb : Table) → Fin (tcTables nBuf tb) → BufTy
  | .hbm, ⟨0, _⟩ => ⟨S512x256, .f32⟩
  | .hbm, ⟨1, _⟩ => ⟨S512x4x128x128, .f32⟩
  | .hbm, ⟨2, _⟩ => ⟨S512x512, .f32⟩
  | .hbm, ⟨3, _⟩ => ⟨S512x768, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S12x512, .f32⟩
  | .hbm, ⟨10, _⟩ => ⟨S12, .f32⟩
  | .hbm, ⟨11, _⟩ => ⟨S768x512, .f32⟩
  | .hbm, ⟨12, _⟩ => ⟨S768x512, .bf16⟩
  | .hbm, ⟨13, _⟩ => ⟨S512x512, .f32⟩
  | .hbm, ⟨14, _⟩ => ⟨S512x512, .bf16⟩
  | .hbm, ⟨15, _⟩ => ⟨S512x512, .f32⟩
  | .hbm, ⟨16, _⟩ => ⟨S512x512, .bf16⟩
  | .hbm, ⟨17, _⟩ => ⟨S512x12, .f32⟩
  | .hbm, ⟨18, _⟩ => ⟨S512x12, .bf16⟩
  | .hbm, ⟨19, _⟩ => ⟨S512x512, .f32⟩
  | .hbm, ⟨20, _⟩ => ⟨S512x4x128x128, .f32⟩
  | .local _ .vmem, ⟨0, _⟩ => ⟨S16x256, .f32⟩
  | .local _ .vmem, ⟨1, _⟩ => ⟨S16x256, .f32⟩
  | .local _ .vmem, ⟨2, _⟩ => ⟨S16x4x128x128, .f32⟩
  | .local _ .vmem, ⟨3, _⟩ => ⟨S16x4x128x128, .f32⟩
  | .local _ .vmem, ⟨4, _⟩ => ⟨S16x512, .f32⟩
  | .local _ .vmem, ⟨5, _⟩ => ⟨S16x512, .f32⟩
  | .local _ .vmem, ⟨6, _⟩ => ⟨S768x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S512x12, .bf16⟩
  | .local _ .vmem, ⟨13, _⟩ => ⟨S12, .f32⟩
  | .local _ .vmem, ⟨14, _⟩ => ⟨S16x512, .f32⟩
  | .local _ .vmem, ⟨15, _⟩ => ⟨S16x512, .f32⟩
  | .local _ .vmem, ⟨16, _⟩ => ⟨S16x4x128x128, .f32⟩
  | .local _ .vmem, ⟨17, _⟩ => ⟨S16x4x128x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x12 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S512x768_S768x512_1_0 : S512x768.Transposes [1, 0] S768x512
  bitsLt_bf16_f32 : FTy.bits .bf16 < FTy.bits .f32
  transposes_S512x512_S512x512_1_0 : S512x512.Transposes [1, 0] S512x512
  transposes_S12x512_S512x12_1_0 : S12x512.Transposes [1, 0] S512x12
  inb_S16x256_S16x256_0_0 : ∀ a, (![0, 0] : Fin 2 → Nat) a + S16x256.size a ≤ S16x256.size a
  h_S16x256 : 0 < S16x256.numel
  inb_S16x512_S16x512_0_0 : ∀ a, (![0, 0] : Fin 2 → Nat) a + S16x512.size a ≤ S16x512.size a
  h_S16x512 : 0 < S16x512.numel
  inb_S16x4x128x128_S16x1x1x128_0_0_0_0 : ∀ a, (![0, 0, 0, 0] : Fin 4 → Nat) a + S16x1x1x128.size a ≤ S16x4x128x128.size a
  h_S16x1x1x128 : 0 < S16x1x1x128.numel
  shapeCasts_S16x1x1x128_S16x128 : S16x1x1x128.ShapeCasts S16x128
  inb_S16x4x128x128_S16x1x1x128_0_1_0_0 : ∀ a, (![0, 1, 0, 0] : Fin 4 → Nat) a + S16x1x1x128.size a ≤ S16x4x128x128.size a
  inb_S16x4x128x128_S16x1x1x128_0_2_0_0 : ∀ a, (![0, 2, 0, 0] : Fin 4 → Nat) a + S16x1x1x128.size a ≤ S16x4x128x128.size a
  inb_S16x4x128x128_S16x1x1x128_0_3_0_0 : ∀ a, (![0, 3, 0, 0] : Fin 4 → Nat) a + S16x1x1x128.size a ≤ S16x4x128x128.size a
  concatenates_S16x128_S16x128_S16x128_S16x128_S16x512_d1 : Shape.Concatenates [S16x128, S16x128, S16x128, S16x128] S16x512 1
  concatenates_S16x256_S16x512_S16x768_d1 : Shape.Concatenates [S16x256, S16x512] S16x768 1
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S16x512 : S1x512.Broadcasts S16x512
  inb_S512x12_S512x12_0_0 : ∀ a, (![0, 0] : Fin 2 → Nat) a + S512x12.size a ≤ S512x12.size a
  h_S512x12 : 0 < S512x12.numel
  shapeCasts_S512x12_S512x12 : S512x12.ShapeCasts S512x12
  inb_S12_S12_0 : ∀ a, (![0] : Fin 1 → Nat) a + S12.size a ≤ S12.size a
  h_S12 : 0 < S12.numel
  shapeCasts_S12_S1x12 : S12.ShapeCasts S1x12
  broadcasts_S1x12_S16x12 : S1x12.Broadcasts S16x12
  reduces_S16x12_S16 : S16x12.Reduces [1] S16
  shapeCasts_S16_S16x1 : S16.ShapeCasts S16x1
  broadcasts_S16x1_S16x12 : S16x1.Broadcasts S16x12
  iota_S16x128x128_d1_w32 : S16x128x128.Iotas .tc 32 [1]
  inb_S16x4x128x128_S16x1x128x128_0_0_0_0 : ∀ a, (![0, 0, 0, 0] : Fin 4 → Nat) a + S16x1x128x128.size a ≤ S16x4x128x128.size a
  h_S16x1x128x128 : 0 < S16x1x128x128.numel
  shapeCasts_S16x1x128x128_S16x128x128 : S16x1x128x128.ShapeCasts S16x128x128
  slices_S16x512_o0_0_S16x128 : S16x512.Slices ![0, 0] S16x128
  slices_S16x12_o0_0_S16x1 : S16x12.Slices ![0, 0] S16x1
  slices_S16x12_o0_1_S16x1 : S16x12.Slices ![0, 1] S16x1
  slices_S16x12_o0_2_S16x1 : S16x12.Slices ![0, 2] S16x1
  rotates_S16x128x128_d1 : S16x128x128.Rotates 1 none
  shapeCasts_S16x128_S16x1x128 : S16x128.ShapeCasts S16x1x128
  shapeCasts_S16x1x128_S16x1x128 : S16x1x128.ShapeCasts S16x1x128
  broadcasts_S16x1x128_S16x128x128 : S16x1x128.Broadcasts S16x128x128
  shapeCasts_S16x1_S16x1x1 : S16x1.ShapeCasts S16x1x1
  broadcasts_S16x1x1_S16x128x128 : S16x1x1.Broadcasts S16x128x128
  shapeCasts_S16x128x128_S16x1x128x128 : S16x128x128.ShapeCasts S16x1x128x128
  inb_S16x4x128x128_S16x1x128x128_0_1_0_0 : ∀ a, (![0, 1, 0, 0] : Fin 4 → Nat) a + S16x1x128x128.size a ≤ S16x4x128x128.size a
  slices_S16x512_o0_128_S16x128 : S16x512.Slices ![0, 128] S16x128
  slices_S16x12_o0_3_S16x1 : S16x12.Slices ![0, 3] S16x1
  slices_S16x12_o0_4_S16x1 : S16x12.Slices ![0, 4] S16x1
  slices_S16x12_o0_5_S16x1 : S16x12.Slices ![0, 5] S16x1
  inb_S16x4x128x128_S16x1x128x128_0_2_0_0 : ∀ a, (![0, 2, 0, 0] : Fin 4 → Nat) a + S16x1x128x128.size a ≤ S16x4x128x128.size a
  slices_S16x512_o0_256_S16x128 : S16x512.Slices ![0, 256] S16x128
  slices_S16x12_o0_6_S16x1 : S16x12.Slices ![0, 6] S16x1
  slices_S16x12_o0_7_S16x1 : S16x12.Slices ![0, 7] S16x1
  slices_S16x12_o0_8_S16x1 : S16x12.Slices ![0, 8] S16x1
  inb_S16x4x128x128_S16x1x128x128_0_3_0_0 : ∀ a, (![0, 3, 0, 0] : Fin 4 → Nat) a + S16x1x128x128.size a ≤ S16x4x128x128.size a
  slices_S16x512_o0_384_S16x128 : S16x512.Slices ![0, 384] S16x128
  slices_S16x12_o0_9_S16x1 : S16x12.Slices ![0, 9] S16x1
  slices_S16x12_o0_10_S16x1 : S16x12.Slices ![0, 10] S16x1
  slices_S16x12_o0_11_S16x1 : S16x12.Slices ![0, 11] S16x1
  dot_S16x768_S768x512_S16x512_1_0_0_1_n_n_wf : DotDims.WF S16x768 S768x512 S16x512 [1] [0] [0] [1] [] []
  dot_S16x512_S512x512_S16x512_1_0_0_1_n_n_wf : DotDims.WF S16x512 S512x512 S16x512 [1] [0] [0] [1] [] []
  dot_S16x512_S512x12_S16x12_1_0_0_1_n_n_wf : DotDims.WF S16x512 S512x12 S16x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S512x256.size a
  hwx0_0 : ∀ i : grid0.Coords, EltTy.bits .f32 = 32 ∨ (Rect.block (s := S512x256) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4x128x128.size a ≤ S512x4x128x128.size a
  hwx0_1 : ∀ i : grid0.Coords, EltTy.bits .f32 = 32 ∨ (Rect.block (s := S512x4x128x128) S16x4x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S512x512.size a
  hwx0_2 : ∀ i : grid0.Coords, EltTy.bits .f32 = 32 ∨ (Rect.block (s := S512x512) S16x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .bf16 = 32 ∨ (Rect.block (s := S768x512) S768x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x12.size a ≤ S512x12.size a
  hwx0_9 : ∀ i : grid0.Coords, EltTy.bits .bf16 = 32 ∨ (Rect.block (s := S512x12) S512x12.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S12.size a ≤ S12.size a
  hwx0_10 : ∀ i : grid0.Coords, EltTy.bits .f32 = 32 ∨ (Rect.block (s := S12) S12.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x512.size a ≤ S512x512.size a
  hwx0_11 : ∀ i : grid0.Coords, EltTy.bits .f32 = 32 ∨ (Rect.block (s := S512x512) S16x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x4x128x128.size a ≤ S512x4x128x128.size a
  hwx0_12 : ∀ i : grid0.Coords, EltTy.bits .f32 = 32 ∨ (Rect.block (s := S512x4x128x128) S16x4x128x128.size (cc0_transform_12 i) (hinb0_12 i)).WholeWords (EltTy.packing .f32)

variable [Facts₀]

def dot_S16x768_S768x512_S16x512_1_0_0_1_n_n : DotDims S16x768 S768x512 S16x512 where
  lhsContracting := [1]
  rhsContracting := [0]
  lhsNonContracting := [0]
  rhsNonContracting := [1]
  lhsBatch := []
  rhsBatch := []
  wf := dot_S16x768_S768x512_S16x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x512_S512x12_S16x12_1_0_0_1_n_n : DotDims S16x512 S512x12 S16x12 where
  lhsContracting := [1]
  rhsContracting := [0]
  lhsNonContracting := [0]
  rhsNonContracting := [1]
  lhsBatch := []
  rhsBatch := []
  wf := dot_S16x512_S512x12_S16x12_1_0_0_1_n_n_wf

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S512x12.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S12.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S16x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S16x4x128x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where
  halias0_12 : Pipeline.Aliased win0 1 12

variable [Facts]
-- ==== ReferenceIdeal.lean ====
abbrev S512x256 : Shape := ⟨2, ![512, 256]⟩
abbrev S512x4x128x128 : Shape := ⟨4, ![512, 4, 128, 128]⟩
abbrev S512x512 : Shape := ⟨2, ![512, 512]⟩
abbrev S512x768 : Shape := ⟨2, ![512, 768]⟩
abbrev S512 : Shape := ⟨1, ![512]⟩
abbrev S12x512 : Shape := ⟨2, ![12, 512]⟩
abbrev S12 : Shape := ⟨1, ![12]⟩
abbrev S512x4x1x128 : Shape := ⟨4, ![512, 4, 1, 128]⟩
abbrev S512x4x128 : Shape := ⟨3, ![512, 4, 128]⟩
abbrev S768x512 : Shape := ⟨2, ![768, 512]⟩
abbrev S1x512 : Shape := ⟨2, ![1, 512]⟩
abbrev S512x12 : Shape := ⟨2, ![512, 12]⟩
abbrev S1x12 : Shape := ⟨2, ![1, 12]⟩
abbrev S_ : Shape := ⟨0, ![]⟩
abbrev S512x1 : Shape := ⟨2, ![512, 1]⟩
abbrev S512x4x3 : Shape := ⟨3, ![512, 4, 3]⟩
abbrev S512x4x1 : Shape := ⟨3, ![512, 4, 1]⟩
abbrev S512x4x126x128 : Shape := ⟨4, ![512, 4, 126, 128]⟩
abbrev S512x4x127x128 : Shape := ⟨4, ![512, 4, 127, 128]⟩
abbrev S512x4x1x1 : Shape := ⟨4, ![512, 4, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x4x128x128, .f32⟩
  | .hbm, ⟨2, _⟩ => ⟨S512x512, .f32⟩
  | .hbm, ⟨3, _⟩ => ⟨S512x768, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S12x512, .f32⟩
  | .hbm, ⟨10, _⟩ => ⟨S12, .f32⟩
  | .hbm, ⟨11, _⟩ => ⟨S512x4x1x128, .f32⟩
  | .hbm, ⟨12, _⟩ => ⟨S512x4x128, .f32⟩
  | .hbm, ⟨13, _⟩ => ⟨S512x512, .f32⟩
  | .hbm, ⟨14, _⟩ => ⟨S512x768, .f32⟩
  | .hbm, ⟨15, _⟩ => ⟨S768x512, .f32⟩
  | .hbm, ⟨16, _⟩ => ⟨S512x512, .f32⟩
  | .hbm, ⟨17, _⟩ => ⟨S1x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S1x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S1x512, .f32⟩
  | .hbm, ⟨30, _⟩ => ⟨S512x512, .f32⟩
  | .hbm, ⟨31, _⟩ => ⟨S512x512, .f32⟩
  | .hbm, ⟨32, _⟩ => ⟨S512x4x128, .f32⟩
  | .hbm, ⟨33, _⟩ => ⟨S512x12, .f32⟩
  | .hbm, ⟨34, _⟩ => ⟨S512x12, .f32⟩
  | .hbm, ⟨35, _⟩ => ⟨S1x12, .f32⟩
  | .hbm, ⟨36, _⟩ => ⟨S512x12, .f32⟩
  | .hbm, ⟨37, _⟩ => ⟨S512x12, .f32⟩
  | .hbm, ⟨38, _⟩ => ⟨S_, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S512x1, .f32⟩
  | .hbm, ⟨44, _⟩ => ⟨S512x12, .f32⟩
  | .hbm, ⟨45, _⟩ => ⟨S512x12, .f32⟩
  | .hbm, ⟨46, _⟩ => ⟨S512x12, .f32⟩
  | .hbm, ⟨47, _⟩ => ⟨S_, .f32⟩
  | .hbm, ⟨48, _⟩ => ⟨S512, .f32⟩
  | .hbm, ⟨49, _⟩ => ⟨S512x1, .f32⟩
  | .hbm, ⟨50, _⟩ => ⟨S512x12, .f32⟩
  | .hbm, ⟨51, _⟩ => ⟨S512x12, .f32⟩
  | .hbm, ⟨52, _⟩ => ⟨S512x4x3, .f32⟩
  | .hbm, ⟨53, _⟩ => ⟨S512x4x1, .f32⟩
  | .hbm, ⟨54, _⟩ => ⟨S512x4x1, .f32⟩
  | .hbm, ⟨55, _⟩ => ⟨S512x4x1, .f32⟩
  | .hbm, ⟨56, _⟩ => ⟨S512x4x128, .f32⟩
  | .hbm, ⟨57, _⟩ => ⟨S512x4x128, .f32⟩
  | .hbm, ⟨58, _⟩ => ⟨S512x4x1x128, .f32⟩
  | .hbm, ⟨59, _⟩ => ⟨S512x4x128, .f32⟩
  | .hbm, ⟨60, _⟩ => ⟨S512x4x128, .f32⟩
  | .hbm, ⟨61, _⟩ => ⟨S512x4x128, .f32⟩
  | .hbm, ⟨62, _⟩ => ⟨S512x4x128, .f32⟩
  | .hbm, ⟨63, _⟩ => ⟨S512x4x1x128, .f32⟩
  | .hbm, ⟨64, _⟩ => ⟨S512x4x128, .f32⟩
  | .hbm, ⟨65, _⟩ => ⟨S512x4x128, .f32⟩
  | .hbm, ⟨66, _⟩ => ⟨S512x4x128, .f32⟩
  | .hbm, ⟨67, _⟩ => ⟨S512x4x128, .f32⟩
  | .hbm, ⟨68, _⟩ => ⟨S_, .f32⟩
  | .hbm, ⟨69, _⟩ => ⟨S512x4x1x128, .f32⟩
  | .hbm, ⟨70, _⟩ => ⟨S512x4x126x128, .f32⟩
  | .hbm, ⟨71, _⟩ => ⟨S512x4x127x128, .f32⟩
  | .hbm, ⟨72, _⟩ => ⟨S512x4x1x1, .f32⟩
  | .hbm, ⟨73, _⟩ => ⟨S512x4x127x128, .f32⟩
  | .hbm, ⟨74, _⟩ => ⟨S512x4x127x128, .f32⟩
  | .hbm, ⟨75, _⟩ => ⟨S512x4x127x128, .f32⟩
  | .hbm, ⟨76, _⟩ => ⟨S512x4x1x1, .f32⟩
  | .hbm, ⟨77, _⟩ => ⟨S512x4x127x128, .f32⟩
  | .hbm, ⟨78, _⟩ => ⟨S512x4x127x128, .f32⟩
  | .hbm, ⟨79, _⟩ => ⟨S512x4x127x128, .f32⟩
  | .hbm, ⟨80, _⟩ => ⟨S512x4x1x1, .f32⟩
  | .hbm, ⟨81, _⟩ => ⟨S512x4x127x128, .f32⟩
  | .hbm, ⟨82, _⟩ => ⟨S512x4x127x128, .f32⟩
  | .hbm, ⟨83, _⟩ => ⟨S512x4x127x128, .f32⟩
  | .hbm, ⟨84, _⟩ => ⟨S512x4x127x128, .f32⟩
  | .hbm, ⟨85, _⟩ => ⟨S512x4x1x128, .f32⟩
  | .hbm, ⟨86, _⟩ => ⟨S512x4x128x128, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩

abbrev nD : Nat := 1
abbrev τ : Topo := Topo.v7x

variable {F : FTy → Type} [FloatOps F]

class Facts₀ : Prop where
  slices_S512x4x128x128_S512x4x1x128_0_0_0_0 : S512x4x128x128.Slices ![0, 0, 0, 0] S512x4x1x128
  shapeCasts_S512x4x1x128_S512x4x128 : S512x4x1x128.ShapeCasts S512x4x128
  shapeCasts_S512x4x128_S512x512 : S512x4x128.ShapeCasts S512x512
  concatenates_S512x256_S512x512_S512x768_d1 : Shape.Concatenates [S512x256, S512x512] S512x768 1
  transposes_S512x768_S768x512_1_0 : S512x768.Transposes [1, 0] S768x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  transposes_S512x512_S512x512_1_0 : S512x512.Transposes [1, 0] S512x512
  shapeCasts_S512x512_S512x4x128 : S512x512.ShapeCasts S512x4x128
  transposes_S12x512_S512x12_1_0 : S12x512.Transposes [1, 0] S512x12
  bcast_S12_S1x12_1 : S12.BroadcastsInDim S1x12 (![1] : Fin 1 → Fin S1x12.rank)
  bcast_S1x12_S512x12_0_1 : S1x12.BroadcastsInDim S512x12 (![0, 1] : Fin 2 → Fin S512x12.rank)
  reducesTo_S512x12_S512_d1 : S512x12.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x12_0_1 : S512x1.BroadcastsInDim S512x12 (![0, 1] : Fin 2 → Fin S512x12.rank)
  shapeCasts_S512x12_S512x4x3 : S512x12.ShapeCasts S512x4x3
  slices_S512x4x3_S512x4x1_0_0_0 : S512x4x3.Slices ![0, 0, 0] S512x4x1
  slices_S512x4x3_S512x4x1_0_0_1 : S512x4x3.Slices ![0, 0, 1] S512x4x1
  slices_S512x4x3_S512x4x1_0_0_2 : S512x4x3.Slices ![0, 0, 2] S512x4x1
  bcast_S512x4x1_S512x4x128_0_1_2 : S512x4x1.BroadcastsInDim S512x4x128 (![0, 1, 2] : Fin 3 → Fin S512x4x128.rank)
  slices_S512x4x128x128_S512x4x1x128_0_0_1_0 : S512x4x128x128.Slices ![0, 0, 1, 0] S512x4x1x128
  bcast_S_S512x4x1x128 : S_.BroadcastsInDim S512x4x1x128 (![] : Fin 0 → Fin S512x4x1x128.rank)
  slices_S512x4x128x128_S512x4x126x128_0_0_2_0 : S512x4x128x128.Slices ![0, 0, 2, 0] S512x4x126x128
  concatenates_S512x4x126x128_S512x4x1x128_S512x4x127x128_d2 : Shape.Concatenates [S512x4x126x128, S512x4x1x128] S512x4x127x128 2
  bcast_S512x4x1_S512x4x1x1_0_1_2 : S512x4x1.BroadcastsInDim S512x4x1x1 (![0, 1, 2] : Fin 3 → Fin S512x4x1x1.rank)
  slices_S512x4x128x128_S512x4x127x128_0_0_0_0 : S512x4x128x128.Slices ![0, 0, 0, 0] S512x4x127x128
  bcast_S512x4x1x1_S512x4x127x128_0_1_2_3 : S512x4x1x1.BroadcastsInDim S512x4x127x128 (![0, 1, 2, 3] : Fin 4 → Fin S512x4x127x128.rank)
  slices_S512x4x128x128_S512x4x127x128_0_0_1_0 : S512x4x128x128.Slices ![0, 0, 1, 0] S512x4x127x128
  bcast_S512x4x128_S512x4x1x128_0_1_3 : S512x4x128.BroadcastsInDim S512x4x1x128 (![0, 1, 3] : Fin 3 → Fin S512x4x1x128.rank)
  concatenates_S512x4x1x128_S512x4x127x128_S512x4x128x128_d2 : Shape.Concatenates [S512x4x1x128, S512x4x127x128] S512x4x128x128 2
  dot_S512x768_S768x512_S512x512_1_0_0_1_n_n_wf : DotDims.WF S512x768 S768x512 S512x512 [1] [0] [0] [1] [] []
  dot_S512x512_S512x512_S512x512_1_0_0_1_n_n_wf : DotDims.WF S512x512 S512x512 S512x512 [1] [0] [0] [1] [] []
  dot_S512x512_S512x12_S512x12_1_0_0_1_n_n_wf : DotDims.WF S512x512 S512x12 S512x12 [1] [0] [0] [1] [] []

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x12_S512x12_1_0_0_1_n_n : DotDims S512x512 S512x12 S512x12 where
  lhsContracting := [1]
  rhsContracting := [0]
  lhsNonContracting := [0]
  rhsNonContracting := [1]
  lhsBatch := []
  rhsBatch := []
  wf := dot_S512x512_S512x12_S512x12_1_0_0_1_n_n_wf

class Facts : Prop extends Facts₀ where

variable [Facts]
-- ==== Proof.Spec.lean ====
/-
  The stack-augmented recurrent cell, one batch row at a time, on the extended reals.

  Nothing in the computation mixes batch rows, so the whole of it is a function of ONE row of each batched
  argument: the cell's input row is the 256 inputs followed by the top cells of the four stacks; the hidden row is
  tanh of two matrix-vector products and two biases, added in the order ((x·W_ihᵀ + b_ih) + core·W_hhᵀ) + b_hh; the
  push row and the twelve action logits are affine in the hidden row; the actions are the softmax of the logits,
  computed as exp(z − max) over the sum of those exponentials, the maximum and the sum both folded from their
  starting words; and cell (i, s, c) of the updated stacks blends, with the three actions of stack i, the cell
  pushed down onto it (the pushed value at the top, else the cell above), the cell popped up onto it (zero at the
  bottom, else the cell below) and the cell itself. The two results of the program are these row functions applied
  to row b of every batched argument.
-/
import Idealize.ShloMosaic.PureOps.Ideal
import Idealize.ShloMosaic.Lib.ValueIdx

noncomputable section

namespace Cert.StackCell

open Idealize.ShloMosaic Idealize.ShloMosaic.ValueIdx

/-- The word the maxima start from (minus infinity). -/
def ninf : EReal := Ideal.ofBits .f32 0xFF800000#32
/-- The word the sums start from and the bottom of a popped stack is filled with (zero). -/
def zero : EReal := Ideal.ofBits .f32 0x00000000#32

/-- Entry k of the cell's input row: the inputs, then the four stacks' top cells side by side. -/
def xrow (inp : Fin 256 → EReal) (stk : Fin 4 → Fin 128 → Fin 128 → EReal) (k : Fin 768) : EReal :=
  if h : k.val < 256 then inp ⟨k.val, h⟩
  else stk ⟨(k.val - 256) / 128, by have := k.isLt; omega⟩ ⟨0, by norm_num⟩ ⟨(k.val - 256) % 128, Nat.mod_lt _ (by norm_num)⟩

/-- Entry j of the new hidden row. -/
def hid (inp : Fin 256 → EReal) (stk : Fin 4 → Fin 128 → Fin 128 → EReal) (core : Fin 512 → EReal)
    (Wih : Fin 512 → Fin 768 → EReal) (bih : Fin 512 → EReal) (Whh : Fin 512 → Fin 512 → EReal) (bhh : Fin 512 → EReal)
    (j : Fin 512) : EReal :=
  Ideal.tanh ((((∑ k : Fin 768, xrow inp stk k * Wih j k) + bih j) + ∑ k : Fin 512, core k * Whh j k) + bhh j)

/-- Entry q of the push row: the values offered to the four stacks, side by side. -/
def push (h : Fin 512 → EReal) (Wp : Fin 512 → Fin 512 → EReal) (bp : Fin 512 → EReal) (q : Fin 512) : EReal :=
  (∑ k : Fin 512, h k * Wp q k) + bp q

/-- Action logit a: three per stack (push, pop, keep). -/
def logit (h : Fin 512 → EReal) (Wa : Fin 12 → Fin 512 → EReal) (ba : Fin 12 → EReal) (a : Fin 12) : EReal :=
  (∑ k : Fin 512, h k * Wa a k) + ba a

/-- The largest of twelve logits, folded from minus infinity and joined with minus infinity once more. -/
def top (z : Fin 12 → EReal) : EReal := max ninf ((Finset.univ : Finset (Fin 12)).fold max ninf z)

/-- The softmax over all twelve logits together. -/
def soft (z : Fin 12 → EReal) (a : Fin 12) : EReal :=
  Ideal.div (Ideal.exp (z a - top z)) (zero + ∑ c : Fin 12, Ideal.exp (z c - top z))

/-- Cell (i, s, c) of the updated stacks from the actions, the push row and the old stacks. -/
def cell (act : Fin 12 → EReal) (pv : Fin 512 → EReal) (stk : Fin 4 → Fin 128 → Fin 128 → EReal)
    (i : Fin 4) (s : Fin 128) (c : Fin 128) : EReal :=
  (act ⟨3 * i.val, by have := i.isLt; omega⟩
      * (if h : s.val = 0 then pv ⟨128 * i.val + c.val, by have := i.isLt; have := c.isLt; omega⟩
         else stk i ⟨s.val - 1, by have := s.isLt; omega⟩ c)
    + act ⟨3 * i.val + 1, by have := i.isLt; omega⟩
      * (if h : s.val = 127 then zero else stk i ⟨s.val + 1, by have := s.isLt; omega⟩ c))
  + act ⟨3 * i.val + 2, by have := i.isLt; omega⟩ * stk i s c

/-- The whole row: the actions of a hidden row. -/
def acts (h : Fin 512 → EReal) (Wa : Fin 12 → Fin 512 → EReal) (ba : Fin 12 → EReal) : Fin 12 → EReal :=
  soft (logit h Wa ba)

/-- One updated stack cell of a batch row, from that row's arguments and the weights. -/
def newCell (inp : Fin 256 → EReal) (stk : Fin 4 → Fin 128 → Fin 128 → EReal) (core : Fin 512 → EReal)
    (Wih : Fin 512 → Fin 768 → EReal) (bih : Fin 512 → EReal) (Whh : Fin 512 → Fin 512 → EReal) (bhh : Fin 512 → EReal)
    (Wp : Fin 512 → Fin 512 → EReal) (bp : Fin 512 → EReal) (Wa : Fin 12 → Fin 512 → EReal) (ba : Fin 12 → EReal)
    (i : Fin 4) (s : Fin 128) (c : Fin 128) : EReal :=
  cell (acts (hid inp stk core Wih bih Whh bhh) Wa ba) (push (hid inp stk core Wih bih Whh bhh) Wp bp) stk i s c

/-! ## The two results over the whole batch, from the argument arrays -/

variable {B : ℕ}

/-- Row b of a B × n array. -/
def row2 {n : ℕ} (x : (⟨2, ![B, n]⟩ : Shape).Idx → EReal) (b : Fin B) : Fin n → EReal := fun k => x (ix2 b k)
/-- Row b of a B × 4 × 128 × 128 array of stacks. -/
def row4 (x : (⟨4, ![B, 4, 128, 128]⟩ : Shape).Idx → EReal) (b : Fin B) : Fin 4 → Fin 128 → Fin 128 → EReal :=
  fun i s c => x (ix4 b i s c)
/-- A rank-2 array by coordinates. -/
def mat {a n : ℕ} (x : (⟨2, ![a, n]⟩ : Shape).Idx → EReal) : Fin a → Fin n → EReal := fun j k => x (ix2 j k)
/-- A rank-2 array held transposed, by the coordinates of the array it transposes: the kernel is handed each weight
    matrix transposed. -/
def matT {a n : ℕ} (x : (⟨2, ![n, a]⟩ : Shape).Idx → EReal) : Fin a → Fin n → EReal := fun j k => x (ix2 k j)
/-- A rank-1 array by its coordinate. -/
def vec {n : ℕ} (x : (⟨1, ![n]⟩ : Shape).Idx → EReal) : Fin n → EReal := fun j => x (ix1 j)

/-- The new hidden state: entry (b, j). -/
def hidden (inputs : (⟨2, ![B, 256]⟩ : Shape).Idx → EReal) (stks : (⟨4, ![B, 4, 128, 128]⟩ : Shape).Idx → EReal)
    (core : (⟨2, ![B, 512]⟩ : Shape).Idx → EReal)
    (Wih : (⟨2, ![512, 768]⟩ : Shape).Idx → EReal) (bih : (⟨1, ![512]⟩ : Shape).Idx → EReal)
    (Whh : (⟨2, ![512, 512]⟩ : Shape).Idx → EReal) (bhh : (⟨1, ![512]⟩ : Shape).Idx → EReal) :
    (⟨2, ![B, 512]⟩ : Shape).Idx → EReal := fun i =>
  hid (row2 inputs (i 0)) (row4 stks (i 0)) (row2 core (i 0)) (mat Wih) (vec bih) (mat Whh) (vec bhh) (i 1)

/-- The updated stacks: entry (b, i, s, c). -/
def updated (inputs : (⟨2, ![B, 256]⟩ : Shape).Idx → EReal) (stks : (⟨4, ![B, 4, 128, 128]⟩ : Shape).Idx → EReal)
    (core : (⟨2, ![B, 512]⟩ : Shape).Idx → EReal)
    (Wih : (⟨2, ![512, 768]⟩ : Shape).Idx → EReal) (bih : (⟨1, ![512]⟩ : Shape).Idx → EReal)
    (Whh : (⟨2, ![512, 512]⟩ : Shape).Idx → EReal) (bhh : (⟨1, ![512]⟩ : Shape).Idx → EReal)
    (Wp : (⟨2, ![512, 512]⟩ : Shape).Idx → EReal) (bp : (⟨1, ![512]⟩ : Shape).Idx → EReal)
    (Wa : (⟨2, ![12, 512]⟩ : Shape).Idx → EReal) (ba : (⟨1, ![12]⟩ : Shape).Idx → EReal) :
    (⟨4, ![B, 4, 128, 128]⟩ : Shape).Idx → EReal := fun i =>
  newCell (row2 inputs (i 0)) (row4 stks (i 0)) (row2 core (i 0)) (mat Wih) (vec bih) (mat Whh) (vec bhh)
    (mat Wp) (vec bp) (mat Wa) (vec ba) (i 1) (i 2) (i 3)

end Cert.StackCell

end
-- ==== Proof.RefInput.lean ====
/-
  The cell's input row in the reference program: the 256 inputs followed by the four stacks' top cells, read at
  a batch row and a column.
-/
import proofs.«169338_j85315230368210_2_alg».proof.Proof.Gen.ReferenceIdeal.Read
import proofs.«169338_j85315230368210_2_alg».proof.Proof.Spec

noncomputable section

namespace Cert.StackCell.Ref

open Cert.ReferenceIdeal Cert.ReferenceIdeal.Gen Cert.ReferenceIdeal.Read Idealize.ShloMosaic Idealize.ShloMosaic.ValueIdx
open Cert.StackCell

/-- The flattened top cells at (b, q): stack q / 128, cell 0, column q % 128. -/
theorem tops_at (x1 : (⟨S512x4x128x128, .f32⟩ : BufTy).Contents (Elt Ideal)) (b q : Fin 512) :
    val_main_v2 (F := Ideal) x1 (ix2 b q)
      = x1 (ix4 b (⟨q.val / 128, by have := q.isLt; omega⟩ : Fin 4) (⟨0, by norm_num⟩ : Fin 128)
          (⟨q.val % 128, Nat.mod_lt _ (by norm_num)⟩ : Fin 128)) := by
  rw [val_main_v2_apply, val_main_v1_apply, val_main_v0_apply]
  refine congrArg x1 (funext fun a => Fin.ext ?_)
  have hb := b.isLt
  have hq := q.isLt
  match a with
  | ⟨0, _⟩ =>
    show ((((b.val * 512 + q.val) / 512 * 4 + (b.val * 512 + q.val) / 128 % 4) * 128 + (b.val * 512 + q.val) % 128) / 512) = b.val
    omega
  | ⟨1, _⟩ =>
    show ((((b.val * 512 + q.val) / 512 * 4 + (b.val * 512 + q.val) / 128 % 4) * 128 + (b.val * 512 + q.val) % 128) / 128 % 4) = q.val / 128
    omega
  | ⟨2, _⟩ => rfl
  | ⟨3, _⟩ =>
    show ((((b.val * 512 + q.val) / 512 * 4 + (b.val * 512 + q.val) / 128 % 4) * 128 + (b.val * 512 + q.val) % 128) % 128) = q.val % 128
    omega

/-- The joined row at (b, k): an input below column 256, else the top cell of stack (k − 256) / 128. -/
theorem xrow_at (x0 : (⟨S512x256, .f32⟩ : BufTy).Contents (Elt Ideal)) (x1 : (⟨S512x4x128x128, .f32⟩ : BufTy).Contents (Elt Ideal))
    (b : Fin 512) (k : Fin 768) :
    val_main_v3 (F := Ideal) x0 x1 (ix2 b k) = xrow (row2 x0 b) (row4 x1 b) k := by
  unfold val_main_v3 xrow
  have hk := k.isLt
  by_cases h : k.val < 256
  · rw [dif_pos h]
    exact concatenate_pair_apply_left _ x0 (val_main_v2 (F := Ideal) x1) _ (ix2 b k) rfl (ix2 b (⟨k.val, h⟩ : Fin 256))
      (fun a => match a with | ⟨0, _⟩ => rfl | ⟨1, _⟩ => rfl)
  · rw [dif_neg h]
    refine (concatenate_pair_apply_right _ x0 (val_main_v2 (F := Ideal) x1) _ (ix2 b k) rfl rfl
      (ix2 b (⟨k.val - 256, by omega⟩ : Fin 512)) ?_ ?_).trans ?_
    · intro a ha
      match a with
      | ⟨0, _⟩ => rfl
      | ⟨1, _⟩ => exact absurd rfl ha
    · show k.val - 256 + 256 = k.val
      omega
    · exact tops_at x1 b ⟨k.val - 256, by omega⟩

end Cert.StackCell.Ref

end
-- ==== Proof.RefHidden.lean ====
/-
  The new hidden state in the reference program: the two matrix-vector products and the two biases of a batch
  row, added in the program's order, under tanh.
-/
import proofs.«169338_j85315230368210_2_alg».proof.Proof.Gen.ReferenceIdeal.Read
import proofs.«169338_j85315230368210_2_alg».proof.Proof.Spec
import proofs.«169338_j85315230368210_2_alg».proof.Proof.RefInput

noncomputable section

namespace Cert.StackCell.Ref

open Cert.ReferenceIdeal Cert.ReferenceIdeal.Gen Cert.ReferenceIdeal.Read Idealize.ShloMosaic Idealize.ShloMosaic.ValueIdx
open Cert.StackCell

/-! ### The contraction and layout indices at coordinates -/

theorem lidx5_at (b j : Fin 512) (k : Fin 768) : lidx_main_v5 (ix2 b j) k = ix2 b k :=
  funext fun a => match a with | ⟨0, _⟩ => rfl | ⟨1, _⟩ => rfl
theorem ridx5_at (b j : Fin 512) (k : Fin 768) : ridx_main_v5 (ix2 b j) k = ix2 k j :=
  funext fun a => match a with | ⟨0, _⟩ => rfl | ⟨1, _⟩ => rfl
theorem idx4_at (k : Fin 768) (j : Fin 512) : idx_main_v4 (ix2 k j) = ix2 j k :=
  funext fun a => match a with | ⟨0, _⟩ => rfl | ⟨1, _⟩ => rfl
theorem lidx10_at (b j k : Fin 512) : lidx_main_v10 (ix2 b j) k = ix2 b k :=
  funext fun a => match a with | ⟨0, _⟩ => rfl | ⟨1, _⟩ => rfl
theorem ridx10_at (b j k : Fin 512) : ridx_main_v10 (ix2 b j) k = ix2 k j :=
  funext fun a => match a with | ⟨0, _⟩ => rfl | ⟨1, _⟩ => rfl
theorem idx9_at (k j : Fin 512) : idx_main_v9 (ix2 k j) = ix2 j k :=
  funext fun a => match a with | ⟨0, _⟩ => rfl | ⟨1, _⟩ => rfl
theorem idx6_7_at (b j : Fin 512) : idx_main_v6 (idx_main_v7 (ix2 b j)) = ix1 j :=
  funext fun a => match a with | ⟨0, _⟩ => rfl
theorem idx12_13_at (b j : Fin 512) : idx_main_v12 (idx_main_v13 (ix2 b j)) = ix1 j :=
  funext fun a => match a with | ⟨0, _⟩ => rfl

/-! ### The stages -/

/-- The input row against the input weights. -/
theorem ih_at (x0 : (⟨S512x256, .f32⟩ : BufTy).Contents (Elt Ideal)) (x1 : (⟨S512x4x128x128, .f32⟩ : BufTy).Contents (Elt Ideal)) (x3 : (⟨S512x768, .f32⟩ : BufTy).Contents (Elt Ideal)) (b j : Fin 512) :
    val_main_v5 (F := Ideal) x0 x1 x3 (ix2 b j) = ∑ k : Fin 768, xrow (row2 x0 b) (row4 x1 b) k * mat x3 j k := by
  rw [val_main_v5_apply]
  refine Finset.sum_congr rfl fun k _ => ?_
  rw [lidx5_at, ridx5_at, xrow_at, val_main_v4_apply, idx4_at]
  rfl

/-- The old hidden row against the recurrent weights. -/
theorem hh_at (x2 : (⟨S512x512, .f32⟩ : BufTy).Contents (Elt Ideal)) (x5 : (⟨S512x512, .f32⟩ : BufTy).Contents (Elt Ideal)) (b j : Fin 512) :
    val_main_v10 (F := Ideal) x2 x5 (ix2 b j) = ∑ k : Fin 512, row2 x2 b k * mat x5 j k := by
  rw [val_main_v10_apply]
  refine Finset.sum_congr rfl fun k _ => ?_
  rw [lidx10_at, ridx10_at, val_main_v9_apply, idx9_at]
  rfl

/-- The first bias, spread over the batch. -/
theorem bih_at (x4 : (⟨S512, .f32⟩ : BufTy).Contents (Elt Ideal)) (b j : Fin 512) : val_main_v7 (F := Ideal) x4 (ix2 b j) = vec x4 j := by
  rw [val_main_v7_apply, val_main_v6_apply, idx6_7_at]
  rfl

/-- The second bias, spread over the batch. -/
theorem bhh_at (x6 : (⟨S512, .f32⟩ : BufTy).Contents (Elt Ideal)) (b j : Fin 512) : val_main_v13 (F := Ideal) x6 (ix2 b j) = vec x6 j := by
  rw [val_main_v13_apply, val_main_v12_apply, idx12_13_at]
  rfl

/-- The new hidden state at (b, j). -/
theorem hid_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (b j : Fin 512) :
    val_main_v15 (F := Ideal) x0 x1 x2 x3 x4 x5 x6 (ix2 b j)
      = hid (row2 x0 b) (row4 x1 b) (row2 x2 b) (mat x3) (vec x4) (mat x5) (vec x6) j := by
  rw [val_main_v15_apply, val_main_v14_apply, val_main_v11_apply, val_main_v8_apply, ih_at, bih_at, hh_at, bhh_at]
  rfl

/-- The reference's first result is the specification's hidden state. -/
theorem ref_hidden (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) :
    val_main_v15 (F := Ideal) x0 x1 x2 x3 x4 x5 x6 = hidden x0 x1 x2 x3 x4 x5 x6 := by
  funext i
  obtain ⟨b, j, rfl⟩ : ∃ (b : Fin 512) (j : Fin 512), i = ix2 b j := ⟨i 0, i 1, eq_ix2 i⟩
  exact hid_at x0 x1 x2 x3 x4 x5 x6 b j

end Cert.StackCell.Ref

end
-- ==== Proof.RefPush.lean ====
/-
  The push row and the action logits in the reference program: both affine in the new hidden row of a batch row.
-/
import proofs.«169338_j85315230368210_2_alg».proof.Proof.Gen.ReferenceIdeal.Read
import proofs.«169338_j85315230368210_2_alg».proof.Proof.Spec
import proofs.«169338_j85315230368210_2_alg».proof.Proof.RefHidden

noncomputable section

namespace Cert.StackCell.Ref

open Cert.ReferenceIdeal Cert.ReferenceIdeal.Gen Cert.ReferenceIdeal.Read Idealize.ShloMosaic Idealize.ShloMosaic.ValueIdx
open Cert.StackCell

/-! ### The contraction and layout indices at coordinates -/

theorem lidx17_at (b q k : Fin 512) : lidx_main_v17 (ix2 b q) k = ix2 b k :=
  funext fun a => match a with | ⟨0, _⟩ => rfl | ⟨1, _⟩ => rfl
theorem ridx17_at (b q k : Fin 512) : ridx_main_v17 (ix2 b q) k = ix2 k q :=
  funext fun a => match a with | ⟨0, _⟩ => rfl | ⟨1, _⟩ => rfl
theorem idx16_at (k q : Fin 512) : idx_main_v16 (ix2 k q) = ix2 q k :=
  funext fun a => match a with | ⟨0, _⟩ => rfl | ⟨1, _⟩ => rfl
theorem idx18_19_at (b q : Fin 512) : idx_main_v18 (idx_main_v19 (ix2 b q)) = ix1 q :=
  funext fun a => match a with | ⟨0, _⟩ => rfl
theorem lidx23_at (b : Fin 512) (a : Fin 12) (k : Fin 512) : lidx_main_v23 (ix2 b a) k = ix2 b k :=
  funext fun d => match d with | ⟨0, _⟩ => rfl | ⟨1, _⟩ => rfl
theorem ridx23_at (b : Fin 512) (a : Fin 12) (k : Fin 512) : ridx_main_v23 (ix2 b a) k = ix2 k a :=
  funext fun d => match d with | ⟨0, _⟩ => rfl | ⟨1, _⟩ => rfl
theorem idx22_at (k : Fin 512) (a : Fin 12) : idx_main_v22 (ix2 k a) = ix2 a k :=
  funext fun d => match d with | ⟨0, _⟩ => rfl | ⟨1, _⟩ => rfl
theorem idx24_25_at (b : Fin 512) (a : Fin 12) : idx_main_v24 (idx_main_v25 (ix2 b a)) = ix1 a :=
  funext fun d => match d with | ⟨0, _⟩ => rfl
/-- Splitting a row of 512 into four runs of 128: position (i, c) of batch row b is column 128 i + c. -/
theorem idx21_at (b : Fin 512) (i : Fin 4) (c : Fin 128) :
    idx_main_v21 (ix3 b i c) = ix2 b (⟨128 * i.val + c.val, by have := i.isLt; have := c.isLt; omega⟩ : Fin 512) := by
  have hb := b.isLt
  have hi := i.isLt
  have hc := c.isLt
  refine funext fun a => Fin.ext ?_
  match a with
  | ⟨0, _⟩ =>
    show ((b.val * 4 + i.val) * 128 + c.val) / 512 = b.val
    omega
  | ⟨1, _⟩ =>
    show ((b.val * 4 + i.val) * 128 + c.val) % 512 = 128 * i.val + c.val
    omega

/-! ### The stages -/

/-- The push row at (b, q). -/
theorem push_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (b q : Fin 512) :
    val_main_v20 (F := Ideal) x0 x1 x2 x3 x4 x5 x6 x7 x8 (ix2 b q) = push (hid (row2 x0 b) (row4 x1 b) (row2 x2 b) (mat x3) (vec x4) (mat x5) (vec x6)) (mat x7) (vec x8) q := by
  rw [val_main_v20_apply, val_main_v17_apply, val_main_v19_apply, val_main_v18_apply, idx18_19_at]
  refine congrArg₂ (· + ·) (Finset.sum_congr rfl fun k _ => ?_) rfl
  rw [lidx17_at, ridx17_at, hid_at, val_main_v16_apply, idx16_at]
  rfl

/-- The push row split by stack, at (b, i, c). -/
theorem push3_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (b : Fin 512) (i : Fin 4) (c : Fin 128) :
    val_main_v21 (F := Ideal) x0 x1 x2 x3 x4 x5 x6 x7 x8 (ix3 b i c)
      = push (hid (row2 x0 b) (row4 x1 b) (row2 x2 b) (mat x3) (vec x4) (mat x5) (vec x6)) (mat x7) (vec x8) ⟨128 * i.val + c.val, by have := i.isLt; have := c.isLt; omega⟩ := by
  rw [val_main_v21_apply, idx21_at, push_at]

/-- The action logits at (b, a). -/
theorem logit_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x9 : (⟨S12x512, .f32⟩ : BufTy).Contents (Elt Ideal)) (x10 : (⟨S12, .f32⟩ : BufTy).Contents (Elt Ideal)) (b : Fin 512) (a : Fin 12) :
    val_main_v26 (F := Ideal) x0 x1 x2 x3 x4 x5 x6 x9 x10 (ix2 b a) = logit (hid (row2 x0 b) (row4 x1 b) (row2 x2 b) (mat x3) (vec x4) (mat x5) (vec x6)) (mat x9) (vec x10) a := by
  rw [val_main_v26_apply, val_main_v23_apply, val_main_v25_apply, val_main_v24_apply, idx24_25_at]
  refine congrArg₂ (· + ·) (Finset.sum_congr rfl fun k _ => ?_) rfl
  rw [lidx23_at, ridx23_at, hid_at, val_main_v22_apply, idx22_at]
  rfl

end Cert.StackCell.Ref

end
-- ==== Proof.RefSoft.lean ====
/-
  The actions in the reference program: the softmax of a batch row's twelve logits, computed as exp(z − max) over
  the sum of those exponentials, with the maximum folded from minus infinity (and joined with it once more) and the
  sum started from zero; then split into three actions per stack.
-/
import proofs.«169338_j85315230368210_2_alg».proof.Proof.Gen.ReferenceIdeal.Read
import proofs.«169338_j85315230368210_2_alg».proof.Proof.Spec
import proofs.«169338_j85315230368210_2_alg».proof.Proof.RefPush

noncomputable section

namespace Cert.StackCell.Ref

open Cert.ReferenceIdeal Cert.ReferenceIdeal.Gen Cert.ReferenceIdeal.Read Idealize.ShloMosaic Idealize.ShloMosaic.ValueIdx
open Cert.StackCell

/-- The host's maximum along the rows of an n0 × n1 array: at row p, the fold of max from the starting value over
    the n1 columns. -/
theorem hostRowMax_apply {n0 n1 : ℕ} {φ : FTy} {u : Shape} (x : FVec Ideal ⟨2, ![n0, n1]⟩ φ) (init : u.Idx → Ideal φ)
    (h' : Shape.ReducesTo ⟨2, ![n0, n1]⟩ [1] ⟨1, ![n0]⟩) (h : Shape.Reduces ⟨2, ![n0, n1]⟩ [1] ⟨1, ![n0]⟩)
    (hu : 0 < u.numel) (p : Fin n0) :
    Host.reduce FloatOps.maximumf x init h' hu (ix1 p)
      = (Finset.univ : Finset (Fin n1)).fold max (init (Shape.Idx.first hu)) (fun k => x (ix2 p k)) := by
  refine (Host.reduce_eq_fold_single FloatOps.maximumf x init h' h hu (ix1 p)).trans ?_
  refine congrArg (fun f => Finset.fold max (init (Shape.Idx.first hu)) f (Finset.univ : Finset (Fin n1))) ?_
  funext k
  refine congrArg x ?_
  funext ax; apply Fin.ext
  match ax with
  | ⟨0, _⟩ => rfl
  | ⟨1, _⟩ => rfl

/-! ### The layout indices at coordinates -/

theorem idx30_31_at (b : Fin 512) (a : Fin 12) : idx_main_v30 (idx_main_v31 (ix2 b a)) = ix1 b :=
  funext fun d => match d with | ⟨0, _⟩ => rfl
theorem idx35_36_at (b : Fin 512) (a : Fin 12) : idx_main_v35 (idx_main_v36 (ix2 b a)) = ix1 b :=
  funext fun d => match d with | ⟨0, _⟩ => rfl
theorem idx34_at (b : Fin 512) (k : Fin 12) : idx_main_v34 (ix1 b) k = ix2 b k :=
  funext fun d => match d with | ⟨0, _⟩ => rfl | ⟨1, _⟩ => rfl
/-- Splitting a row of twelve into four runs of three: position (i, t) of batch row b is column 3 i + t. -/
theorem idx38_at (b : Fin 512) (i : Fin 4) (t : Fin 3) :
    idx_main_v38 (ix3 b i t) = ix2 b (⟨3 * i.val + t.val, by have := i.isLt; have := t.isLt; omega⟩ : Fin 12) := by
  have hb := b.isLt
  have hi := i.isLt
  have ht := t.isLt
  refine funext fun a => Fin.ext ?_
  match a with
  | ⟨0, _⟩ =>
    show ((b.val * 4 + i.val) * 3 + t.val) / 12 = b.val
    omega
  | ⟨1, _⟩ =>
    show ((b.val * 4 + i.val) * 3 + t.val) % 12 = 3 * i.val + t.val
    omega
theorem idx39_at (b : Fin 512) (i : Fin 4) :
    idx_main_v39 (ix3 b i (⟨0, Nat.one_pos⟩ : Fin 1)) = ix3 b i (⟨0, by norm_num⟩ : Fin 3) :=
  funext fun d => match d with | ⟨0, _⟩ => rfl | ⟨1, _⟩ => rfl | ⟨2, _⟩ => rfl
theorem idx40_at (b : Fin 512) (i : Fin 4) :
    idx_main_v40 (ix3 b i (⟨0, Nat.one_pos⟩ : Fin 1)) = ix3 b i (⟨1, by norm_num⟩ : Fin 3) :=
  funext fun d => match d with | ⟨0, _⟩ => rfl | ⟨1, _⟩ => rfl | ⟨2, _⟩ => rfl
theorem idx41_at (b : Fin 512) (i : Fin 4) :
    idx_main_v41 (ix3 b i (⟨0, Nat.one_pos⟩ : Fin 1)) = ix3 b i (⟨2, by norm_num⟩ : Fin 3) :=
  funext fun d => match d with | ⟨0, _⟩ => rfl | ⟨1, _⟩ => rfl | ⟨2, _⟩ => rfl

/-! ### The stages -/

/-- The row maximum of the logits, folded from minus infinity. -/
theorem rowmax_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x9 : (⟨S12x512, .f32⟩ : BufTy).Contents (Elt Ideal)) (x10 : (⟨S12, .f32⟩ : BufTy).Contents (Elt Ideal)) (b : Fin 512) :
    val_main_v27 (F := Ideal) x0 x1 x2 x3 x4 x5 x6 x9 x10 (ix1 b) = (Finset.univ : Finset (Fin 12)).fold max ninf (logit (hid (row2 x0 b) (row4 x1 b) (row2 x2 b) (mat x3) (vec x4) (mat x5) (vec x6)) (mat x9) (vec x10)) := by
  unfold val_main_v27
  refine (hostRowMax_apply (val_main_v26 (F := Ideal) x0 x1 x2 x3 x4 x5 x6 x9 x10) (val_main_cst (F := Ideal))
    reducesTo_S512x12_S512_d1 (by decide) h_S_ b).trans ?_
  refine congrArg₂ (fun i f => Finset.fold max i f (Finset.univ : Finset (Fin 12))) (val_main_cst_apply _)
    (funext fun k => logit_at x0 x1 x2 x3 x4 x5 x6 x9 x10 b k)

/-- The maximum the exponentials are shifted by. -/
theorem top_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x9 : (⟨S12x512, .f32⟩ : BufTy).Contents (Elt Ideal)) (x10 : (⟨S12, .f32⟩ : BufTy).Contents (Elt Ideal)) (b : Fin 512) :
    val_main_v29 (F := Ideal) x0 x1 x2 x3 x4 x5 x6 x9 x10 (ix1 b) = top (logit (hid (row2 x0 b) (row4 x1 b) (row2 x2 b) (mat x3) (vec x4) (mat x5) (vec x6)) (mat x9) (vec x10)) := by
  rw [val_main_v29_apply, val_main_v28_apply, val_main_cst_0_apply, rowmax_at]
  rfl

/-- The shifted exponential of logit a. -/
theorem exp_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x9 : (⟨S12x512, .f32⟩ : BufTy).Contents (Elt Ideal)) (x10 : (⟨S12, .f32⟩ : BufTy).Contents (Elt Ideal)) (b : Fin 512) (a : Fin 12) :
    val_main_v33 (F := Ideal) x0 x1 x2 x3 x4 x5 x6 x9 x10 (ix2 b a) = Ideal.exp ((logit (hid (row2 x0 b) (row4 x1 b) (row2 x2 b) (mat x3) (vec x4) (mat x5) (vec x6)) (mat x9) (vec x10)) a - top (logit (hid (row2 x0 b) (row4 x1 b) (row2 x2 b) (mat x3) (vec x4) (mat x5) (vec x6)) (mat x9) (vec x10))) := by
  rw [val_main_v33_apply, val_main_v32_apply, val_main_v31_apply, val_main_v30_apply, idx30_31_at, top_at, logit_at]
  rfl

/-- The sum of the shifted exponentials, started from zero. -/
theorem expsum_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x9 : (⟨S12x512, .f32⟩ : BufTy).Contents (Elt Ideal)) (x10 : (⟨S12, .f32⟩ : BufTy).Contents (Elt Ideal)) (b : Fin 512) :
    val_main_v34 (F := Ideal) x0 x1 x2 x3 x4 x5 x6 x9 x10 (ix1 b) = zero + ∑ c : Fin 12, Ideal.exp ((logit (hid (row2 x0 b) (row4 x1 b) (row2 x2 b) (mat x3) (vec x4) (mat x5) (vec x6)) (mat x9) (vec x10)) c - top (logit (hid (row2 x0 b) (row4 x1 b) (row2 x2 b) (mat x3) (vec x4) (mat x5) (vec x6)) (mat x9) (vec x10))) := by
  rw [val_main_v34_apply, val_main_cst_1_apply]
  refine congrArg₂ (· + ·) rfl (Finset.sum_congr rfl fun k _ => ?_)
  rw [idx34_at, exp_at]

/-- The softmax at (b, a). -/
theorem soft_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x9 : (⟨S12x512, .f32⟩ : BufTy).Contents (Elt Ideal)) (x10 : (⟨S12, .f32⟩ : BufTy).Contents (Elt Ideal)) (b : Fin 512) (a : Fin 12) :
    val_main_v37 (F := Ideal) x0 x1 x2 x3 x4 x5 x6 x9 x10 (ix2 b a) = acts (hid (row2 x0 b) (row4 x1 b) (row2 x2 b) (mat x3) (vec x4) (mat x5) (vec x6)) (mat x9) (vec x10) a := by
  rw [val_main_v37_apply, val_main_v36_apply, val_main_v35_apply, idx35_36_at, expsum_at, exp_at]
  rfl

/-- Action t of stack i. -/
theorem act_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x9 : (⟨S12x512, .f32⟩ : BufTy).Contents (Elt Ideal)) (x10 : (⟨S12, .f32⟩ : BufTy).Contents (Elt Ideal)) (b : Fin 512) (i : Fin 4) (t : Fin 3) :
    val_main_v38 (F := Ideal) x0 x1 x2 x3 x4 x5 x6 x9 x10 (ix3 b i t)
      = acts (hid (row2 x0 b) (row4 x1 b) (row2 x2 b) (mat x3) (vec x4) (mat x5) (vec x6)) (mat x9) (vec x10) ⟨3 * i.val + t.val, by have := i.isLt; have := t.isLt; omega⟩ := by
  rw [val_main_v38_apply, idx38_at, soft_at]

/-- The push action of stack i. -/
theorem pushAct_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x9 : (⟨S12x512, .f32⟩ : BufTy).Contents (Elt Ideal)) (x10 : (⟨S12, .f32⟩ : BufTy).Contents (Elt Ideal)) (b : Fin 512) (i : Fin 4) :
    val_main_v39 (F := Ideal) x0 x1 x2 x3 x4 x5 x6 x9 x10 (ix3 b i (⟨0, Nat.one_pos⟩ : Fin 1))
      = acts (hid (row2 x0 b) (row4 x1 b) (row2 x2 b) (mat x3) (vec x4) (mat x5) (vec x6)) (mat x9) (vec x10) ⟨3 * i.val, by have := i.isLt; omega⟩ := by
  rw [val_main_v39_apply, idx39_at, act_at]
  rfl

/-- The pop action of stack i. -/
theorem popAct_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x9 : (⟨S12x512, .f32⟩ : BufTy).Contents (Elt Ideal)) (x10 : (⟨S12, .f32⟩ : BufTy).Contents (Elt Ideal)) (b : Fin 512) (i : Fin 4) :
    val_main_v40 (F := Ideal) x0 x1 x2 x3 x4 x5 x6 x9 x10 (ix3 b i (⟨0, Nat.one_pos⟩ : Fin 1))
      = acts (hid (row2 x0 b) (row4 x1 b) (row2 x2 b) (mat x3) (vec x4) (mat x5) (vec x6)) (mat x9) (vec x10) ⟨3 * i.val + 1, by have := i.isLt; omega⟩ := by
  rw [val_main_v40_apply, idx40_at, act_at]

/-- The keep action of stack i. -/
theorem keepAct_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x9 : (⟨S12x512, .f32⟩ : BufTy).Contents (Elt Ideal)) (x10 : (⟨S12, .f32⟩ : BufTy).Contents (Elt Ideal)) (b : Fin 512) (i : Fin 4) :
    val_main_v41 (F := Ideal) x0 x1 x2 x3 x4 x5 x6 x9 x10 (ix3 b i (⟨0, Nat.one_pos⟩ : Fin 1))
      = acts (hid (row2 x0 b) (row4 x1 b) (row2 x2 b) (mat x3) (vec x4) (mat x5) (vec x6)) (mat x9) (vec x10) ⟨3 * i.val + 2, by have := i.isLt; omega⟩ := by
  rw [val_main_v41_apply, idx41_at, act_at]

end Cert.StackCell.Ref

end
-- ==== Proof.RefCell.lean ====
/-
  The updated stacks in the reference program: the new top cell of each stack blends the pushed value, the cell
  below and the old top; every other cell blends the cell above, the cell below (zero under the bottom) and itself;
  the result is the top row followed by the rest.
-/
import proofs.«169338_j85315230368210_2_alg».proof.Proof.Gen.ReferenceIdeal.Read
import proofs.«169338_j85315230368210_2_alg».proof.Proof.Spec
import proofs.«169338_j85315230368210_2_alg».proof.Proof.RefSoft

noncomputable section

namespace Cert.StackCell.Ref

open Cert.ReferenceIdeal Cert.ReferenceIdeal.Gen Cert.ReferenceIdeal.Read Idealize.ShloMosaic Idealize.ShloMosaic.ValueIdx
open Cert.StackCell

/-! ### The layout indices at coordinates -/

theorem idx42_at (b : Fin 512) (i : Fin 4) (c : Fin 128) : idx_main_v42 (ix3 b i c) = ix3 b i (⟨0, Nat.one_pos⟩ : Fin 1) :=
  funext fun d => match d with | ⟨0, _⟩ => rfl | ⟨1, _⟩ => rfl | ⟨2, _⟩ => rfl
theorem idx46_at (b : Fin 512) (i : Fin 4) (c : Fin 128) : idx_main_v46 (ix3 b i c) = ix3 b i (⟨0, Nat.one_pos⟩ : Fin 1) :=
  funext fun d => match d with | ⟨0, _⟩ => rfl | ⟨1, _⟩ => rfl | ⟨2, _⟩ => rfl
theorem idx51_at (b : Fin 512) (i : Fin 4) (c : Fin 128) : idx_main_v51 (ix3 b i c) = ix3 b i (⟨0, Nat.one_pos⟩ : Fin 1) :=
  funext fun d => match d with | ⟨0, _⟩ => rfl | ⟨1, _⟩ => rfl | ⟨2, _⟩ => rfl

/-- Row 1 of every stack, with the unit axis dropped: position (b, i, c) reads cell (b, i, 1, c). -/
theorem idx44_45_at (b : Fin 512) (i : Fin 4) (c : Fin 128) :
    idx_main_v44 (idx_main_v45 (ix3 b i c)) = ix4 b i (⟨1, by norm_num⟩ : Fin 128) c := by
  have hb := b.isLt
  have hi := i.isLt
  have hc := c.isLt
  refine funext fun d => Fin.ext ?_
  match d with
  | ⟨0, _⟩ =>
    show ((b.val * 4 + i.val) * 128 + c.val) / 512 = b.val
    omega
  | ⟨1, _⟩ =>
    show ((b.val * 4 + i.val) * 128 + c.val) / 128 % 4 = i.val
    omega
  | ⟨2, _⟩ => rfl
  | ⟨3, _⟩ =>
    show ((b.val * 4 + i.val) * 128 + c.val) % 128 = c.val
    omega

/-- Row 0 of every stack, with the unit axis dropped: position (b, i, c) reads cell (b, i, 0, c). -/
theorem idx49_50_at (b : Fin 512) (i : Fin 4) (c : Fin 128) :
    idx_main_v49 (idx_main_v50 (ix3 b i c)) = ix4 b i (⟨0, by norm_num⟩ : Fin 128) c := by
  have hb := b.isLt
  have hi := i.isLt
  have hc := c.isLt
  refine funext fun d => Fin.ext ?_
  match d with
  | ⟨0, _⟩ =>
    show ((b.val * 4 + i.val) * 128 + c.val) / 512 = b.val
    omega
  | ⟨1, _⟩ =>
    show ((b.val * 4 + i.val) * 128 + c.val) / 128 % 4 = i.val
    omega
  | ⟨2, _⟩ => rfl
  | ⟨3, _⟩ =>
    show ((b.val * 4 + i.val) * 128 + c.val) % 128 = c.val
    omega

/-- Rows 2 … 127: position r reads row r + 2. -/
theorem idx55_at (b : Fin 512) (i : Fin 4) (r : Fin 126) (c : Fin 128) :
    idx_main_v55 (ix4 b i r c) = ix4 b i (⟨r.val + 1 + 1, by have := r.isLt; omega⟩ : Fin 128) c := by
  refine funext fun d => Fin.ext ?_
  match d with
  | ⟨0, _⟩ => rfl
  | ⟨1, _⟩ => rfl
  | ⟨2, _⟩ =>
    show 2 + r.val = r.val + 1 + 1
    omega
  | ⟨3, _⟩ => rfl

/-- Rows 0 … 126: position r reads row r, the row above row r + 1. -/
theorem idx58_at (b : Fin 512) (i : Fin 4) (r : Fin 127) (c : Fin 128) :
    idx_main_v58 (ix4 b i r c) = ix4 b i (⟨r.val + 1 - 1, by have := r.isLt; omega⟩ : Fin 128) c := by
  refine funext fun d => Fin.ext ?_
  match d with
  | ⟨0, _⟩ => rfl
  | ⟨1, _⟩ => rfl
  | ⟨2, _⟩ =>
    show r.val = r.val + 1 - 1
    omega
  | ⟨3, _⟩ => rfl

/-- Rows 1 … 127: position r reads row r + 1. -/
theorem idx66_at (b : Fin 512) (i : Fin 4) (r : Fin 127) (c : Fin 128) :
    idx_main_v66 (ix4 b i r c) = ix4 b i (⟨r.val + 1, by have := r.isLt; omega⟩ : Fin 128) c := by
  refine funext fun d => Fin.ext ?_
  match d with
  | ⟨0, _⟩ => rfl
  | ⟨1, _⟩ => rfl
  | ⟨2, _⟩ =>
    show 1 + r.val = r.val + 1
    omega
  | ⟨3, _⟩ => rfl

theorem idx57_59_at (b : Fin 512) (i : Fin 4) (r : Fin 127) (c : Fin 128) :
    idx_main_v57 (idx_main_v59 (ix4 b i r c)) = ix3 b i (⟨0, Nat.one_pos⟩ : Fin 1) :=
  funext fun d => match d with | ⟨0, _⟩ => rfl | ⟨1, _⟩ => rfl | ⟨2, _⟩ => rfl
theorem idx61_62_at (b : Fin 512) (i : Fin 4) (r : Fin 127) (c : Fin 128) :
    idx_main_v61 (idx_main_v62 (ix4 b i r c)) = ix3 b i (⟨0, Nat.one_pos⟩ : Fin 1) :=
  funext fun d => match d with | ⟨0, _⟩ => rfl | ⟨1, _⟩ => rfl | ⟨2, _⟩ => rfl
theorem idx65_67_at (b : Fin 512) (i : Fin 4) (r : Fin 127) (c : Fin 128) :
    idx_main_v65 (idx_main_v67 (ix4 b i r c)) = ix3 b i (⟨0, Nat.one_pos⟩ : Fin 1) :=
  funext fun d => match d with | ⟨0, _⟩ => rfl | ⟨1, _⟩ => rfl | ⟨2, _⟩ => rfl
theorem idx70_at (b : Fin 512) (i : Fin 4) (c : Fin 128) :
    idx_main_v70 (ix4 b i (⟨0, Nat.one_pos⟩ : Fin 1) c) = ix3 b i c :=
  funext fun d => match d with | ⟨0, _⟩ => rfl | ⟨1, _⟩ => rfl | ⟨2, _⟩ => rfl

/-! ### The new top cell -/

/-- Cell 0 of stack i at column c. -/
theorem topCell_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S12x512, .f32⟩ : BufTy).Contents (Elt Ideal)) (x10 : (⟨S12, .f32⟩ : BufTy).Contents (Elt Ideal)) (b : Fin 512) (i : Fin 4) (c : Fin 128) :
    val_main_v53 (F := Ideal) x0 x1 x2 x3 x4 x5 x6 x7 x8 x9 x10 (ix3 b i c) = newCell (row2 x0 b) (row4 x1 b) (row2 x2 b) (mat x3) (vec x4) (mat x5) (vec x6) (mat x7) (vec x8) (mat x9) (vec x10) i ⟨0, by norm_num⟩ c := by
  rw [val_main_v53_apply, val_main_v48_apply, val_main_v43_apply, val_main_v47_apply, val_main_v52_apply,
    val_main_v42_apply, idx42_at, pushAct_at, push3_at,
    val_main_v46_apply, idx46_at, popAct_at, val_main_v45_apply, val_main_v44_apply, idx44_45_at,
    val_main_v51_apply, idx51_at, keepAct_at, val_main_v50_apply, val_main_v49_apply, idx49_50_at]
  unfold newCell cell
  have h0 : (⟨0, by norm_num⟩ : Fin 128).val = 0 := rfl
  have h1 : ¬ ((⟨0, by norm_num⟩ : Fin 128).val = 127) := by decide
  rw [dif_pos h0, dif_neg h1]
  rfl

/-! ### The other cells -/

/-- The rows popped up by one: row r + 2 of the old stack, and zero under the bottom row. -/
theorem popped_at (x1 : (⟨S512x4x128x128, .f32⟩ : BufTy).Contents (Elt Ideal)) (b : Fin 512) (i : Fin 4) (r : Fin 127) (c : Fin 128) :
    val_main_v56 (F := Ideal) x1 (ix4 b i r c)
      = if h : r.val + 1 = 127 then zero
        else x1 (ix4 b i (⟨r.val + 1 + 1, by have := r.isLt; omega⟩ : Fin 128) c) := by
  unfold val_main_v56
  have hr := r.isLt
  by_cases h : r.val + 1 = 127
  · rw [dif_pos h]
    refine (concatenate_pair_apply_right _ (val_main_v55 (F := Ideal) x1) (val_main_v54 (F := Ideal)) _ (ix4 b i r c) rfl rfl
      (ix4 b i (⟨0, Nat.one_pos⟩ : Fin 1) c) ?_ ?_).trans ?_
    · intro a ha
      match a with
      | ⟨0, _⟩ => rfl
      | ⟨1, _⟩ => rfl
      | ⟨2, _⟩ => exact absurd rfl ha
      | ⟨3, _⟩ => rfl
    · show 0 + 126 = r.val
      omega
    · rw [val_main_v54_apply, val_main_cst_2_apply]
      rfl
  · rw [dif_neg h]
    refine (concatenate_pair_apply_left _ (val_main_v55 (F := Ideal) x1) (val_main_v54 (F := Ideal)) _ (ix4 b i r c) rfl
      (ix4 b i (⟨r.val, by omega⟩ : Fin 126) c)
      (fun a => match a with | ⟨0, _⟩ => rfl | ⟨1, _⟩ => rfl | ⟨2, _⟩ => rfl | ⟨3, _⟩ => rfl)).trans ?_
    rw [val_main_v55_apply, idx55_at]

/-- Cell r + 1 of stack i at column c; the push row plays no part below the top. -/
theorem restCell_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S12x512, .f32⟩ : BufTy).Contents (Elt Ideal)) (x10 : (⟨S12, .f32⟩ : BufTy).Contents (Elt Ideal)) (b : Fin 512) (i : Fin 4) (r : Fin 127) (c : Fin 128) :
    val_main_v69 (F := Ideal) x0 x1 x2 x3 x4 x5 x6 x9 x10 (ix4 b i r c) = newCell (row2 x0 b) (row4 x1 b) (row2 x2 b) (mat x3) (vec x4) (mat x5) (vec x6) (mat x7) (vec x8) (mat x9) (vec x10) i ⟨r.val + 1, by have := r.isLt; omega⟩ c := by
  rw [val_main_v69_apply, val_main_v64_apply, val_main_v60_apply, val_main_v63_apply, val_main_v68_apply,
    val_main_v59_apply, val_main_v57_apply, idx57_59_at, pushAct_at, val_main_v58_apply, idx58_at,
    val_main_v62_apply, val_main_v61_apply, idx61_62_at, popAct_at, popped_at,
    val_main_v67_apply, val_main_v65_apply, idx65_67_at, keepAct_at, val_main_v66_apply, idx66_at]
  unfold newCell cell
  have h0 : ¬ ((⟨r.val + 1, by have := r.isLt; omega⟩ : Fin 128).val = 0) := Nat.succ_ne_zero _
  rw [dif_neg h0]
  rfl

/-! ### The whole result -/

/-- The joined result at the top row. -/
theorem updated_top_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S12x512, .f32⟩ : BufTy).Contents (Elt Ideal)) (x10 : (⟨S12, .f32⟩ : BufTy).Contents (Elt Ideal)) (b : Fin 512) (i : Fin 4) (c : Fin 128) :
    val_main_v71 (F := Ideal) x0 x1 x2 x3 x4 x5 x6 x7 x8 x9 x10 (ix4 b i (⟨0, by norm_num⟩ : Fin 128) c) = newCell (row2 x0 b) (row4 x1 b) (row2 x2 b) (mat x3) (vec x4) (mat x5) (vec x6) (mat x7) (vec x8) (mat x9) (vec x10) i ⟨0, by norm_num⟩ c := by
  unfold val_main_v71
  refine (concatenate_pair_apply_left _ (val_main_v70 (F := Ideal) x0 x1 x2 x3 x4 x5 x6 x7 x8 x9 x10) (val_main_v69 (F := Ideal) x0 x1 x2 x3 x4 x5 x6 x9 x10) _
    (ix4 b i (⟨0, by norm_num⟩ : Fin 128) c) rfl (ix4 b i (⟨0, Nat.one_pos⟩ : Fin 1) c)
    (fun a => match a with | ⟨0, _⟩ => rfl | ⟨1, _⟩ => rfl | ⟨2, _⟩ => rfl | ⟨3, _⟩ => rfl)).trans ?_
  rw [val_main_v70_apply, idx70_at, topCell_at]

/-- The joined result at row r + 1. -/
theorem updated_rest_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S12x512, .f32⟩ : BufTy).Contents (Elt Ideal)) (x10 : (⟨S12, .f32⟩ : BufTy).Contents (Elt Ideal)) (b : Fin 512) (i : Fin 4) (r : Fin 127) (c : Fin 128) :
    val_main_v71 (F := Ideal) x0 x1 x2 x3 x4 x5 x6 x7 x8 x9 x10 (ix4 b i (⟨r.val + 1, Nat.succ_lt_succ r.isLt⟩ : Fin 128) c)
      = newCell (row2 x0 b) (row4 x1 b) (row2 x2 b) (mat x3) (vec x4) (mat x5) (vec x6) (mat x7) (vec x8) (mat x9) (vec x10) i ⟨r.val + 1, Nat.succ_lt_succ r.isLt⟩ c := by
  unfold val_main_v71
  refine (concatenate_pair_apply_right _ (val_main_v70 (F := Ideal) x0 x1 x2 x3 x4 x5 x6 x7 x8 x9 x10) (val_main_v69 (F := Ideal) x0 x1 x2 x3 x4 x5 x6 x9 x10) _
    (ix4 b i (⟨r.val + 1, Nat.succ_lt_succ r.isLt⟩ : Fin 128) c) rfl rfl (ix4 b i r c) ?_ ?_).trans ?_
  · intro a ha
    match a with
    | ⟨0, _⟩ => rfl
    | ⟨1, _⟩ => rfl
    | ⟨2, _⟩ => exact absurd rfl ha
    | ⟨3, _⟩ => rfl
  · rfl
  · exact restCell_at x0 x1 x2 x3 x4 x5 x6 x7 x8 x9 x10 b i r c

/-- The updated stacks at (b, i, s, c). -/
theorem updated_at (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S12x512, .f32⟩ : BufTy).Contents (Elt Ideal)) (x10 : (⟨S12, .f32⟩ : BufTy).Contents (Elt Ideal)) (b : Fin 512) (i : Fin 4) (s c : Fin 128) :
    val_main_v71 (F := Ideal) x0 x1 x2 x3 x4 x5 x6 x7 x8 x9 x10 (ix4 b i s c) = newCell (row2 x0 b) (row4 x1 b) (row2 x2 b) (mat x3) (vec x4) (mat x5) (vec x6) (mat x7) (vec x8) (mat x9) (vec x10) i s c := by
  by_cases h : s.val = 0
  · obtain rfl : s = ⟨0, by norm_num⟩ := Fin.ext h
    exact updated_top_at x0 x1 x2 x3 x4 x5 x6 x7 x8 x9 x10 b i c
  · obtain ⟨r, rfl⟩ : ∃ r : Fin 127, s = ⟨r.val + 1, Nat.succ_lt_succ r.isLt⟩ :=
      ⟨⟨s.val - 1, by have := s.isLt; omega⟩, Fin.ext (by show s.val = s.val - 1 + 1; omega)⟩
    exact updated_rest_at x0 x1 x2 x3 x4 x5 x6 x7 x8 x9 x10 b i r c

/-- The reference's second result is the specification's updated stacks. -/
theorem ref_updated (x0 : (⟨S512x256, .f32⟩ : BufTy).Contents (Elt Ideal)) (x1 : (⟨S512x4x128x128, .f32⟩ : BufTy).Contents (Elt Ideal)) (x2 : (⟨S512x512, .f32⟩ : BufTy).Contents (Elt Ideal)) (x3 : (⟨S512x768, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S12x512, .f32⟩ : BufTy).Contents (Elt Ideal)) (x10 : (⟨S12, .f32⟩ : BufTy).Contents (Elt Ideal)) :
    val_main_v71 (F := Ideal) x0 x1 x2 x3 x4 x5 x6 x7 x8 x9 x10 = updated x0 x1 x2 x3 x4 x5 x6 x7 x8 x9 x10 := by
  funext j
  obtain ⟨b, i, s, c, rfl⟩ : ∃ (b : Fin 512) (i : Fin 4) (s c : Fin 128), j = ix4 b i s c := ⟨j 0, j 1, j 2, j 3, eq_ix4 j⟩
  exact updated_at x0 x1 x2 x3 x4 x5 x6 x7 x8 x9 x10 b i s c

end Cert.StackCell.Ref

end
-- ==== Proof.Claims.lean ====
/-
  The five claims, assembled.

  The two kernel programs' frames and the reference's are their own runs with the results dropped. For the value
  claim, each program's run ends with its two results at a function of that run's argument arrays: the kernel's run
  at the specification's hidden state and updated stacks (taken here as a hypothesis on the kernel's run), and the
  reference's run at its last two stages, which are the same two functions. From memories that agree on the eleven
  arguments the two pairs of results are therefore one pair of arrays.
-/
import proofs.«169338_j85315230368210_2_alg».proof.Defs
import proofs.«169338_j85315230368210_2_alg».proof.Proof.Gen.Kernel
import proofs.«169338_j85315230368210_2_alg».proof.Proof.Gen.Kernel.Frame
import proofs.«169338_j85315230368210_2_alg».proof.Proof.Gen.KernelIdeal
import proofs.«169338_j85315230368210_2_alg».proof.Proof.Gen.KernelIdeal.Frame
import proofs.«169338_j85315230368210_2_alg».proof.Proof.Gen.ReferenceIdeal
import proofs.«169338_j85315230368210_2_alg».proof.Proof.Gen.Pre_finite_inputs
import proofs.«169338_j85315230368210_2_alg».proof.Proof.Gen.ReferenceIdeal.Run
import proofs.«169338_j85315230368210_2_alg».proof.Proof.Gen.ReferenceIdeal.Read
import proofs.«169338_j85315230368210_2_alg».proof.Proof.Spec
import proofs.«169338_j85315230368210_2_alg».proof.Proof.RefHidden
import proofs.«169338_j85315230368210_2_alg».proof.Proof.RefCell

noncomputable section

namespace Cert.StackCell.Claims

open Idealize.ShloMosaic Idealize.SL.Sem

/-! ## The frames -/

theorem frame_k : Cert.frame_Kernel := fun m ρ _ => Cert.Kernel.Gen.frame m ρ

theorem frame_ki : Cert.frame_KernelIdeal := fun m ρ _ => Cert.KernelIdeal.Gen.frame m ρ

/-- The reference's run leaves its arguments unchanged: its run with the two results dropped. -/
theorem frame_r : Cert.frame_ReferenceIdeal := fun m ρ _ =>
  (θ_run Cert.ReferenceIdeal.defs _ _).mono (fun _ h c => (h c).2.2)
    (Cert.ReferenceIdeal.Value.run (F := Ideal) m ρ)

/-- The idealized kernel is the kernel's own text: nothing was rewritten. -/
theorem preserves : Cert.preserves_Kernel_KernelIdeal := trivial

/-! ## The value claim -/

/-- The kernel's run at the ideal values: it ends with the first result at the specification's hidden state and the
    second at its updated stacks, both of the launch contents of the arguments, and the arguments unchanged. -/
abbrev KernelRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8_0) = Cert.StackCell.hidden (B := 512) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v8_1) = Cert.StackCell.updated (B := 512) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

/-- From memories agreeing on the arguments the two programs end with equal results: the kernel's run gives the
    specification's two arrays of its arguments, the reference's run gives its last two stages of its own arguments,
    those stages are the specification's two arrays, and the arguments agree. -/
theorem algebraic_of (krun : KernelRun) : Cert.algebraic_KernelIdeal_ReferenceIdeal := by
  intro m ρ m' ρ' _ hagree
  refine ⟨fun c => Cert.StackCell.hidden (B := 512) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.StackCell.updated (B := 512) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), krun m ρ, ?_⟩
  refine (θ_run Cert.ReferenceIdeal.defs _ _).mono (fun _ h c => ⟨?_, ?_, (h c).2.2⟩)
    (Cert.ReferenceIdeal.Value.run (F := Ideal) m' ρ')
  · refine ((h c).1.trans (Cert.ReferenceIdeal.Read.val_main_v15_eq _ _ _ _ _ _ _)).trans ?_
    rw [Cert.StackCell.Ref.ref_hidden, (hagree c).1, (hagree c).2.1, (hagree c).2.2.1, (hagree c).2.2.2.1, (hagree c).2.2.2.2.1, (hagree c).2.2.2.2.2.1, (hagree c).2.2.2.2.2.2.1]
  · refine ((h c).2.1.trans (Cert.ReferenceIdeal.Read.val_main_v71_eq m' c)).trans ?_
    rw [Cert.StackCell.Ref.ref_updated, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

/-! ## The claim -/

/-- Everything claimed, given the kernel's run. -/
theorem claim_of (krun : KernelRun) : Cert.Claim :=
  ⟨Cert.Kernel.Gen.facts, Cert.KernelIdeal.Gen.facts, Cert.ReferenceIdeal.Gen.facts, Cert.Pre_finite_inputs.Gen.facts,
    frame_k, frame_ki, frame_r, preserves, algebraic_of krun⟩

end Cert.StackCell.Claims

end
-- ==== Proof.ArrIndex.lean ====
/-
  The index maps of the two batched outputs and of the three batched inputs, over the thirty-two grid points:
  point t is handed block t along the batch axis and block 0 along every other axis. Every other window (the four
  weight matrices and the four bias vectors) is handed its one whole block at every point.
-/
import proofs.«169338_j85315230368210_2_alg».proof.Proof.Gen.KernelIdeal.Value

noncomputable section

namespace Cert.StackCell.Arr

open Cert.KernelIdeal Cert.KernelIdeal.Gen Idealize.ShloMosaic

/-- The inputs' block at point t: block t of the batch axis. -/
theorem idx_inputs : ∀ t : Fin cfg0.N, win0_0.index t (0 : Fin 2) = t.val ∧ win0_0.index t (1 : Fin 2) = 0 :=
  (by decide +kernel : ∀ t : Fin grid0.N, _)

/-- The stacks' block at point t: block t of the batch axis. -/
theorem idx_stacks : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The core state's block at point t: block t of the batch axis. -/
theorem idx_core : ∀ t : Fin cfg0.N, win0_2.index t (0 : Fin 2) = t.val ∧ win0_2.index t (1 : Fin 2) = 0 :=
  (by decide +kernel : ∀ t : Fin grid0.N, _)

/-- The hidden output's block at point t: block t of the batch axis. -/
theorem idx_hidden : ∀ t : Fin cfg0.N, win0_11.index t (0 : Fin 2) = t.val ∧ win0_11.index t (1 : Fin 2) = 0 :=
  (by decide +kernel : ∀ t : Fin grid0.N, _)

/-- The stacks output's block at point t: block t of the batch axis. -/
theorem idx_updated : ∀ t : Fin cfg0.N, win0_12.index t (0 : Fin 4) = t.val ∧ win0_12.index t (1 : Fin 4) = 0
    ∧ win0_12.index t (2 : Fin 4) = 0 ∧ win0_12.index t (3 : Fin 4) = 0 :=
  (by decide +kernel : ∀ t : Fin grid0.N, _)

/-- The weight matrices' and bias vectors' one block, at every point. -/
theorem idx_whole : ∀ t : Fin cfg0.N,
    (win0_3.index t (0 : Fin 2) = 0 ∧ win0_3.index t (1 : Fin 2) = 0) ∧ win0_4.index t (0 : Fin 1) = 0
    ∧ (win0_5.index t (0 : Fin 2) = 0 ∧ win0_5.index t (1 : Fin 2) = 0) ∧ win0_6.index t (0 : Fin 1) = 0
    ∧ (win0_7.index t (0 : Fin 2) = 0 ∧ win0_7.index t (1 : Fin 2) = 0) ∧ win0_8.index t (0 : Fin 1) = 0
    ∧ (win0_9.index t (0 : Fin 2) = 0 ∧ win0_9.index t (1 : Fin 2) = 0) ∧ win0_10.index t (0 : Fin 1) = 0 :=
  (by decide +kernel : ∀ t : Fin grid0.N, _)

/-- The grid has thirty-two points. -/
theorem points : cfg0.N = 32 := N_0

end Cert.StackCell.Arr

end
-- ==== Proof.ArrInputs.lean ====
/-
  What the region finds in each of its eleven input windows, read through the specification's readers.

  The four weight matrices reach the region transposed and re-formatted by the host; at exact arithmetic the change of
  format is the identity, so each of them read transposed is the launched matrix read by rows. The three batched
  arrays are cut along the batch axis into thirty-two blocks of sixteen rows: row p of block t is row 16 t + p of the
  array. Each weight matrix and each bias vector is one whole block at every point.
-/
import proofs.«169338_j85315230368210_2_alg».proof.Proof.Gen.KernelIdeal.Value
import proofs.«169338_j85315230368210_2_alg».proof.Proof.Spec
import proofs.«169338_j85315230368210_2_alg».proof.Proof.ArrIndex
import Idealize.ShloMosaic.Lib.StableHlo.Run

noncomputable section

namespace Cert.StackCell.Arr

open Cert.KernelIdeal Cert.KernelIdeal.Gen Idealize.ShloMosaic Idealize.ShloMosaic.TcCoe Idealize.SL.Sem
open Idealize.ShloMosaic.ValueIdx Cert.StackCell

variable (m : (ℓ : Loc nD τ sig) → Buf (Elt Ideal) ℓ)

/-! ## The weight matrices as the host hands them over -/

/-- The input-to-hidden weights as the region finds them: the launched matrix transposed, then re-formatted. -/
theorem found_wih (c : Dev nD) : (V m c main_v1 : S768x512.Idx → EReal)
    = (truncf (F := Ideal) .bf16 (transpose S768x512 [1, 0] (m ((c : Thread nD τ).loc main_arg3) : S512x768.Idx → EReal) transposes_S512x768_S768x512_1_0 : FVec Ideal S768x512 .f32) bitsLt_bf16_f32 : S768x512.Idx → EReal) := by
  dsimp only [Gen.V, Gen.hostOps0]; after_results

/-- The hidden-to-hidden weights as the region finds them. -/
theorem found_whh (c : Dev nD) : (V m c main_v3 : S512x512.Idx → EReal)
    = (truncf (F := Ideal) .bf16 (transpose S512x512 [1, 0] (m ((c : Thread nD τ).loc main_arg5) : S512x512.Idx → EReal) transposes_S512x512_S512x512_1_0 : FVec Ideal S512x512 .f32) bitsLt_bf16_f32 : S512x512.Idx → EReal) := by
  dsimp only [Gen.V, Gen.hostOps0]; after_results

/-- The push weights as the region finds them. -/
theorem found_wpush (c : Dev nD) : (V m c main_v5 : S512x512.Idx → EReal)
    = (truncf (F := Ideal) .bf16 (transpose S512x512 [1, 0] (m ((c : Thread nD τ).loc main_arg7) : S512x512.Idx → EReal) transposes_S512x512_S512x512_1_0 : FVec Ideal S512x512 .f32) bitsLt_bf16_f32 : S512x512.Idx → EReal) := by
  dsimp only [Gen.V, Gen.hostOps0]; after_results

/-- The action weights as the region finds them. -/
theorem found_wact (c : Dev nD) : (V m c main_v7 : S512x12.Idx → EReal)
    = (truncf (F := Ideal) .bf16 (transpose S512x12 [1, 0] (m ((c : Thread nD τ).loc main_arg9) : S12x512.Idx → EReal) transposes_S12x512_S512x12_1_0 : FVec Ideal S512x12 .f32) bitsLt_bf16_f32 : S512x12.Idx → EReal) := by
  dsimp only [Gen.V, Gen.hostOps0]; after_results

/-- Read transposed, they are the launched input-to-hidden matrix read by rows. -/
theorem wih_found (c : Dev nD) :
    matT (V m c main_v1 : S768x512.Idx → EReal) = mat (m ((c : Thread nD τ).loc main_arg3) : S512x768.Idx → EReal) := by
  funext j k
  unfold matT mat
  rw [found_wih, truncf_apply]
  exact transpose_apply [1, 0] _ transposes_S512x768_S768x512_1_0 (ix2 k j) (ix2 j k) fun b => by
    match b with
    | ⟨0, _⟩ => rfl
    | ⟨1, _⟩ => rfl

/-- Read transposed, they are the launched hidden-to-hidden matrix read by rows. -/
theorem whh_found (c : Dev nD) :
    matT (V m c main_v3 : S512x512.Idx → EReal) = mat (m ((c : Thread nD τ).loc main_arg5) : S512x512.Idx → EReal) := by
  funext j k
  unfold matT mat
  rw [found_whh, truncf_apply]
  exact transpose_apply [1, 0] _ transposes_S512x512_S512x512_1_0 (ix2 k j) (ix2 j k) fun b => by
    match b with
    | ⟨0, _⟩ => rfl
    | ⟨1, _⟩ => rfl

/-- Read transposed, they are the launched push matrix read by rows. -/
theorem wpush_found (c : Dev nD) :
    matT (V m c main_v5 : S512x512.Idx → EReal) = mat (m ((c : Thread nD τ).loc main_arg7) : S512x512.Idx → EReal) := by
  funext j k
  unfold matT mat
  rw [found_wpush, truncf_apply]
  exact transpose_apply [1, 0] _ transposes_S512x512_S512x512_1_0 (ix2 k j) (ix2 j k) fun b => by
    match b with
    | ⟨0, _⟩ => rfl
    | ⟨1, _⟩ => rfl

/-- Read transposed, they are the launched action matrix read by rows. -/
theorem wact_found (c : Dev nD) :
    matT (V m c main_v7 : S512x12.Idx → EReal) = mat (m ((c : Thread nD τ).loc main_arg9) : S12x512.Idx → EReal) := by
  funext j k
  unfold matT mat
  rw [found_wact, truncf_apply]
  exact transpose_apply [1, 0] _ transposes_S12x512_S512x12_1_0 (ix2 k j) (ix2 j k) fun b => by
    match b with
    | ⟨0, _⟩ => rfl
    | ⟨1, _⟩ => rfl

end Cert.StackCell.Arr

end
-- ==== Proof.ArrBlocks.lean ====
/-
  The blocks a grid point is handed, read through the specification's readers.

  Along the batch axis the three batched arrays are cut into thirty-two blocks of sixteen rows, and point t is handed
  block t: row p of its block is row 16 t + p of the array. Each weight matrix and each bias vector is one whole
  block, handed to every point: read through the specification's readers it is the launched matrix or vector.
  An entry's coordinate on an axis is always the block's index times the block's extent plus the coordinate inside
  the block.
-/
import proofs.«169338_j85315230368210_2_alg».proof.Proof.ArrInputs

noncomputable section

namespace Cert.StackCell.Arr

open Cert.KernelIdeal Cert.KernelIdeal.Gen Idealize.ShloMosaic Idealize.ShloMosaic.TcCoe Idealize.SL.Sem
open Idealize.ShloMosaic.ValueIdx Cert.StackCell

variable (m : (ℓ : Loc nD τ sig) → Buf (Elt Ideal) ℓ)

/-! ## The batched arrays, entry by entry -/

/-- An entry of point t's block of the inputs is the entry of the array sixteen t rows further down. -/
theorem inputs_entry (c : Dev nD) (t : Fin cfg0.N) (x : S16x256.Idx) (k : S512x256.Idx)
    (hk0 : (k 0).val = 16 * t.val + (x 0).val) (hk1 : (k 1).val = (x 1).val) :
    (iblk m c 0 t : Vec Ideal S16x256 .f32) x = (m ((c : Thread nD τ).loc main_arg0) : S512x256.Idx → EReal) k := by
  obtain ⟨e0, e1⟩ := idx_inputs t
  unfold iblk
  rw [View.read_apply]
  show V m c main_arg0 _ = _
  rw [V_main_arg0]
  refine congrArg (m ((c : Thread nD τ).loc main_arg0) : S512x256.Idx → EReal) (funext fun a => Fin.ext ?_)
  match a with
  | ⟨0, _⟩ => show win0_0.index t (0 : Fin 2) * 16 + 1 * (x 0).val = (k 0).val; rw [e0, hk0]; omega
  | ⟨1, _⟩ => show win0_0.index t (1 : Fin 2) * 256 + 1 * (x 1).val = (k 1).val; rw [e1, hk1]; omega

/-- An entry of point t's block of the stacks is the entry of the array sixteen t rows further down. -/
theorem stacks_entry (c : Dev nD) (t : Fin cfg0.N) (x : S16x4x128x128.Idx) (k : S512x4x128x128.Idx)
    (hk0 : (k 0).val = 16 * t.val + (x 0).val) (hk1 : (k 1).val = (x 1).val) (hk2 : (k 2).val = (x 2).val)
    (hk3 : (k 3).val = (x 3).val) :
    (iblk m c 1 t : Vec Ideal S16x4x128x128 .f32) x = (m ((c : Thread nD τ).loc main_arg1) : S512x4x128x128.Idx → EReal) k := by
  obtain ⟨e0, e1, e2, e3⟩ := idx_stacks t
  unfold iblk
  rw [View.read_apply]
  show V m c main_arg1 _ = _
  rw [V_main_arg1]
  refine congrArg (m ((c : Thread nD τ).loc main_arg1) : S512x4x128x128.Idx → EReal) (funext fun a => Fin.ext ?_)
  match a with
  | ⟨0, _⟩ => show win0_1.index t (0 : Fin 4) * 16 + 1 * (x 0).val = (k 0).val; rw [e0, hk0]; omega
  | ⟨1, _⟩ => show win0_1.index t (1 : Fin 4) * 4 + 1 * (x 1).val = (k 1).val; rw [e1, hk1]; omega
  | ⟨2, _⟩ => show win0_1.index t (2 : Fin 4) * 128 + 1 * (x 2).val = (k 2).val; rw [e2, hk2]; omega
  | ⟨3, _⟩ => show win0_1.index t (3 : Fin 4) * 128 + 1 * (x 3).val = (k 3).val; rw [e3, hk3]; omega

/-- An entry of point t's block of the core state is the entry of the array sixteen t rows further down. -/
theorem core_entry (c : Dev nD) (t : Fin cfg0.N) (x : S16x512.Idx) (k : S512x512.Idx)
    (hk0 : (k 0).val = 16 * t.val + (x 0).val) (hk1 : (k 1).val = (x 1).val) :
    (iblk m c 2 t : Vec Ideal S16x512 .f32) x = (m ((c : Thread nD τ).loc main_arg2) : S512x512.Idx → EReal) k := by
  obtain ⟨e0, e1⟩ := idx_core t
  unfold iblk
  rw [View.read_apply]
  show V m c main_arg2 _ = _
  rw [V_main_arg2]
  refine congrArg (m ((c : Thread nD τ).loc main_arg2) : S512x512.Idx → EReal) (funext fun a => Fin.ext ?_)
  match a with
  | ⟨0, _⟩ => show win0_2.index t (0 : Fin 2) * 16 + 1 * (x 0).val = (k 0).val; rw [e0, hk0]; omega
  | ⟨1, _⟩ => show win0_2.index t (1 : Fin 2) * 512 + 1 * (x 1).val = (k 1).val; rw [e1, hk1]; omega

/-! ## The batched arrays, row by row -/

/-- Row p of point t's block of the inputs is row 16 t + p of the inputs. -/
theorem inputs_row (c : Dev nD) (t : Fin cfg0.N) (p : Fin 16) (hb : 16 * t.val + p.val < 512) :
    row2 (iblk m c 0 t : Vec Ideal S16x256 .f32) p
      = row2 (m ((c : Thread nD τ).loc main_arg0) : S512x256.Idx → EReal) ⟨16 * t.val + p.val, hb⟩ :=
  funext fun k => inputs_entry m c t (ix2 p k) (ix2 ⟨16 * t.val + p.val, hb⟩ k) rfl rfl

/-- Row p of point t's block of the stacks is row 16 t + p of the stacks. -/
theorem stacks_row (c : Dev nD) (t : Fin cfg0.N) (p : Fin 16) (hb : 16 * t.val + p.val < 512) :
    row4 (iblk m c 1 t : Vec Ideal S16x4x128x128 .f32) p
      = row4 (m ((c : Thread nD τ).loc main_arg1) : S512x4x128x128.Idx → EReal) ⟨16 * t.val + p.val, hb⟩ :=
  funext fun i => funext fun s => funext fun k =>
    stacks_entry m c t (ix4 p i s k) (ix4 ⟨16 * t.val + p.val, hb⟩ i s k) rfl rfl rfl rfl

/-- Row p of point t's block of the core state is row 16 t + p of the core state. -/
theorem core_row (c : Dev nD) (t : Fin cfg0.N) (p : Fin 16) (hb : 16 * t.val + p.val < 512) :
    row2 (iblk m c 2 t : Vec Ideal S16x512 .f32) p
      = row2 (m ((c : Thread nD τ).loc main_arg2) : S512x512.Idx → EReal) ⟨16 * t.val + p.val, hb⟩ :=
  funext fun k => core_entry m c t (ix2 p k) (ix2 ⟨16 * t.val + p.val, hb⟩ k) rfl rfl

end Cert.StackCell.Arr

end
-- ==== Proof.ArrWhole.lean ====
/-
  The weight matrices and bias vectors a grid point is handed: each is one whole block, the same at every point.
  A weight matrix's block read transposed is the launched matrix read by rows; a bias vector's block is the launched
  vector.
-/
import proofs.«169338_j85315230368210_2_alg».proof.Proof.ArrInputs

noncomputable section

namespace Cert.StackCell.Arr

open Cert.KernelIdeal Cert.KernelIdeal.Gen Idealize.ShloMosaic Idealize.ShloMosaic.TcCoe Idealize.SL.Sem
open Idealize.ShloMosaic.ValueIdx Cert.StackCell

variable (m : (ℓ : Loc nD τ sig) → Buf (Elt Ideal) ℓ)

/-- The input-to-hidden weights a point is handed, read transposed: the launched matrix by rows. -/
theorem wih_block (c : Dev nD) (t : Fin cfg0.N) :
    matT (iblk m c 3 t : Vec Ideal S768x512 .bf16) = mat (m ((c : Thread nD τ).loc main_arg3) : S512x768.Idx → EReal) := by
  have e : (iblk m c 3 t : Vec Ideal S768x512 .bf16) = (V m c main_v1 : S768x512.Idx → EReal) := by
    have e0 : win0_3.index t (0 : Fin 2) = 0 := (idx_whole t).1.1
    have e1 : win0_3.index t (1 : Fin 2) = 0 := (idx_whole t).1.2
    funext y
    unfold iblk
    rw [View.read_apply]
    show V m c main_v1 _ = V m c main_v1 y
    refine congrArg (V m c main_v1 : S768x512.Idx → EReal) (funext fun a => Fin.ext ?_)
    match a with
    | ⟨0, _⟩ => show win0_3.index t (0 : Fin 2) * 768 + 1 * (y 0).val = (y 0).val; rw [e0]; omega
    | ⟨1, _⟩ => show win0_3.index t (1 : Fin 2) * 512 + 1 * (y 1).val = (y 1).val; rw [e1]; omega
  exact (congrArg matT e).trans (wih_found m c)

/-- The input-to-hidden bias a point is handed: the launched vector. -/
theorem bih_block (c : Dev nD) (t : Fin cfg0.N) :
    vec (iblk m c 4 t : Vec Ideal S512 .f32) = vec (m ((c : Thread nD τ).loc main_arg4) : S512.Idx → EReal) := by
  have e0 : win0_4.index t (0 : Fin 1) = 0 := (idx_whole t).2.1
  funext j
  unfold vec iblk
  rw [View.read_apply]
  show V m c main_arg4 _ = _
  rw [V_main_arg4]
  refine congrArg (m ((c : Thread nD τ).loc main_arg4) : S512.Idx → EReal) (funext fun a => Fin.ext ?_)
  match a with
  | ⟨0, _⟩ => show win0_4.index t (0 : Fin 1) * 512 + 1 * j.val = j.val; rw [e0]; omega

/-- The hidden-to-hidden weights a point is handed, read transposed: the launched matrix by rows. -/
theorem whh_block (c : Dev nD) (t : Fin cfg0.N) :
    matT (iblk m c 5 t : Vec Ideal S512x512 .bf16) = mat (m ((c : Thread nD τ).loc main_arg5) : S512x512.Idx → EReal) := by
  have e : (iblk m c 5 t : Vec Ideal S512x512 .bf16) = (V m c main_v3 : S512x512.Idx → EReal) := by
    have e0 : win0_5.index t (0 : Fin 2) = 0 := (idx_whole t).2.2.1.1
    have e1 : win0_5.index t (1 : Fin 2) = 0 := (idx_whole t).2.2.1.2
    funext y
    unfold iblk
    rw [View.read_apply]
    show V m c main_v3 _ = V m c main_v3 y
    refine congrArg (V m c main_v3 : S512x512.Idx → EReal) (funext fun a => Fin.ext ?_)
    match a with
    | ⟨0, _⟩ => show win0_5.index t (0 : Fin 2) * 512 + 1 * (y 0).val = (y 0).val; rw [e0]; omega
    | ⟨1, _⟩ => show win0_5.index t (1 : Fin 2) * 512 + 1 * (y 1).val = (y 1).val; rw [e1]; omega
  exact (congrArg matT e).trans (whh_found m c)

/-- The hidden-to-hidden bias a point is handed: the launched vector. -/
theorem bhh_block (c : Dev nD) (t : Fin cfg0.N) :
    vec (iblk m c 6 t : Vec Ideal S512 .f32) = vec (m ((c : Thread nD τ).loc main_arg6) : S512.Idx → EReal) := by
  have e0 : win0_6.index t (0 : Fin 1) = 0 := (idx_whole t).2.2.2.1
  funext j
  unfold vec iblk
  rw [View.read_apply]
  show V m c main_arg6 _ = _
  rw [V_main_arg6]
  refine congrArg (m ((c : Thread nD τ).loc main_arg6) : S512.Idx → EReal) (funext fun a => Fin.ext ?_)
  match a with
  | ⟨0, _⟩ => show win0_6.index t (0 : Fin 1) * 512 + 1 * j.val = j.val; rw [e0]; omega

/-- The push weights a point is handed, read transposed: the launched matrix by rows. -/
theorem wpush_block (c : Dev nD) (t : Fin cfg0.N) :
    matT (iblk m c 7 t : Vec Ideal S512x512 .bf16) = mat (m ((c : Thread nD τ).loc main_arg7) : S512x512.Idx → EReal) := by
  have e : (iblk m c 7 t : Vec Ideal S512x512 .bf16) = (V m c main_v5 : S512x512.Idx → EReal) := by
    have e0 : win0_7.index t (0 : Fin 2) = 0 := (idx_whole t).2.2.2.2.1.1
    have e1 : win0_7.index t (1 : Fin 2) = 0 := (idx_whole t).2.2.2.2.1.2
    funext y
    unfold iblk
    rw [View.read_apply]
    show V m c main_v5 _ = V m c main_v5 y
    refine congrArg (V m c main_v5 : S512x512.Idx → EReal) (funext fun a => Fin.ext ?_)
    match a with
    | ⟨0, _⟩ => show win0_7.index t (0 : Fin 2) * 512 + 1 * (y 0).val = (y 0).val; rw [e0]; omega
    | ⟨1, _⟩ => show win0_7.index t (1 : Fin 2) * 512 + 1 * (y 1).val = (y 1).val; rw [e1]; omega
  exact (congrArg matT e).trans (wpush_found m c)

/-- The push bias a point is handed: the launched vector. -/
theorem bpush_block (c : Dev nD) (t : Fin cfg0.N) :
    vec (iblk m c 8 t : Vec Ideal S512 .f32) = vec (m ((c : Thread nD τ).loc main_arg8) : S512.Idx → EReal) := by
  have e0 : win0_8.index t (0 : Fin 1) = 0 := (idx_whole t).2.2.2.2.2.1
  funext j
  unfold vec iblk
  rw [View.read_apply]
  show V m c main_arg8 _ = _
  rw [V_main_arg8]
  refine congrArg (m ((c : Thread nD τ).loc main_arg8) : S512.Idx → EReal) (funext fun a => Fin.ext ?_)
  match a with
  | ⟨0, _⟩ => show win0_8.index t (0 : Fin 1) * 512 + 1 * j.val = j.val; rw [e0]; omega

/-- The action weights a point is handed, read transposed: the launched matrix by rows. -/
theorem wact_block (c : Dev nD) (t : Fin cfg0.N) :
    matT (iblk m c 9 t : Vec Ideal S512x12 .bf16) = mat (m ((c : Thread nD τ).loc main_arg9) : S12x512.Idx → EReal) := by
  have e : (iblk m c 9 t : Vec Ideal S512x12 .bf16) = (V m c main_v7 : S512x12.Idx → EReal) := by
    have e0 : win0_9.index t (0 : Fin 2) = 0 := (idx_whole t).2.2.2.2.2.2.1.1
    have e1 : win0_9.index t (1 : Fin 2) = 0 := (idx_whole t).2.2.2.2.2.2.1.2
    funext y
    unfold iblk
    rw [View.read_apply]
    show V m c main_v7 _ = V m c main_v7 y
    refine congrArg (V m c main_v7 : S512x12.Idx → EReal) (funext fun a => Fin.ext ?_)
    match a with
    | ⟨0, _⟩ => show win0_9.index t (0 : Fin 2) * 512 + 1 * (y 0).val = (y 0).val; rw [e0]; omega
    | ⟨1, _⟩ => show win0_9.index t (1 : Fin 2) * 12 + 1 * (y 1).val = (y 1).val; rw [e1]; omega
  exact (congrArg matT e).trans (wact_found m c)

/-- The action bias a point is handed: the launched vector. -/
theorem bact_block (c : Dev nD) (t : Fin cfg0.N) :
    vec (iblk m c 10 t : Vec Ideal S12 .f32) = vec (m ((c : Thread nD τ).loc main_arg10) : S12.Idx → EReal) := by
  have e0 : win0_10.index t (0 : Fin 1) = 0 := (idx_whole t).2.2.2.2.2.2.2
  funext j
  unfold vec iblk
  rw [View.read_apply]
  show V m c main_arg10 _ = _
  rw [V_main_arg10]
  refine congrArg (m ((c : Thread nD τ).loc main_arg10) : S12.Idx → EReal) (funext fun a => Fin.ext ?_)
  match a with
  | ⟨0, _⟩ => show win0_10.index t (0 : Fin 1) * 12 + 1 * j.val = j.val; rw [e0]; omega

end Cert.StackCell.Arr

end
-- ==== Proof.KInputRow.lean ====
/-
  The cell's input row inside a block of sixteen batch rows: the four stacks' top cells, each loaded as a
  16 × 1 × 1 × 128 slab and flattened to 16 × 128, are laid side by side into 16 × 512, and that is laid to the right
  of the 16 × 256 inputs. Entry (p, k) of the result is the input (p, k) when k < 256 and otherwise cell
  (k − 256) mod 128 of the top of stack (k − 256) / 128.
-/
import proofs.«169338_j85315230368210_2_alg».proof.Proof.Gen.KernelIdeal.Skeleton
import proofs.«169338_j85315230368210_2_alg».proof.Proof.Spec
import Idealize.ShloMosaic.Lib.Pipeline.Value
import Idealize.ShloMosaic.Lib.ValueIdx

noncomputable section

namespace Cert.StackCell.Kern

open Cert.KernelIdeal Cert.KernelIdeal.Gen Idealize.ShloMosaic Idealize.ShloMosaic.ValueIdx Cert.StackCell

/-- One of four, by position. -/
def sel4 {α : Type} (a b c d : α) (i : Fin 4) : α :=
  if i.val = 0 then a else if i.val = 1 then b else if i.val = 2 then c else d

/-- A 16 × 1 × 1 × 128 slab flattened to 16 × 128 keeps entry (p, ·, ·, c) at (p, c). -/
theorem squeeze_at (v : Vec Ideal S16x1x1x128 .f32) (p : Fin 16) (c : Fin 128) :
    shapeCast S16x128 v shapeCasts_S16x1x1x128_S16x128 (ix2 p c) = v (ix4 p 0 0 c) := by
  refine shapeCast_apply v _ (ix2 p c) (ix4 p 0 0 c) ?_
  rw [Shape.rowMajor_val_four, Shape.rowMajor_val_two]
  show ((p.val * 1 + 0) * 1 + 0) * 128 + c.val = p.val * 128 + c.val
  omega

/-- Four 16 × 128 slabs side by side, read at (p, q): slab q / 128 at column q mod 128. -/
theorem tops_at (v5 v7 v9 v11 : FVec Ideal S16x128 .f32) (p : Fin 16) (q : Fin 512) :
    concatenate S16x512 1 [⟨S16x128, v5⟩, ⟨S16x128, v7⟩, ⟨S16x128, v9⟩, ⟨S16x128, v11⟩]
        concatenates_S16x128_S16x128_S16x128_S16x128_S16x512_d1 (ix2 p q)
      = sel4 v5 v7 v9 v11 ⟨q.val / 128, by have := q.isLt; omega⟩ (ix2 p ⟨q.val % 128, Nat.mod_lt _ (by norm_num)⟩) := by
  have hq := q.isLt
  have hi : ∀ b : Fin S16x128.rank, b.cast (rfl : S16x128.rank = S16x512.rank) ≠ (1 : Fin 2) →
      ((ix2 p (⟨q.val % 128, Nat.mod_lt _ (by norm_num)⟩ : Fin 128) : S16x128.Idx) b).val
        = ((ix2 p q : S16x512.Idx) (b.cast (rfl : S16x128.rank = S16x512.rank))).val := fun b hb => by
    match b with
    | ⟨0, _⟩ => rfl
    | ⟨1, _⟩ => exact absurd rfl hb
  have h4 : q.val / 128 = 0 ∨ q.val / 128 = 1 ∨ q.val / 128 = 2 ∨ q.val / 128 = 3 := by omega
  rcases h4 with h | h | h | h
  · refine (concatenate_apply_piece (t := S16x512) (1 : Fin 2) [⟨S16x128, v5⟩, ⟨S16x128, v7⟩, ⟨S16x128, v9⟩, ⟨S16x128, v11⟩] concatenates_S16x128_S16x128_S16x128_S16x128_S16x512_d1 (ix2 p q) 0 (by simp) S16x128 v5 rfl rfl 0 rfl _ hi ?_).trans ?_
    · show 0 + q.val % 128 = q.val; omega
    · simp only [sel4, h, if_true]
  · refine (concatenate_apply_piece (t := S16x512) (1 : Fin 2) [⟨S16x128, v5⟩, ⟨S16x128, v7⟩, ⟨S16x128, v9⟩, ⟨S16x128, v11⟩] concatenates_S16x128_S16x128_S16x128_S16x128_S16x512_d1 (ix2 p q) 1 (by simp) S16x128 v7 rfl rfl 128 rfl _ hi ?_).trans ?_
    · show 128 + q.val % 128 = q.val; omega
    · simp only [sel4, h]; rfl
  · refine (concatenate_apply_piece (t := S16x512) (1 : Fin 2) [⟨S16x128, v5⟩, ⟨S16x128, v7⟩, ⟨S16x128, v9⟩, ⟨S16x128, v11⟩] concatenates_S16x128_S16x128_S16x128_S16x128_S16x512_d1 (ix2 p q) 2 (by simp) S16x128 v9 rfl rfl 256 rfl _ hi ?_).trans ?_
    · show 256 + q.val % 128 = q.val; omega
    · simp only [sel4, h]; rfl
  · refine (concatenate_apply_piece (t := S16x512) (1 : Fin 2) [⟨S16x128, v5⟩, ⟨S16x128, v7⟩, ⟨S16x128, v9⟩, ⟨S16x128, v11⟩] concatenates_S16x128_S16x128_S16x128_S16x128_S16x512_d1 (ix2 p q) 3 (by simp) S16x128 v11 rfl rfl 384 rfl _ hi ?_).trans ?_
    · show 384 + q.val % 128 = q.val; omega
    · simp only [sel4, h]; rfl

/-- The inputs and the tops side by side, read at (p, k). -/
theorem joined_at (v1 : FVec Ideal S16x256 .bf16) (v13 : FVec Ideal S16x512 .bf16) (p : Fin 16) (k : Fin 768) :
    concatenate S16x768 1 [⟨S16x256, v1⟩, ⟨S16x512, v13⟩] concatenates_S16x256_S16x512_S16x768_d1 (ix2 p k)
      = if h : k.val < 256 then v1 (ix2 p ⟨k.val, h⟩)
        else v13 (ix2 p ⟨k.val - 256, by have := k.isLt; omega⟩) := by
  have hk := k.isLt
  by_cases h : k.val < 256
  · rw [dif_pos h]
    refine concatenate_pair_apply_left (1 : Fin 2) v1 v13 _ (ix2 p k) rfl (ix2 p ⟨k.val, h⟩) fun b => ?_
    match b with
    | ⟨0, _⟩ => rfl
    | ⟨1, _⟩ => rfl
  · rw [dif_neg h]
    refine concatenate_pair_apply_right (1 : Fin 2) v1 v13 _ (ix2 p k) rfl rfl (ix2 p ⟨k.val - 256, by omega⟩) (fun b hb => ?_) ?_
    · match b with
      | ⟨0, _⟩ => rfl
      | ⟨1, _⟩ => exact absurd rfl hb
    · show (k.val - 256) + 256 = k.val; omega

end Cert.StackCell.Kern

end
-- ==== Proof.LibRowMatmul.lean ====
/-
  General facts at the ideal values, for any sizes.

  A matrix product into the zero accumulator read at an entry, for the two ways a rank-2 pair is contracted here:
  rows against rows (the last axis of both operands: `A · Bᵀ`) and rows against columns (`A · B`). Each is the plain
  finite sum over the contracted coordinate. The dimension numbers are any record with one contracted axis whose
  kept coordinates are the output's; a caller supplies those coordinate facts for its own record.

  And the maximum along the rows of an `a × b` array, and the host's maximum along the last axis of an
  `n0 × n1 × n2` array, each as the fold of `max` from the starting value over the coordinates of that axis.
-/
import Idealize.ShloMosaic.PureOps.Ideal.Laws
import Idealize.ShloMosaic.PureOps.Reduce
import Idealize.ShloMosaic.Lib.ValueIdx

namespace Cert.Lib.RowMatmul

open Idealize.ShloMosaic Idealize.ShloMosaic.ValueIdx

/-- Rows against rows: `(A · Bᵀ)(a, b) = ∑ c, A(a, c) · B(b, c)`. -/
theorem matmul_rows_apply {m k n : ℕ} {φ₁ φ₂ : FTy} (D : DotDims ⟨2, ![m, k]⟩ ⟨2, ![n, k]⟩ ⟨2, ![m, n]⟩)
    (hl : D.lhsContracting = [1]) (hr : D.rhsContracting = [1])
    (hrank : D.contr.rank = 1) (hsize : D.contr.size ⟨0, by omega⟩ = k)
    (h0 : ∀ j q, (D.lhsIdx j q 0).val = (j 0).val) (h1 : ∀ j q, (D.rhsIdx j q 0).val = (j 1).val)
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 b c := funext fun ax => Fin.ext (by
    match ax with
    | ⟨0, _⟩ => exact h1 _ _
    | ⟨1, _⟩ => exact (D.rhsIdx_val_of_single hr _ _).trans hk)
  rw [el, er]

/-- Rows against columns: `(A · B)(a, b) = ∑ c, A(a, c) · B(c, b)`. -/
theorem matmul_cols_apply {m k n : ℕ} {φ₁ φ₂ : FTy} (D : DotDims ⟨2, ![m, k]⟩ ⟨2, ![k, n]⟩ ⟨2, ![m, n]⟩)
    (hl : D.lhsContracting = [1]) (hr : D.rhsContracting = [0])
    (hrank : D.contr.rank = 1) (hsize : D.contr.size ⟨0, by omega⟩ = k)
    (h0 : ∀ j q, (D.lhsIdx j q 0).val = (j 0).val) (h1 : ∀ j q, (D.rhsIdx j q 1).val = (j 1).val)
    (prec : Option ContractPrecision) (A : FVec Ideal ⟨2, ![m, k]⟩ φ₁) (B : FVec Ideal ⟨2, ![k, n]⟩ φ₂)
    (a : Fin m) (b : Fin n) :
    matmul D prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 c b := funext fun ax => Fin.ext (by
    match ax with
    | ⟨0, _⟩ => exact (D.rhsIdx_val_of_single hr _ _).trans hk
    | ⟨1, _⟩ => exact h1 _ _)
  rw [el, er]

/-- The maximum along each row of an `a × b` array: at row `r`, the fold of `max` from the accumulator's value
    over the `b` columns. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => Finset.fold max (Ideal.ofBits φ acc) f (Finset.univ : Finset (Fin b))) ?_
  funext k
  refine congrArg src ?_
  funext ax; apply Fin.ext
  match ax with
  | ⟨0, _⟩ => rfl
  | ⟨1, _⟩ => rfl

/-- The host's maximum along the last axis of an `n0 × n1 × n2` array: at `(p, q)`, the fold of `max` from the
    starting value over the `n2` coordinates. -/
theorem hostLastMax_apply {n0 n1 n2 : ℕ} {φ : FTy} {u : Shape} (x : FVec Ideal ⟨3, ![n0, n1, n2]⟩ φ) (init : u.Idx → Ideal φ)
    (h' : Shape.ReducesTo ⟨3, ![n0, n1, n2]⟩ [2] ⟨2, ![n0, n1]⟩) (h : Shape.Reduces ⟨3, ![n0, n1, n2]⟩ [2] ⟨2, ![n0, n1]⟩)
    (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  funext k
  refine congrArg x ?_
  funext ax; apply Fin.ext
  match ax with
  | ⟨0, _⟩ => rfl
  | ⟨1, _⟩ => rfl
  | ⟨2, _⟩ => rfl

end Cert.Lib.RowMatmul
-- ==== Proof.KDense.lean ====
/-
  The affine layers inside a block of sixteen batch rows, entry by entry: a bias vector repeated down the rows, and
  the three matrix products of the body (the 768-wide input row against the transposed input weights, a 512-wide
  row against a transposed 512 × 512 matrix, and a 512-wide row against the transposed 12 × 512 action weights), each
  accumulated from zero and hence the plain finite sum over the shared coordinate.
-/
import proofs.«169338_j85315230368210_2_alg».proof.Proof.Gen.KernelIdeal.Skeleton
import proofs.«169338_j85315230368210_2_alg».proof.Proof.LibRowMatmul
import Idealize.ShloMosaic.Lib.Pipeline.Value
import Idealize.ShloMosaic.Lib.ValueIdx

noncomputable section

namespace Cert.StackCell.Kern

open Cert.KernelIdeal Cert.KernelIdeal.Gen Idealize.ShloMosaic Idealize.ShloMosaic.ValueIdx

/-- A bias vector of 512 entries laid as one row and repeated down sixteen rows: entry (p, j) is entry j of the vector. -/
theorem bias512_at (v : FVec Ideal S512 .f32) (p : Fin 16) (j : Fin 512) :
    broadcastTo S16x512 (shapeCast S1x512 v shapeCasts_S512_S1x512) broadcasts_S1x512_S16x512 (ix2 p j) = v (ix1 j) := by
  refine (broadcastTo_apply _ _ (ix2 p j) (ix2 (0 : Fin 1) j) fun a => ?_).trans ?_
  · match a with
    | ⟨0, _⟩ => exact (if_pos rfl).symm
    | ⟨1, _⟩ => exact (if_neg (show ¬ (512 : ℕ) = 1 by omega)).symm
  · refine shapeCast_apply v _ (ix2 (0 : Fin 1) j) (ix1 j) ?_
    rw [Shape.rowMajor_val_one, Shape.rowMajor_val_two]
    show j.val = 0 * 512 + j.val
    omega

/-- A bias vector of 12 entries laid as one row and repeated down sixteen rows: entry (p, j) is entry j of the vector. -/
theorem bias12_at (v : FVec Ideal S12 .f32) (p : Fin 16) (j : Fin 12) :
    broadcastTo S16x12 (shapeCast S1x12 v shapeCasts_S12_S1x12) broadcasts_S1x12_S16x12 (ix2 p j) = v (ix1 j) := by
  refine (broadcastTo_apply _ _ (ix2 p j) (ix2 (0 : Fin 1) j) fun a => ?_).trans ?_
  · match a with
    | ⟨0, _⟩ => exact (if_pos rfl).symm
    | ⟨1, _⟩ => exact (if_neg (show ¬ (12 : ℕ) = 1 by omega)).symm
  · refine shapeCast_apply v _ (ix2 (0 : Fin 1) j) (ix1 j) ?_
    rw [Shape.rowMajor_val_one, Shape.rowMajor_val_two]
    show j.val = 0 * 12 + j.val
    omega

/-- Entry (p, j) of a 16 × 768 block times a 768 × 512 matrix, accumulated from zero: the plain sum over the 768 shared coordinates. -/
theorem mm768_at (A : FVec Ideal S16x768 .bf16) (B : FVec Ideal S768x512 .bf16) (p : Fin 16) (j : Fin 512) :
    matmul dot_S16x768_S768x512_S16x512_1_0_0_1_n_n none A B (constant S16x512 .f32 0x00000000#32) (ix2 p j)
      = ∑ c : Fin 768, A (ix2 p c) * B (ix2 c j) :=
  Cert.Lib.RowMatmul.matmul_cols_apply dot_S16x768_S768x512_S16x512_1_0_0_1_n_n rfl rfl rfl rfl
    (fun i q => by
      unfold DotDims.lhsIdx
      rw [dif_neg (show ¬(0 : Fin S16x768.rank) ∈ dot_S16x768_S768x512_S16x512_1_0_0_1_n_n.lhsBatch by decide), dif_pos (show (0 : Fin S16x768.rank) ∈ dot_S16x768_S768x512_S16x512_1_0_0_1_n_n.lhsNonContracting by decide)]
      rfl)
    (fun i q => by
      unfold DotDims.rhsIdx
      rw [dif_neg (show ¬(1 : Fin S768x512.rank) ∈ dot_S16x768_S768x512_S16x512_1_0_0_1_n_n.rhsBatch by decide), dif_pos (show (1 : Fin S768x512.rank) ∈ dot_S16x768_S768x512_S16x512_1_0_0_1_n_n.rhsNonContracting by decide)]
      rfl)
    none A B p j

/-- Entry (p, j) of a 16 × 512 block times a 512 × 512 matrix, accumulated from zero: the plain sum over the 512 shared coordinates. -/
theorem mm512_at (A : FVec Ideal S16x512 .bf16) (B : FVec Ideal S512x512 .bf16) (p : Fin 16) (j : Fin 512) :
    matmul dot_S16x512_S512x512_S16x512_1_0_0_1_n_n none A B (constant S16x512 .f32 0x00000000#32) (ix2 p j)
      = ∑ c : Fin 512, A (ix2 p c) * B (ix2 c j) :=
  Cert.Lib.RowMatmul.matmul_cols_apply dot_S16x512_S512x512_S16x512_1_0_0_1_n_n rfl rfl rfl rfl
    (fun i q => by
      unfold DotDims.lhsIdx
      rw [dif_neg (show ¬(0 : Fin S16x512.rank) ∈ dot_S16x512_S512x512_S16x512_1_0_0_1_n_n.lhsBatch by decide), dif_pos (show (0 : Fin S16x512.rank) ∈ dot_S16x512_S512x512_S16x512_1_0_0_1_n_n.lhsNonContracting by decide)]
      rfl)
    (fun i q => by
      unfold DotDims.rhsIdx
      rw [dif_neg (show ¬(1 : Fin S512x512.rank) ∈ dot_S16x512_S512x512_S16x512_1_0_0_1_n_n.rhsBatch by decide), dif_pos (show (1 : Fin S512x512.rank) ∈ dot_S16x512_S512x512_S16x512_1_0_0_1_n_n.rhsNonContracting by decide)]
      rfl)
    none A B p j

/-- Entry (p, j) of a 16 × 512 block times a 512 × 12 matrix, accumulated from zero: the plain sum over the 512 shared coordinates. -/
theorem mm12_at (A : FVec Ideal S16x512 .bf16) (B : FVec Ideal S512x12 .bf16) (p : Fin 16) (j : Fin 12) :
    matmul dot_S16x512_S512x12_S16x12_1_0_0_1_n_n none A B (constant S16x12 .f32 0x00000000#32) (ix2 p j)
      = ∑ c : Fin 512, A (ix2 p c) * B (ix2 c j) :=
  Cert.Lib.RowMatmul.matmul_cols_apply dot_S16x512_S512x12_S16x12_1_0_0_1_n_n rfl rfl rfl rfl
    (fun i q => by
      unfold DotDims.lhsIdx
      rw [dif_neg (show ¬(0 : Fin S16x512.rank) ∈ dot_S16x512_S512x12_S16x12_1_0_0_1_n_n.lhsBatch by decide), dif_pos (show (0 : Fin S16x512.rank) ∈ dot_S16x512_S512x12_S16x12_1_0_0_1_n_n.lhsNonContracting by decide)]
      rfl)
    (fun i q => by
      unfold DotDims.rhsIdx
      rw [dif_neg (show ¬(1 : Fin S512x12.rank) ∈ dot_S16x512_S512x12_S16x12_1_0_0_1_n_n.rhsBatch by decide), dif_pos (show (1 : Fin S512x12.rank) ∈ dot_S16x512_S512x12_S16x12_1_0_0_1_n_n.rhsNonContracting by decide)]
      rfl)
    none A B p j

end Cert.StackCell.Kern

end
-- ==== Proof.KHidden.lean ====
/-
  The new hidden row inside a block: entry (p, j) of the body's tanh is the specification's hidden entry j of batch
  row p, with the four stacks' top cells read from the four loaded slabs and the weight matrices read transposed.
-/
import proofs.«169338_j85315230368210_2_alg».proof.Proof.Gen.KernelIdeal.Skeleton
import proofs.«169338_j85315230368210_2_alg».proof.Proof.Spec
import proofs.«169338_j85315230368210_2_alg».proof.Proof.KInputRow
import proofs.«169338_j85315230368210_2_alg».proof.Proof.KDense

noncomputable section

namespace Cert.StackCell.Kern

open Cert.KernelIdeal Cert.KernelIdeal.Gen Idealize.ShloMosaic Idealize.ShloMosaic.ValueIdx Cert.StackCell

/-- Choosing among the four flattened slabs and reading at (p, c) is choosing among the slabs and reading at (p, ·, ·, c). -/
theorem sel4_squeeze (v4 v6 v8 v10 : Vec Ideal S16x1x1x128 .f32) (i : Fin 4) (p : Fin 16) (c : Fin 128) :
    sel4 (shapeCast S16x128 v4 shapeCasts_S16x1x1x128_S16x128) (shapeCast S16x128 v6 shapeCasts_S16x1x1x128_S16x128) (shapeCast S16x128 v8 shapeCasts_S16x1x1x128_S16x128) (shapeCast S16x128 v10 shapeCasts_S16x1x1x128_S16x128) i (ix2 p c)
      = sel4 v4 v6 v8 v10 i (ix4 p 0 0 c) := by
  unfold sel4
  split_ifs <;> exact squeeze_at _ p c

/-- The stacks of one batch row as far as the input row sees them: only the top cells, from the four slabs. -/
def topsOf (v4 v6 v8 v10 : Vec Ideal S16x1x1x128 .f32) (p : Fin 16) : Fin 4 → Fin 128 → Fin 128 → EReal :=
  fun i _ c => sel4 v4 v6 v8 v10 i (ix4 p 0 0 c)

/-- Entry (p, k) of the joined input block is entry k of the specification's input row of batch row p. -/
theorem inrow_at (v0 : Vec Ideal S16x256 .f32) (v4 v6 v8 v10 : Vec Ideal S16x1x1x128 .f32) (p : Fin 16) (k : Fin 768) :
    (concatenate S16x768 1 [⟨S16x256, truncf (F := Ideal) .bf16 v0 bitsLt_bf16_f32⟩,
        ⟨S16x512, truncf (F := Ideal) .bf16 (concatenate S16x512 1 [⟨S16x128, (shapeCast S16x128 v4 shapeCasts_S16x1x1x128_S16x128)⟩, ⟨S16x128, (shapeCast S16x128 v6 shapeCasts_S16x1x1x128_S16x128)⟩, ⟨S16x128, (shapeCast S16x128 v8 shapeCasts_S16x1x1x128_S16x128)⟩, ⟨S16x128, (shapeCast S16x128 v10 shapeCasts_S16x1x1x128_S16x128)⟩]
          concatenates_S16x128_S16x128_S16x128_S16x128_S16x512_d1) bitsLt_bf16_f32⟩]
        concatenates_S16x256_S16x512_S16x768_d1 : FVec Ideal S16x768 .bf16) (ix2 p k)
      = xrow (row2 v0 p) (topsOf v4 v6 v8 v10 p) k := by
  refine (joined_at _ _ p k).trans ?_
  unfold xrow
  by_cases h : k.val < 256
  · rw [dif_pos h, dif_pos h]; rfl
  · rw [dif_neg h, dif_neg h]
    refine (tops_at _ _ _ _ p ⟨k.val - 256, by have := k.isLt; omega⟩).trans ?_
    exact sel4_squeeze v4 v6 v8 v10 _ p _

/-- Entry (p, j) of the block's hidden rows. -/
theorem pay2_at (v0 : Vec Ideal S16x256 .f32) (v2 : Vec Ideal S16x512 .f32) (v4 v6 v8 v10 : Vec Ideal S16x1x1x128 .f32)
    (v15 : Vec Ideal S768x512 .bf16) (v17 : Vec Ideal S512x512 .bf16) (v19 v20 : Vec Ideal S512 .f32) (p : Fin 16) (j : Fin 512) :
    k0_pay2 (F := Ideal) v0 v2 v4 v6 v8 v10 v15 v17 v19 v20 (ix2 p j)
      = hid (row2 v0 p) (topsOf v4 v6 v8 v10 p) (row2 v2 p) (matT v15) (vec v19) (matT v17) (vec v20) j := by
  unfold k0_pay2 hid
  refine congrArg Ideal.tanh ?_
  refine congrArg₂ (· + ·) (congrArg₂ (· + ·) (congrArg₂ (· + ·) ?_ (bias512_at v19 p j)) ?_) (bias512_at v20 p j)
  · refine (mm768_at _ _ p j).trans (Finset.sum_congr rfl fun k _ => congrArg₂ (· * ·) (inrow_at v0 v4 v6 v8 v10 p k) ?_)
    exact congrFun (shapeCast_self v15 _) (ix2 k j)
  · refine (mm512_at _ _ p j).trans (Finset.sum_congr rfl fun k _ => congrArg₂ (· * ·) rfl ?_)
    exact congrFun (shapeCast_self v17 _) (ix2 k j)

end Cert.StackCell.Kern

end
-- ==== Proof.KActs.lean ====
/-
  The push row, the action logits and their softmax inside a block of sixteen batch rows, entry by entry. The softmax
  of a 16 × 12 block of logits is taken row by row: the row maximum (folded from minus infinity, and joined with minus
  infinity once more) is subtracted, the exponentials are divided by their row sum. The body's lane sum is the plain
  sum of the twelve exponentials; the specification starts the sum from the zero word, which adds nothing.
-/
import proofs.«169338_j85315230368210_2_alg».proof.Proof.Gen.KernelIdeal.Skeleton
import proofs.«169338_j85315230368210_2_alg».proof.Proof.Spec
import proofs.«169338_j85315230368210_2_alg».proof.Proof.KDense
import proofs.«169338_j85315230368210_2_alg».proof.Proof.LibRowMatmul
import Idealize.ShloMosaic.PureOps.Ideal.Laws

noncomputable section

namespace Cert.StackCell.Kern

open Cert.KernelIdeal Cert.KernelIdeal.Gen Idealize.ShloMosaic Idealize.ShloMosaic.ValueIdx Cert.StackCell

/-- A vector of sixteen entries stood up as a column and repeated across twelve columns: entry (p, a) is entry p. -/
theorem col12_at (v : FVec Ideal S16 .f32) (p : Fin 16) (a : Fin 12) :
    broadcastTo S16x12 (shapeCast S16x1 v shapeCasts_S16_S16x1) broadcasts_S16x1_S16x12 (ix2 p a) = v (ix1 p) := by
  refine (broadcastTo_apply _ _ (ix2 p a) (ix2 p (0 : Fin 1)) fun ax => ?_).trans ?_
  · match ax with
    | ⟨0, _⟩ => exact (if_neg (show ¬ (16 : ℕ) = 1 by omega)).symm
    | ⟨1, _⟩ => exact (if_pos rfl).symm
  · refine shapeCast_apply v _ (ix2 p (0 : Fin 1)) (ix1 p) ?_
    rw [Shape.rowMajor_val_one, Shape.rowMajor_val_two]
    show p.val = p.val * 1 + 0
    omega

/-- Entry (p, q) of the block's push rows. -/
theorem pay4_at (v30 : FVec Ideal S16x512 .f32) (v32 : FVec Ideal S512x512 .bf16) (v34 : FVec Ideal S512 .f32) (p : Fin 16) (q : Fin 512) :
    k0_pay4 (F := Ideal) v30 v32 v34 (ix2 p q) = push (row2 v30 p) (matT v32) (vec v34) q := by
  unfold k0_pay4 k0_pay3 push
  refine congrArg₂ (· + ·) ?_ (bias512_at v34 p q)
  refine (mm512_at _ _ p q).trans (Finset.sum_congr rfl fun k _ => congrArg₂ (· * ·) rfl ?_)
  exact congrFun (shapeCast_self v32 _) (ix2 k q)

/-- The block of action logits, as the body computes it. -/
def logits16 (v30 : FVec Ideal S16x512 .f32) (v39 : FVec Ideal S512x12 .bf16) (v41 : FVec Ideal S12 .f32) : FVec Ideal S16x12 .f32 :=
  addf (matmul dot_S16x512_S512x12_S16x12_1_0_0_1_n_n none (k0_pay3 v30) (shapeCast S512x12 v39 shapeCasts_S512x12_S512x12) (constant S16x12 .f32 0x00000000#32))
    (broadcastTo S16x12 (shapeCast S1x12 v41 shapeCasts_S12_S1x12) broadcasts_S1x12_S16x12)

/-- Entry (p, a) of the block's logits. -/
theorem logits16_at (v30 : FVec Ideal S16x512 .f32) (v39 : FVec Ideal S512x12 .bf16) (v41 : FVec Ideal S12 .f32) (p : Fin 16) (a : Fin 12) :
    logits16 v30 v39 v41 (ix2 p a) = logit (row2 v30 p) (matT v39) (vec v41) a := by
  unfold logits16 k0_pay3 logit
  refine congrArg₂ (· + ·) ?_ (bias12_at v41 p a)
  refine (mm12_at _ _ p a).trans (Finset.sum_congr rfl fun k _ => congrArg₂ (· * ·) rfl ?_)
  exact congrFun (shapeCast_self v39 _) (ix2 k a)

/-- The row maxima of a block of logits, joined with minus infinity, as the body computes them. -/
def rowTop16 (v45 : FVec Ideal S16x12 .f32) : FVec Ideal S16 .f32 :=
  maximumf (broadcast S16 (Scalar.ofBits .f32 0xFF800000#32))
    (multiReduction .maximumf [1] S16 v45 0xFF800000#32 reduces_S16x12_S16 (.inl rfl) rfl)

/-- The exponentials of the logits less their row maximum, as the body computes them. -/
def expd16 (v45 : FVec Ideal S16x12 .f32) : FVec Ideal S16x12 .f32 :=
  exp (subf v45 (broadcastTo S16x12 (shapeCast S16x1 (rowTop16 v45) shapeCasts_S16_S16x1) broadcasts_S16x1_S16x12))

/-- The softmax of a block of logits, as the body computes it. -/
def softmax16 (v45 : FVec Ideal S16x12 .f32) : FVec Ideal S16x12 .f32 :=
  divf (expd16 v45)
    (broadcastTo S16x12 (shapeCast S16x1 (multiReduction .add [1] S16 (expd16 v45) 0x00000000#32 reduces_S16x12_S16 (.inl rfl) rfl)
      shapeCasts_S16_S16x1) broadcasts_S16x1_S16x12)

/-- The body's actions are the softmax of the body's logits. -/
theorem pay5_eq (v30 : FVec Ideal S16x512 .f32) (v39 : FVec Ideal S512x12 .bf16) (v41 : FVec Ideal S12 .f32) :
    k0_pay5 (F := Ideal) v30 v39 v41 = softmax16 (logits16 v30 v39 v41) := rfl

theorem rowTop16_at (v45 : FVec Ideal S16x12 .f32) (p : Fin 16) :
    rowTop16 v45 (ix1 p) = top (fun k => v45 (ix2 p k)) :=
  congrArg (max ninf) (Cert.Lib.RowMatmul.rowMax_apply v45 0xFF800000#32 reduces_S16x12_S16 (.inl rfl) rfl p)

theorem expd16_at (v45 : FVec Ideal S16x12 .f32) (p : Fin 16) (a : Fin 12) :
    expd16 v45 (ix2 p a) = Ideal.exp (v45 (ix2 p a) - top (fun k => v45 (ix2 p k))) :=
  congrArg (fun t => Ideal.exp (v45 (ix2 p a) - t)) ((col12_at (rowTop16 v45) p a).trans (rowTop16_at v45 p))

/-- The row sum of the exponentials: the plain sum of the twelve. -/
theorem expsum16_at (v45 : FVec Ideal S16x12 .f32) (p : Fin 16) :
    multiReduction .add [1] S16 (expd16 v45) 0x00000000#32 reduces_S16x12_S16 (.inl rfl) rfl (ix1 p)
      = ∑ c : Fin 12, Ideal.exp (v45 (ix2 p c) - top (fun k => v45 (ix2 p k))) := by
  refine (Ideal.multiReduction_add_single (expd16 v45) 0x00000000#32 reduces_S16x12_S16 (.inl rfl) rfl (ix1 p)).trans ?_
  refine Finset.sum_congr rfl fun c _ => ?_
  refine (congrArg (expd16 v45) ?_).trans (expd16_at v45 p c)
  funext ax; apply Fin.ext
  match ax with
  | ⟨0, _⟩ => rfl
  | ⟨1, _⟩ => rfl

/-- Entry (p, a) of the softmax of a block of logits is the specification's softmax of row p. -/
theorem softmax16_at (v45 : FVec Ideal S16x12 .f32) (p : Fin 16) (a : Fin 12) :
    softmax16 v45 (ix2 p a) = soft (fun k => v45 (ix2 p k)) a := by
  unfold softmax16 soft
  refine congrArg₂ Ideal.div (expd16_at v45 p a) ?_
  refine ((col12_at _ p a).trans (expsum16_at v45 p)).trans ?_
  rw [show zero = (0 : EReal) from Ideal.ofBits_zero_f32, zero_add]

/-- Entry (p, a) of the block's actions. -/
theorem pay5_at (v30 : FVec Ideal S16x512 .f32) (v39 : FVec Ideal S512x12 .bf16) (v41 : FVec Ideal S12 .f32) (p : Fin 16) (a : Fin 12) :
    k0_pay5 (F := Ideal) v30 v39 v41 (ix2 p a) = acts (row2 v30 p) (matT v39) (vec v41) a := by
  rw [pay5_eq]
  refine (softmax16_at _ p a).trans ?_
  unfold acts
  exact congrArg (fun z => soft z a) (funext fun k => logits16_at v30 v39 v41 p k)

end Cert.StackCell.Kern

end
-- ==== Proof.KCell.lean ====
/-
  One stack's update inside a block of sixteen batch rows. Rows of a stack are numbered 0 (the top) to 127. The cell
  pushed down onto row s is the pushed value when s = 0 and the old row s − 1 otherwise: the body takes the stack
  rotated by one row and overwrites row 0, chosen by comparing a row counter with 0. The cell popped up onto row s is
  zero when s = 127 and the old row s + 1 otherwise: the stack rotated by 127 rows with row 127 overwritten. The new
  cell is push-action × pushed-down + pop-action × popped-up + keep-action × old cell, which is the specification's cell.
-/
import proofs.«169338_j85315230368210_2_alg».proof.Proof.Gen.KernelIdeal.Skeleton
import proofs.«169338_j85315230368210_2_alg».proof.Proof.Spec
import Idealize.ShloMosaic.Lib.Pipeline.Value
import Idealize.ShloMosaic.Lib.ValueIdx
import Idealize.ShloMosaic.Lib.KernelVsHost

noncomputable section

namespace Cert.StackCell.Kern

open Cert.KernelIdeal Cert.KernelIdeal.Gen Idealize.ShloMosaic Idealize.ShloMosaic.ValueIdx Cert.StackCell

/-- Choosing by the comparison of a row number with a literal row is the plain case split. -/
theorem select_row_eq {α : Type} (s n : ℕ) (hs : s < 128) (hn : n < 128) (a b : α) :
    Scalar.select (IntOp.cmpi .eq (BitVec.ofNat 32 s) (BitVec.ofNat 32 n)) a b = if s = n then a else b := by
  by_cases h : s = n
  · subst h
    rw [if_pos rfl]
    have e : IntOp.cmpi .eq (BitVec.ofNat 32 s) (BitVec.ofNat 32 s) = 1#1 := by simp [IntOp.cmpi]
    rw [e]; exact select_one a b
  · rw [if_neg h]
    have hne : BitVec.ofNat 32 s ≠ BitVec.ofNat 32 n := fun heq => by
      have := congrArg BitVec.toNat heq
      simp only [BitVec.toNat_ofNat] at this
      omega
    have e : IntOp.cmpi .eq (BitVec.ofNat 32 s) (BitVec.ofNat 32 n) = 0#1 := by
      show BitVec.ofBool (BitVec.ofNat 32 s == BitVec.ofNat 32 n) = 0#1
      rw [beq_eq_false_iff_ne.mpr hne]; rfl
    rw [e]; exact select_zero a b

/-- The first-row mask at (p, s, c) compares s with 0. -/
theorem first_at (p : Fin 16) (s c : Fin 128) :
    k0_pay6 (ix3 p s c) = IntOp.cmpi .eq (BitVec.ofNat 32 s.val) (BitVec.ofNat 32 0) :=
  congrArg (fun t => IntOp.cmpi .eq t (BitVec.ofNat 32 0))
    (iota_single_apply .tc S16x128x128 32 1 iota_S16x128x128_d1_w32 (ix3 p s c))

/-- The last-row mask at (p, s, c) compares s with 127. -/
theorem last_at (p : Fin 16) (s c : Fin 128) :
    k0_pay7 (ix3 p s c) = IntOp.cmpi .eq (BitVec.ofNat 32 s.val) (BitVec.ofNat 32 127) :=
  congrArg (fun t => IntOp.cmpi .eq t (BitVec.ofNat 32 127))
    (iota_single_apply .tc S16x128x128 32 1 iota_S16x128x128_d1_w32 (ix3 p s c))

/-- A 16 × 128 slab repeated down the 128 rows of a stack: entry (p, s, c) is entry (p, c). -/
theorem slab_at (v : FVec Ideal S16x128 .f32) (p : Fin 16) (s c : Fin 128) :
    broadcastTo S16x128x128 (shapeCast S16x1x128 (shapeCast S16x1x128 v shapeCasts_S16x128_S16x1x128) shapeCasts_S16x1x128_S16x1x128)
        broadcasts_S16x1x128_S16x128x128 (ix3 p s c) = v (ix2 p c) := by
  refine (broadcastTo_apply _ _ (ix3 p s c) (ix3 p (0 : Fin 1) c) fun ax => ?_).trans ?_
  · match ax with
    | ⟨0, _⟩ => exact (if_neg (show ¬ (16 : ℕ) = 1 by omega)).symm
    | ⟨1, _⟩ => exact (if_pos rfl).symm
    | ⟨2, _⟩ => exact (if_neg (show ¬ (128 : ℕ) = 1 by omega)).symm
  · rw [shapeCast_self]
    refine shapeCast_apply v _ (ix3 p (0 : Fin 1) c) (ix2 p c) ?_
    rw [Shape.rowMajor_val_two, Shape.rowMajor_val_three]
    show p.val * 128 + c.val = (p.val * 1 + 0) * 128 + c.val
    omega

/-- A 16 × 1 column of actions spread over a whole stack: entry (p, s, c) is entry (p, 0). -/
theorem spread_at (v : FVec Ideal S16x1 .f32) (p : Fin 16) (s c : Fin 128) :
    (broadcastTo S16x128x128 (shapeCast S16x1x1 v shapeCasts_S16x1_S16x1x1) broadcasts_S16x1x1_S16x128x128) (ix3 p s c) = v (ix2 p (0 : Fin 1)) := by
  refine (broadcastTo_apply _ _ (ix3 p s c) (ix3 p (0 : Fin 1) (0 : Fin 1)) fun ax => ?_).trans ?_
  · match ax with
    | ⟨0, _⟩ => exact (if_neg (show ¬ (16 : ℕ) = 1 by omega)).symm
    | ⟨1, _⟩ => exact (if_pos rfl).symm
    | ⟨2, _⟩ => exact (if_pos rfl).symm
  · refine shapeCast_apply v _ (ix3 p (0 : Fin 1) (0 : Fin 1)) (ix2 p (0 : Fin 1)) ?_
    rw [Shape.rowMajor_val_two, Shape.rowMajor_val_three]
    show p.val * 1 + 0 = (p.val * 1 + 0) * 1 + 0
    omega

/-- The stack rotated by one row: row s holds the old row s − 1, around the end. -/
theorem down_at (x : FVec Ideal S16x128x128 .f32) (p : Fin 16) (s c : Fin 128) :
    dynamicRotate 1 1#32 none x rotates_S16x128x128_d1 (ix3 p s c)
      = x (ix3 p ⟨(s.val + 127) % 128, Nat.mod_lt _ (by norm_num)⟩ c) := by
  refine dynamicRotate_apply (1 : Fin 3) 1#32 x _ (ix3 p s c) _ fun b => ?_
  match b with
  | ⟨0, _⟩ => exact (if_neg (fun h => Nat.zero_ne_one (congrArg Fin.val h))).symm
  | ⟨1, _⟩ =>
    show (s.val + 127) % 128 = if (1 : Fin 3) = 1 then (s.val + 128 - (1#32 : BitVec 32).toNat % 128) % 128 else s.val
    rw [if_pos rfl, show (1#32 : BitVec 32).toNat = 1 from rfl]
    omega
  | ⟨2, _⟩ => exact (if_neg (fun h => (by omega : (2 : ℕ) ≠ 1) (congrArg Fin.val h))).symm

/-- The stack rotated by 127 rows: row s holds the old row s + 1, around the end. -/
theorem up_at (x : FVec Ideal S16x128x128 .f32) (p : Fin 16) (s c : Fin 128) :
    dynamicRotate 1 127#32 none x rotates_S16x128x128_d1 (ix3 p s c)
      = x (ix3 p ⟨(s.val + 1) % 128, Nat.mod_lt _ (by norm_num)⟩ c) := by
  refine dynamicRotate_apply (1 : Fin 3) 127#32 x _ (ix3 p s c) _ fun b => ?_
  match b with
  | ⟨0, _⟩ => exact (if_neg (fun h => Nat.zero_ne_one (congrArg Fin.val h))).symm
  | ⟨1, _⟩ =>
    show (s.val + 1) % 128 = if (1 : Fin 3) = 1 then (s.val + 128 - (127#32 : BitVec 32).toNat % 128) % 128 else s.val
    rw [if_pos rfl, show (127#32 : BitVec 32).toNat = 127 from rfl]
    omega
  | ⟨2, _⟩ => exact (if_neg (fun h => (by omega : (2 : ℕ) ≠ 1) (congrArg Fin.val h))).symm

/-- One stack's new contents from the two row masks, the old stack, the pushed slab, the three action columns and
    the stack rotated by one row, as the body computes them. -/
def blend (first last : IVec S16x128x128 1) (stk : FVec Ideal S16x128x128 .f32) (pushed : FVec Ideal S16x128 .f32)
    (pa po no : FVec Ideal S16x1 .f32) (down : FVec Ideal S16x128x128 .f32) : FVec Ideal S16x128x128 .f32 :=
  addf (addf
      (mulf (broadcastTo S16x128x128 (shapeCast S16x1x1 pa shapeCasts_S16x1_S16x1x1) broadcasts_S16x1x1_S16x128x128)
        (select first (broadcastTo S16x128x128 (shapeCast S16x1x128 (shapeCast S16x1x128 pushed shapeCasts_S16x128_S16x1x128) shapeCasts_S16x1x128_S16x1x128) broadcasts_S16x1x128_S16x128x128) down))
      (mulf (broadcastTo S16x128x128 (shapeCast S16x1x1 po shapeCasts_S16x1_S16x1x1) broadcasts_S16x1x1_S16x128x128)
        (select last (broadcast S16x128x128 (Scalar.ofBits .f32 0x00000000#32)) (dynamicRotate 1 127#32 none stk rotates_S16x128x128_d1))))
    (mulf (broadcastTo S16x128x128 (shapeCast S16x1x1 no shapeCasts_S16x1_S16x1x1) broadcasts_S16x1x1_S16x128x128) stk)

/-- The blend at cell (p, s, c), with the body's masks and the stack rotated by one row for the pushed-down cells. -/
theorem blend_at (stk : FVec Ideal S16x128x128 .f32) (pushed : FVec Ideal S16x128 .f32) (pa po no : FVec Ideal S16x1 .f32)
    (p : Fin 16) (s c : Fin 128) :
    blend k0_pay6 k0_pay7 stk pushed pa po no (dynamicRotate 1 1#32 none stk rotates_S16x128x128_d1) (ix3 p s c)
      = (pa (ix2 p (0 : Fin 1)) * (if s.val = 0 then pushed (ix2 p c) else stk (ix3 p ⟨(s.val + 127) % 128, Nat.mod_lt _ (by norm_num)⟩ c))
          + po (ix2 p (0 : Fin 1)) * (if s.val = 127 then zero else stk (ix3 p ⟨(s.val + 1) % 128, Nat.mod_lt _ (by norm_num)⟩ c)))
        + no (ix2 p (0 : Fin 1)) * stk (ix3 p s c) := by
  unfold blend
  refine congrArg₂ (· + ·) (congrArg₂ (· + ·) (congrArg₂ (· * ·) (spread_at pa p s c) ?_) (congrArg₂ (· * ·) (spread_at po p s c) ?_))
    (congrArg₂ (· * ·) (spread_at no p s c) rfl)
  · rw [select_apply, first_at, select_row_eq _ _ s.isLt (by norm_num), slab_at, down_at]
  · rw [select_apply, last_at, select_row_eq _ _ s.isLt (by norm_num), up_at]
    rfl

/-- The blend is the specification's cell, once its inputs are named: the old stack i of batch row p, the pushed
    values offered to stack i, and the three actions of stack i. -/
theorem cell_of_blend (act : Fin 12 → EReal) (pv : Fin 512 → EReal) (stk4 : Fin 4 → Fin 128 → Fin 128 → EReal) (i : Fin 4)
    (stk : FVec Ideal S16x128x128 .f32) (pushed : FVec Ideal S16x128 .f32) (pa po no : FVec Ideal S16x1 .f32) (p : Fin 16)
    (hstk : ∀ s c, stk (ix3 p s c) = stk4 i s c)
    (hpush : ∀ c : Fin 128, pushed (ix2 p c) = pv ⟨128 * i.val + c.val, by have := i.isLt; have := c.isLt; omega⟩)
    (hpa : pa (ix2 p (0 : Fin 1)) = act ⟨3 * i.val, by have := i.isLt; omega⟩)
    (hpo : po (ix2 p (0 : Fin 1)) = act ⟨3 * i.val + 1, by have := i.isLt; omega⟩)
    (hno : no (ix2 p (0 : Fin 1)) = act ⟨3 * i.val + 2, by have := i.isLt; omega⟩)
    (s c : Fin 128) :
    blend k0_pay6 k0_pay7 stk pushed pa po no (dynamicRotate 1 1#32 none stk rotates_S16x128x128_d1) (ix3 p s c)
      = cell act pv stk4 i s c := by
  rw [blend_at, hpa, hpo, hno]
  unfold cell
  have hs := s.isLt
  refine congrArg₂ (· + ·) (congrArg₂ (· + ·) (congrArg₂ (· * ·) rfl ?_) (congrArg₂ (· * ·) rfl ?_)) (congrArg₂ (· * ·) rfl (hstk s c))
  · by_cases h : s.val = 0
    · rw [if_pos h, dif_pos h]; exact hpush c
    · rw [if_neg h, dif_neg h]
      exact (hstk _ c).trans (congrArg (fun r => stk4 i r c) (Fin.ext (by show (s.val + 127) % 128 = s.val - 1; omega)))
  · by_cases h : s.val = 127
    · rw [if_pos h, dif_pos h]
    · rw [if_neg h, dif_neg h]
      exact (hstk _ c).trans (congrArg (fun r => stk4 i r c) (Fin.ext (by show (s.val + 1) % 128 = s.val + 1; omega)))

end Cert.StackCell.Kern

end
-- ==== Proof.KLoads.lean ====
/-
  Reading the body's loads and slices entry by entry. A load of one stack's top row, or of one whole stack, out of the
  16 × 4 × 128 × 128 block reads the block at the same batch row and cell with the stack's number put in; the four
  128-wide slices of the push block and the twelve one-column slices of the action block read their block at the
  column shifted by the slice's offset.
-/
import proofs.«169338_j85315230368210_2_alg».proof.Proof.Gen.KernelIdeal.Frame
import Idealize.ShloMosaic.Lib.Pipeline.Value
import Idealize.ShloMosaic.Lib.ValueIdx

noncomputable section

namespace Cert.StackCell.Kern

open Cert.KernelIdeal Cert.KernelIdeal.Gen Idealize.ShloMosaic Idealize.ShloMosaic.ValueIdx

theorem ld_top0 (x1 : Vec Ideal S16x4x128x128 .f32) (p : Fin 16) (c : Fin 128) :
    View.ld x1 r0_2 (ix4 p (0 : Fin 1) (0 : Fin 1) c) = x1 (ix4 p (0 : Fin 4) (0 : Fin 128) c) := by
  refine congrArg x1 (funext fun ax => Fin.ext ?_)
  match ax with
  | ⟨0, _⟩ => show 0 + 1 * p.val = p.val; omega
  | ⟨1, _⟩ => rfl
  | ⟨2, _⟩ => rfl
  | ⟨3, _⟩ => show 0 + 1 * c.val = c.val; omega

theorem ld_top1 (x1 : Vec Ideal S16x4x128x128 .f32) (p : Fin 16) (c : Fin 128) :
    View.ld x1 r0_3 (ix4 p (0 : Fin 1) (0 : Fin 1) c) = x1 (ix4 p (1 : Fin 4) (0 : Fin 128) c) := by
  refine congrArg x1 (funext fun ax => Fin.ext ?_)
  match ax with
  | ⟨0, _⟩ => show 0 + 1 * p.val = p.val; omega
  | ⟨1, _⟩ => rfl
  | ⟨2, _⟩ => rfl
  | ⟨3, _⟩ => show 0 + 1 * c.val = c.val; omega

theorem ld_top2 (x1 : Vec Ideal S16x4x128x128 .f32) (p : Fin 16) (c : Fin 128) :
    View.ld x1 r0_4 (ix4 p (0 : Fin 1) (0 : Fin 1) c) = x1 (ix4 p (2 : Fin 4) (0 : Fin 128) c) := by
  refine congrArg x1 (funext fun ax => Fin.ext ?_)
  match ax with
  | ⟨0, _⟩ => show 0 + 1 * p.val = p.val; omega
  | ⟨1, _⟩ => rfl
  | ⟨2, _⟩ => rfl
  | ⟨3, _⟩ => show 0 + 1 * c.val = c.val; omega

theorem ld_top3 (x1 : Vec Ideal S16x4x128x128 .f32) (p : Fin 16) (c : Fin 128) :
    View.ld x1 r0_5 (ix4 p (0 : Fin 1) (0 : Fin 1) c) = x1 (ix4 p (3 : Fin 4) (0 : Fin 128) c) := by
  refine congrArg x1 (funext fun ax => Fin.ext ?_)
  match ax with
  | ⟨0, _⟩ => show 0 + 1 * p.val = p.val; omega
  | ⟨1, _⟩ => rfl
  | ⟨2, _⟩ => rfl
  | ⟨3, _⟩ => show 0 + 1 * c.val = c.val; omega

theorem ld_stack0 (x1 : Vec Ideal S16x4x128x128 .f32) (p : Fin 16) (s c : Fin 128) :
    View.ld x1 r0_11 (ix4 p (0 : Fin 1) s c) = x1 (ix4 p (0 : Fin 4) s c) := by
  refine congrArg x1 (funext fun ax => Fin.ext ?_)
  match ax with
  | ⟨0, _⟩ => show 0 + 1 * p.val = p.val; omega
  | ⟨1, _⟩ => rfl
  | ⟨2, _⟩ => show 0 + 1 * s.val = s.val; omega
  | ⟨3, _⟩ => show 0 + 1 * c.val = c.val; omega

theorem ld_stack1 (x1 : Vec Ideal S16x4x128x128 .f32) (p : Fin 16) (s c : Fin 128) :
    View.ld x1 r0_12 (ix4 p (0 : Fin 1) s c) = x1 (ix4 p (1 : Fin 4) s c) := by
  refine congrArg x1 (funext fun ax => Fin.ext ?_)
  match ax with
  | ⟨0, _⟩ => show 0 + 1 * p.val = p.val; omega
  | ⟨1, _⟩ => rfl
  | ⟨2, _⟩ => show 0 + 1 * s.val = s.val; omega
  | ⟨3, _⟩ => show 0 + 1 * c.val = c.val; omega

theorem ld_stack2 (x1 : Vec Ideal S16x4x128x128 .f32) (p : Fin 16) (s c : Fin 128) :
    View.ld x1 r0_13 (ix4 p (0 : Fin 1) s c) = x1 (ix4 p (2 : Fin 4) s c) := by
  refine congrArg x1 (funext fun ax => Fin.ext ?_)
  match ax with
  | ⟨0, _⟩ => show 0 + 1 * p.val = p.val; omega
  | ⟨1, _⟩ => rfl
  | ⟨2, _⟩ => show 0 + 1 * s.val = s.val; omega
  | ⟨3, _⟩ => show 0 + 1 * c.val = c.val; omega

theorem ld_stack3 (x1 : Vec Ideal S16x4x128x128 .f32) (p : Fin 16) (s c : Fin 128) :
    View.ld x1 r0_14 (ix4 p (0 : Fin 1) s c) = x1 (ix4 p (3 : Fin 4) s c) := by
  refine congrArg x1 (funext fun ax => Fin.ext ?_)
  match ax with
  | ⟨0, _⟩ => show 0 + 1 * p.val = p.val; omega
  | ⟨1, _⟩ => rfl
  | ⟨2, _⟩ => show 0 + 1 * s.val = s.val; omega
  | ⟨3, _⟩ => show 0 + 1 * c.val = c.val; omega

theorem slice_push0 (P : FVec Ideal S16x512 .f32) (p : Fin 16) (c : Fin 128) :
    extractStridedSlice S16x128 ![0, 0] P slices_S16x512_o0_0_S16x128 (ix2 p c)
      = P (ix2 p ⟨128 * 0 + c.val, by have := c.isLt; omega⟩) := by
  refine extractStridedSlice_apply _ P _ (ix2 p c) _ fun a => ?_
  match a with
  | ⟨0, _⟩ => show p.val = 0 + p.val; omega
  | ⟨1, _⟩ => show 128 * 0 + c.val = 0 + c.val; omega

theorem slice_push1 (P : FVec Ideal S16x512 .f32) (p : Fin 16) (c : Fin 128) :
    extractStridedSlice S16x128 ![0, 128] P slices_S16x512_o0_128_S16x128 (ix2 p c)
      = P (ix2 p ⟨128 * 1 + c.val, by have := c.isLt; omega⟩) := by
  refine extractStridedSlice_apply _ P _ (ix2 p c) _ fun a => ?_
  match a with
  | ⟨0, _⟩ => show p.val = 0 + p.val; omega
  | ⟨1, _⟩ => show 128 * 1 + c.val = 128 + c.val; omega

theorem slice_push2 (P : FVec Ideal S16x512 .f32) (p : Fin 16) (c : Fin 128) :
    extractStridedSlice S16x128 ![0, 256] P slices_S16x512_o0_256_S16x128 (ix2 p c)
      = P (ix2 p ⟨128 * 2 + c.val, by have := c.isLt; omega⟩) := by
  refine extractStridedSlice_apply _ P _ (ix2 p c) _ fun a => ?_
  match a with
  | ⟨0, _⟩ => show p.val = 0 + p.val; omega
  | ⟨1, _⟩ => show 128 * 2 + c.val = 256 + c.val; omega

theorem slice_push3 (P : FVec Ideal S16x512 .f32) (p : Fin 16) (c : Fin 128) :
    extractStridedSlice S16x128 ![0, 384] P slices_S16x512_o0_384_S16x128 (ix2 p c)
      = P (ix2 p ⟨128 * 3 + c.val, by have := c.isLt; omega⟩) := by
  refine extractStridedSlice_apply _ P _ (ix2 p c) _ fun a => ?_
  match a with
  | ⟨0, _⟩ => show p.val = 0 + p.val; omega
  | ⟨1, _⟩ => show 128 * 3 + c.val = 384 + c.val; omega

theorem slice_act0 (A : FVec Ideal S16x12 .f32) (p : Fin 16) :
    extractStridedSlice S16x1 ![0, 0] A slices_S16x12_o0_0_S16x1 (ix2 p (0 : Fin 1)) = A (ix2 p (⟨0, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act1 (A : FVec Ideal S16x12 .f32) (p : Fin 16) :
    extractStridedSlice S16x1 ![0, 1] A slices_S16x12_o0_1_S16x1 (ix2 p (0 : Fin 1)) = A (ix2 p (⟨1, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act2 (A : FVec Ideal S16x12 .f32) (p : Fin 16) :
    extractStridedSlice S16x1 ![0, 2] A slices_S16x12_o0_2_S16x1 (ix2 p (0 : Fin 1)) = A (ix2 p (⟨2, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act3 (A : FVec Ideal S16x12 .f32) (p : Fin 16) :
    extractStridedSlice S16x1 ![0, 3] A slices_S16x12_o0_3_S16x1 (ix2 p (0 : Fin 1)) = A (ix2 p (⟨3, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act4 (A : FVec Ideal S16x12 .f32) (p : Fin 16) :
    extractStridedSlice S16x1 ![0, 4] A slices_S16x12_o0_4_S16x1 (ix2 p (0 : Fin 1)) = A (ix2 p (⟨4, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act5 (A : FVec Ideal S16x12 .f32) (p : Fin 16) :
    extractStridedSlice S16x1 ![0, 5] A slices_S16x12_o0_5_S16x1 (ix2 p (0 : Fin 1)) = A (ix2 p (⟨5, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act6 (A : FVec Ideal S16x12 .f32) (p : Fin 16) :
    extractStridedSlice S16x1 ![0, 6] A slices_S16x12_o0_6_S16x1 (ix2 p (0 : Fin 1)) = A (ix2 p (⟨6, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act7 (A : FVec Ideal S16x12 .f32) (p : Fin 16) :
    extractStridedSlice S16x1 ![0, 7] A slices_S16x12_o0_7_S16x1 (ix2 p (0 : Fin 1)) = A (ix2 p (⟨7, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act8 (A : FVec Ideal S16x12 .f32) (p : Fin 16) :
    extractStridedSlice S16x1 ![0, 8] A slices_S16x12_o0_8_S16x1 (ix2 p (0 : Fin 1)) = A (ix2 p (⟨8, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act9 (A : FVec Ideal S16x12 .f32) (p : Fin 16) :
    extractStridedSlice S16x1 ![0, 9] A slices_S16x12_o0_9_S16x1 (ix2 p (0 : Fin 1)) = A (ix2 p (⟨9, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act10 (A : FVec Ideal S16x12 .f32) (p : Fin 16) :
    extractStridedSlice S16x1 ![0, 10] A slices_S16x12_o0_10_S16x1 (ix2 p (0 : Fin 1)) = A (ix2 p (⟨10, by norm_num⟩ : Fin 12)) := by
  refine extractStridedSlice_apply _ A _ (ix2 p (0 : Fin 1)) _ fun ax => ?_
  match ax with
  | ⟨0, _⟩ => show p.val = 0 + p.val; omega
  | ⟨1, _⟩ => rfl

theorem slice_act11 (A : FVec Ideal S16x12 .f32) (p : Fin 16) :
    extractStridedSlice S16x1 ![0, 11] A slices_S16x12_o0_11_S16x1 (ix2 p (0 : Fin 1)) = A (ix2 p (⟨11, by norm_num⟩ : Fin 12)) := by
  refine extractStridedSlice_apply _ A _ (ix2 p (0 : Fin 1)) _ fun ax => ?_
  match ax with
  | ⟨0, _⟩ => show p.val = 0 + p.val; omega
  | ⟨1, _⟩ => rfl

end Cert.StackCell.Kern

end
-- ==== Proof.KStacks.lean ====
/-
  The four stores of the updated stacks. Each store's payload is one stack's blend reshaped from 16 × 128 × 128 to
  16 × 1 × 128 × 128, the stack loaded as a 16 × 1 × 128 × 128 slab and reshaped the other way, the pushed slab a 128-wide
  slice of the push block at column 128·i and the three action columns the slices of the action block at columns
  3i, 3i + 1, 3i + 2. So entry (p, ·, s, c) of store i is the specification's cell (i, s, c) of batch row p.
-/
import proofs.«169338_j85315230368210_2_alg».proof.Proof.Gen.KernelIdeal.Frame
import proofs.«169338_j85315230368210_2_alg».proof.Proof.Spec
import proofs.«169338_j85315230368210_2_alg».proof.Proof.KCell
import proofs.«169338_j85315230368210_2_alg».proof.Proof.KLoads

noncomputable section

namespace Cert.StackCell.Kern

open Cert.KernelIdeal Cert.KernelIdeal.Gen Idealize.ShloMosaic Idealize.ShloMosaic.ValueIdx Cert.StackCell

/-- A 16 × 1 × 128 × 128 slab seen as 16 × 128 × 128 keeps entry (p, ·, s, c) at (p, s, c). -/
theorem unstack_at (L : Vec Ideal S16x1x128x128 .f32) (p : Fin 16) (s c : Fin 128) :
    shapeCast S16x128x128 L shapeCasts_S16x1x128x128_S16x128x128 (ix3 p s c) = L (ix4 p (0 : Fin 1) s c) := by
  refine shapeCast_apply L _ (ix3 p s c) (ix4 p (0 : Fin 1) s c) ?_
  rw [Shape.rowMajor_val_four, Shape.rowMajor_val_three]
  show ((p.val * 1 + 0) * 128 + s.val) * 128 + c.val = (p.val * 128 + s.val) * 128 + c.val
  omega

/-- And back. -/
theorem restack_at (v : FVec Ideal S16x128x128 .f32) (p : Fin 16) (z : Fin 1) (s c : Fin 128) :
    shapeCast S16x1x128x128 v shapeCasts_S16x128x128_S16x1x128x128 (ix4 p z s c) = v (ix3 p s c) := by
  refine shapeCast_apply v _ (ix4 p z s c) (ix3 p s c) ?_
  rw [Shape.rowMajor_val_four, Shape.rowMajor_val_three]
  have := z.isLt
  show (p.val * 128 + s.val) * 128 + c.val = ((p.val * 1 + z.val) * 128 + s.val) * 128 + c.val
  omega

/-- One store, for any stack number i: the reshaped blend of the reshaped slab is the specification's cell. -/
theorem stack_at (i : Fin 4) (L : Vec Ideal S16x1x128x128 .f32) (pushed : FVec Ideal S16x128 .f32) (pa po no : FVec Ideal S16x1 .f32)
    (act : Fin 12 → EReal) (pv : Fin 512 → EReal) (stk4 : Fin 4 → Fin 128 → Fin 128 → EReal) (p : Fin 16)
    (hL : ∀ s c : Fin 128, L (ix4 p (0 : Fin 1) s c) = stk4 i s c)
    (hpush : ∀ c : Fin 128, pushed (ix2 p c) = pv ⟨128 * i.val + c.val, by have := i.isLt; have := c.isLt; omega⟩)
    (hpa : pa (ix2 p (0 : Fin 1)) = act ⟨3 * i.val, by have := i.isLt; omega⟩)
    (hpo : po (ix2 p (0 : Fin 1)) = act ⟨3 * i.val + 1, by have := i.isLt; omega⟩)
    (hno : no (ix2 p (0 : Fin 1)) = act ⟨3 * i.val + 2, by have := i.isLt; omega⟩)
    (z : Fin 1) (s c : Fin 128) :
    shapeCast S16x1x128x128 (blend k0_pay6 k0_pay7 (shapeCast S16x128x128 L shapeCasts_S16x1x128x128_S16x128x128) pushed pa po no
        (dynamicRotate 1 1#32 none (shapeCast S16x128x128 L shapeCasts_S16x1x128x128_S16x128x128) rotates_S16x128x128_d1))
      shapeCasts_S16x128x128_S16x1x128x128 (ix4 p z s c) = cell act pv stk4 i s c :=
  (restack_at _ p z s c).trans
    (cell_of_blend act pv stk4 i _ pushed pa po no p (fun s c => (unstack_at L p s c).trans (hL s c)) hpush hpa hpo hno s c)

variable (P : FVec Ideal S16x512 .f32) (A : FVec Ideal S16x12 .f32) (L : Vec Ideal S16x1x128x128 .f32)
  (act : Fin 12 → EReal) (pv : Fin 512 → EReal) (stk4 : Fin 4 → Fin 128 → Fin 128 → EReal) (p : Fin 16)

/-- The store of stack 0, whose slices are taken of the push and action blocks computed from the hidden block. -/
theorem piece0_at (hv : FVec Ideal S16x512 .f32) (w7 : FVec Ideal S512x512 .bf16) (b8 : FVec Ideal S512 .f32)
    (w9 : FVec Ideal S512x12 .bf16) (b10 : FVec Ideal S12 .f32)
    (hP : ∀ q : Fin 512, k0_pay4 (F := Ideal) hv w7 b8 (ix2 p q) = pv q) (hA : ∀ a : Fin 12, k0_pay5 (F := Ideal) hv w9 b10 (ix2 p a) = act a)
    (hL : ∀ s c : Fin 128, L (ix4 p (0 : Fin 1) s c) = stk4 0 s c) (z : Fin 1) (s c : Fin 128) :
    k0_pay14 (F := Ideal) k0_pay6 k0_pay7 (k0_pay8 L) (k0_pay9 hv w7 b8) (k0_pay10 hv w9 b10) (k0_pay11 hv w9 b10) (k0_pay12 hv w9 b10) (k0_pay13 L) (ix4 p z s c)
      = cell act pv stk4 0 s c :=
  stack_at 0 L _ _ _ _ act pv stk4 p hL (fun c => (slice_push0 _ p c).trans (hP _))
    ((slice_act0 _ p).trans (hA _)) ((slice_act1 _ p).trans (hA _)) ((slice_act2 _ p).trans (hA _)) z s c

/-- The store of stack 1. -/
theorem piece1_at (hP : ∀ q : Fin 512, P (ix2 p q) = pv q) (hA : ∀ a : Fin 12, A (ix2 p a) = act a)
    (hL : ∀ s c : Fin 128, L (ix4 p (0 : Fin 1) s c) = stk4 1 s c) (z : Fin 1) (s c : Fin 128) :
    k0_pay16 (F := Ideal) (k0_pay15 P A k0_pay6 k0_pay7 L) (ix4 p z s c) = cell act pv stk4 1 s c :=
  stack_at 1 L _ _ _ _ act pv stk4 p hL (fun c => (slice_push1 P p c).trans (hP _))
    ((slice_act3 A p).trans (hA _)) ((slice_act4 A p).trans (hA _)) ((slice_act5 A p).trans (hA _)) z s c

/-- The store of stack 2. -/
theorem piece2_at (hP : ∀ q : Fin 512, P (ix2 p q) = pv q) (hA : ∀ a : Fin 12, A (ix2 p a) = act a)
    (hL : ∀ s c : Fin 128, L (ix4 p (0 : Fin 1) s c) = stk4 2 s c) (z : Fin 1) (s c : Fin 128) :
    k0_pay17 (F := Ideal) P A k0_pay6 k0_pay7 L (ix4 p z s c) = cell act pv stk4 2 s c :=
  stack_at 2 L _ _ _ _ act pv stk4 p hL (fun c => (slice_push2 P p c).trans (hP _))
    ((slice_act6 A p).trans (hA _)) ((slice_act7 A p).trans (hA _)) ((slice_act8 A p).trans (hA _)) z s c

/-- The store of stack 3. -/
theorem piece3_at (hP : ∀ q : Fin 512, P (ix2 p q) = pv q) (hA : ∀ a : Fin 12, A (ix2 p a) = act a)
    (hL : ∀ s c : Fin 128, L (ix4 p (0 : Fin 1) s c) = stk4 3 s c) (z : Fin 1) (s c : Fin 128) :
    k0_pay1 (F := Ideal) k0_pay6 k0_pay7 (k0_pay18 L) (k0_pay19 P) (k0_pay20 A) (k0_pay21 A) (k0_pay22 A) (k0_pay23 L) (ix4 p z s c)
      = cell act pv stk4 3 s c :=
  stack_at 3 L _ _ _ _ act pv stk4 p hL (fun c => (slice_push3 P p c).trans (hP _))
    ((slice_act9 A p).trans (hA _)) ((slice_act10 A p).trans (hA _)) ((slice_act11 A p).trans (hA _)) z s c

end Cert.StackCell.Kern

end
-- ==== Proof.Block.lean ====
/-
  What one grid point leaves in its two output blocks, entry by entry: the block of sixteen hidden rows and the
  block of sixteen rows of updated stacks are the row functions of the specification applied to the rows of the
  point's input blocks, the weight matrices read transposed (as the kernel is handed them). The hidden block is one
  store of the whole block; the stacks block is four stores, one per stack, whose rectangles tile it.
-/
import proofs.«169338_j85315230368210_2_alg».proof.Proof.Gen.KernelIdeal.Frame
import proofs.«169338_j85315230368210_2_alg».proof.Proof.Spec
import proofs.«169338_j85315230368210_2_alg».proof.Proof.KHidden
import proofs.«169338_j85315230368210_2_alg».proof.Proof.KActs
import proofs.«169338_j85315230368210_2_alg».proof.Proof.KStacks
import proofs.«169338_j85315230368210_2_alg».proof.Proof.KLoads

noncomputable section

namespace Cert.StackCell.Block

open Cert.KernelIdeal Cert.KernelIdeal.Gen Idealize.ShloMosaic Idealize.ShloMosaic.ValueIdx Cert.StackCell Cert.StackCell.Kern

theorem zeros2 : (![0, 0] : Fin 2 → ℕ) = fun _ => 0 := by
  funext a; match a with | ⟨0, _⟩ => rfl | ⟨1, _⟩ => rfl
theorem zeros1 : (![0] : Fin 1 → ℕ) = fun _ => 0 := by
  funext a; match a with | ⟨0, _⟩ => rfl

/-! A load of a whole block reads the block. -/
theorem ld0 (x : Vec Ideal S16x256 .f32) : View.ld x r0_0 = x := View.ld_unit_zero zeros2 _ x
theorem ld1 (x : Vec Ideal S16x512 .f32) : View.ld x r0_1 = x := View.ld_unit_zero zeros2 _ x
theorem ld6 (x : Vec Ideal S768x512 .bf16) : View.ld x r0_6 = x := View.ld_unit_zero zeros2 _ x
theorem ld7 (x : Vec Ideal S512x512 .bf16) : View.ld x r0_7 = x := View.ld_unit_zero zeros2 _ x
theorem ld8 (x : Vec Ideal S512 .f32) : View.ld x r0_8 = x := View.ld_unit_zero zeros1 _ x
theorem ld9 (x : Vec Ideal S512x12 .bf16) : View.ld x r0_9 = x := View.ld_unit_zero zeros2 _ x
theorem ld10 (x : Vec Ideal S12 .f32) : View.ld x r0_10 = x := View.ld_unit_zero zeros1 _ x

theorem emb0 (p : Fin 16) (z : Fin 1) (s c : Fin 128) : r0_11.emb (ix4 p z s c) = ix4 p (0 : Fin 4) s c := by
  funext ax; apply Fin.ext
  have := z.isLt
  match ax with
  | ⟨0, _⟩ => show 0 + 1 * p.val = p.val; omega
  | ⟨1, _⟩ => show 0 + 1 * z.val = 0; omega
  | ⟨2, _⟩ => show 0 + 1 * s.val = s.val; omega
  | ⟨3, _⟩ => show 0 + 1 * c.val = c.val; omega

theorem emb1 (p : Fin 16) (z : Fin 1) (s c : Fin 128) : r0_12.emb (ix4 p z s c) = ix4 p (1 : Fin 4) s c := by
  funext ax; apply Fin.ext
  have := z.isLt
  match ax with
  | ⟨0, _⟩ => show 0 + 1 * p.val = p.val; omega
  | ⟨1, _⟩ => show 1 + 1 * z.val = 1; omega
  | ⟨2, _⟩ => show 0 + 1 * s.val = s.val; omega
  | ⟨3, _⟩ => show 0 + 1 * c.val = c.val; omega

theorem emb2 (p : Fin 16) (z : Fin 1) (s c : Fin 128) : r0_13.emb (ix4 p z s c) = ix4 p (2 : Fin 4) s c := by
  funext ax; apply Fin.ext
  have := z.isLt
  match ax with
  | ⟨0, _⟩ => show 0 + 1 * p.val = p.val; omega
  | ⟨1, _⟩ => show 2 + 1 * z.val = 2; omega
  | ⟨2, _⟩ => show 0 + 1 * s.val = s.val; omega
  | ⟨3, _⟩ => show 0 + 1 * c.val = c.val; omega

theorem emb3 (p : Fin 16) (z : Fin 1) (s c : Fin 128) : r0_14.emb (ix4 p z s c) = ix4 p (3 : Fin 4) s c := by
  funext ax; apply Fin.ext
  have := z.isLt
  match ax with
  | ⟨0, _⟩ => show 0 + 1 * p.val = p.val; omega
  | ⟨1, _⟩ => show 3 + 1 * z.val = 3; omega
  | ⟨2, _⟩ => show 0 + 1 * s.val = s.val; omega
  | ⟨3, _⟩ => show 0 + 1 * c.val = c.val; omega

/-- The input row sees a row's stacks only through their top cells. -/
theorem xrow_tops (inp : Fin 256 → EReal) (stk stk' : Fin 4 → Fin 128 → Fin 128 → EReal)
    (h : ∀ (i : Fin 4) (c : Fin 128), stk i ⟨0, by norm_num⟩ c = stk' i ⟨0, by norm_num⟩ c) : xrow inp stk = xrow inp stk' := by
  funext k
  unfold xrow
  by_cases hk : k.val < 256
  · rw [dif_pos hk, dif_pos hk]
  · rw [dif_neg hk, dif_neg hk]; exact h _ _

/-- The four loaded top rows are the top cells of the block's stacks. -/
theorem tops_eq (x1 : Vec Ideal S16x4x128x128 .f32) (p : Fin 16) (i : Fin 4) (c : Fin 128) :
    topsOf (View.ld x1 r0_2) (View.ld x1 r0_3) (View.ld x1 r0_4) (View.ld x1 r0_5) p i ⟨0, by norm_num⟩ c
      = row4 x1 p i ⟨0, by norm_num⟩ c := by
  unfold topsOf sel4 row4
  match i with
  | ⟨0, _⟩ => exact ld_top0 x1 p c
  | ⟨1, _⟩ => exact ld_top1 x1 p c
  | ⟨2, _⟩ => exact ld_top2 x1 p c
  | ⟨3, _⟩ => exact ld_top3 x1 p c

/-- The block of hidden rows the body computes from its loads. -/
abbrev hblock (x0 : Vec Ideal S16x256 .f32) (x1 : Vec Ideal S16x4x128x128 .f32) (x2 : Vec Ideal S16x512 .f32)
    (x3 : Vec Ideal S768x512 .bf16) (x4 : Vec Ideal S512 .f32) (x5 : Vec Ideal S512x512 .bf16) (x6 : Vec Ideal S512 .f32) : FVec Ideal S16x512 .f32 :=
  k0_pay2 (View.ld x0 r0_0) (View.ld x2 r0_1) (View.ld x1 r0_2) (View.ld x1 r0_3) (View.ld x1 r0_4) (View.ld x1 r0_5)
    (View.ld x3 r0_6) (View.ld x5 r0_7) (View.ld x4 r0_8) (View.ld x6 r0_8)

/-- Entry (p, j) of it. -/
theorem hblock_at (x0 : Vec Ideal S16x256 .f32) (x1 : Vec Ideal S16x4x128x128 .f32) (x2 : Vec Ideal S16x512 .f32)
    (x3 : Vec Ideal S768x512 .bf16) (x4 : Vec Ideal S512 .f32) (x5 : Vec Ideal S512x512 .bf16) (x6 : Vec Ideal S512 .f32) (p : Fin 16) (j : Fin 512) :
    hblock x0 x1 x2 x3 x4 x5 x6 (ix2 p j) = hid (row2 x0 p) (row4 x1 p) (row2 x2 p) (matT x3) (vec x4) (matT x5) (vec x6) j := by
  refine (pay2_at _ _ _ _ _ _ _ _ _ _ p j).trans ?_
  rw [ld0, ld1, ld6, ld7, ld8, ld8]
  unfold hid
  rw [xrow_tops (row2 x0 p) _ (row4 x1 p) (tops_eq x1 p)]

/-- Entry (p, j) of the hidden block a point leaves. -/
theorem block_hidden (x0 : Vec Ideal S16x256 .f32) (x1 : Vec Ideal S16x4x128x128 .f32) (x2 : Vec Ideal S16x512 .f32)
    (x3 : Vec Ideal S768x512 .bf16) (x4 : Vec Ideal S512 .f32) (x5 : Vec Ideal S512x512 .bf16) (x6 : Vec Ideal S512 .f32)
    (x7 : Vec Ideal S512x512 .bf16) (x8 : Vec Ideal S512 .f32) (x9 : Vec Ideal S512x12 .bf16) (x10 : Vec Ideal S12 .f32)
    (p : Fin 16) (j : Fin 512) :
    out0_11 (F := Ideal) x0 x1 x2 x3 x4 x5 x6 x7 x8 x9 x10 (ix2 p j)
      = hid (row2 x0 p) (row4 x1 p) (row2 x2 p) (matT x3) (vec x4) (matT x5) (vec x6) j := by
  unfold out0_11
  rw [View.canon_unit_zero zeros2]
  exact hblock_at x0 x1 x2 x3 x4 x5 x6 p j

/-- Entry (p, i, s, c) of the block of updated stacks a point leaves. -/
theorem block_updated (x0 : Vec Ideal S16x256 .f32) (x1 : Vec Ideal S16x4x128x128 .f32) (x2 : Vec Ideal S16x512 .f32)
    (x3 : Vec Ideal S768x512 .bf16) (x4 : Vec Ideal S512 .f32) (x5 : Vec Ideal S512x512 .bf16) (x6 : Vec Ideal S512 .f32)
    (x7 : Vec Ideal S512x512 .bf16) (x8 : Vec Ideal S512 .f32) (x9 : Vec Ideal S512x12 .bf16) (x10 : Vec Ideal S12 .f32)
    (p : Fin 16) (i : Fin 4) (s c : Fin 128) :
    out0_12 (F := Ideal) x0 x1 x2 x3 x4 x5 x6 x7 x8 x9 x10 (ix4 p i s c)
      = newCell (row2 x0 p) (row4 x1 p) (row2 x2 p) (matT x3) (vec x4) (matT x5) (vec x6)
          (matT x7) (vec x8) (matT x9) (vec x10) i s c := by
  have hrow : ∀ p : Fin 16, row2 (hblock x0 x1 x2 x3 x4 x5 x6) p = hid (row2 x0 p) (row4 x1 p) (row2 x2 p) (matT x3) (vec x4) (matT x5) (vec x6) :=
    fun p => funext fun j => hblock_at x0 x1 x2 x3 x4 x5 x6 p j
  have hP : ∀ (p : Fin 16) (q : Fin 512), k0_pay4 (F := Ideal) (hblock x0 x1 x2 x3 x4 x5 x6) (View.ld x7 r0_7) (View.ld x8 r0_8) (ix2 p q)
      = push (hid (row2 x0 p) (row4 x1 p) (row2 x2 p) (matT x3) (vec x4) (matT x5) (vec x6)) (matT x7) (vec x8) q := fun p q => by
    refine (pay4_at _ _ _ p q).trans ?_
    rw [ld7, ld8, hrow p]
  have hA : ∀ (p : Fin 16) (a : Fin 12), k0_pay5 (F := Ideal) (hblock x0 x1 x2 x3 x4 x5 x6) (View.ld x9 r0_9) (View.ld x10 r0_10) (ix2 p a)
      = acts (hid (row2 x0 p) (row4 x1 p) (row2 x2 p) (matT x3) (vec x4) (matT x5) (vec x6)) (matT x9) (vec x10) a := fun p a => by
    refine (pay5_at _ _ _ p a).trans ?_
    rw [ld9, ld10, hrow p]
  let G : S16x4x128x128.Idx → EReal := fun y =>
    newCell (row2 x0 (y 0)) (row4 x1 (y 0)) (row2 x2 (y 0)) (matT x3) (vec x4) (matT x5) (vec x6)
      (matT x7) (vec x8) (matT x9) (vec x10) (y 1) (y 2) (y 3)
  unfold out0_12
  refine (View.canon_apply_of_pieces G _ ?_ (ix4 p i s c) (cover0_12 _ _ _ _ _)).trans rfl
  intro pc hpc
  rcases List.mem_cons.mp hpc with rfl | hpc
  ·
    intro x
    obtain ⟨p', z, s', c', rfl⟩ : ∃ (p' : Fin 16) (z : Fin 1) (s' c' : Fin 128), x = ix4 p' z s' c' :=
      ⟨x 0, x 1, x 2, x 3, eq_ix4 x⟩
    refine Eq.trans ?_ (congrArg G (emb3 p' z s' c')).symm
    exact piece3_at _ _ _ _ _ (row4 x1 p') p' (hP p') (hA p') (ld_stack3 x1 p') z s' c'
  rcases List.mem_cons.mp hpc with rfl | hpc
  ·
    intro x
    obtain ⟨p', z, s', c', rfl⟩ : ∃ (p' : Fin 16) (z : Fin 1) (s' c' : Fin 128), x = ix4 p' z s' c' :=
      ⟨x 0, x 1, x 2, x 3, eq_ix4 x⟩
    refine Eq.trans ?_ (congrArg G (emb2 p' z s' c')).symm
    exact piece2_at _ _ _ _ _ (row4 x1 p') p' (hP p') (hA p') (ld_stack2 x1 p') z s' c'
  rcases List.mem_cons.mp hpc with rfl | hpc
  ·
    intro x
    obtain ⟨p', z, s', c', rfl⟩ : ∃ (p' : Fin 16) (z : Fin 1) (s' c' : Fin 128), x = ix4 p' z s' c' :=
      ⟨x 0, x 1, x 2, x 3, eq_ix4 x⟩
    refine Eq.trans ?_ (congrArg G (emb1 p' z s' c')).symm
    exact piece1_at _ _ _ _ _ (row4 x1 p') p' (hP p') (hA p') (ld_stack1 x1 p') z s' c'
  rcases List.mem_cons.mp hpc with rfl | hpc
  ·
    intro x
    obtain ⟨p', z, s', c', rfl⟩ : ∃ (p' : Fin 16) (z : Fin 1) (s' c' : Fin 128), x = ix4 p' z s' c' :=
      ⟨x 0, x 1, x 2, x 3, eq_ix4 x⟩
    refine Eq.trans ?_ (congrArg G (emb0 p' z s' c')).symm
    exact piece0_at _ _ _ (row4 x1 p') p' _ _ _ _ _ (hP p') (hA p') (ld_stack0 x1 p') z s' c'
  · exact absurd hpc List.not_mem_nil

end Cert.StackCell.Block

end
-- ==== Proof.ArrHidden.lean ====
/-
  The hidden output over the whole batch.

  Point t of the grid leaves, in rows 16 t … 16 t + 15 of the hidden output, the new hidden rows of those batch rows:
  its block is the block of the specification's whole-batch function. The thirty-two blocks cover the 512 rows (the
  point covering row b is b / 16), so the output ends holding that function.
-/
import proofs.«169338_j85315230368210_2_alg».proof.Proof.ArrBlocks
import proofs.«169338_j85315230368210_2_alg».proof.Proof.ArrWhole
import proofs.«169338_j85315230368210_2_alg».proof.Proof.Block

noncomputable section

namespace Cert.StackCell.Arr

open Cert.KernelIdeal Cert.KernelIdeal.Gen Idealize.ShloMosaic Idealize.ShloMosaic.TcCoe Idealize.SL.Sem
open Idealize.ShloMosaic.ValueIdx Cert.StackCell

variable (m : (ℓ : Loc nD τ sig) → Buf (Elt Ideal) ℓ)

/-- One entry of a point's hidden block, for blocks that are rows 16 n … 16 n + 15 of the batched arrays and the
    whole of the weights: the entry of the whole-batch hidden state sixteen n rows further down. -/
theorem hidden_entry (x0 : Vec Ideal S16x256 .f32) (x1 : Vec Ideal S16x4x128x128 .f32) (x2 : Vec Ideal S16x512 .f32)
    (x3 : Vec Ideal S768x512 .bf16) (x4 : Vec Ideal S512 .f32) (x5 : Vec Ideal S512x512 .bf16) (x6 : Vec Ideal S512 .f32)
    (x7 : Vec Ideal S512x512 .bf16) (x8 : Vec Ideal S512 .f32) (x9 : Vec Ideal S512x12 .bf16) (x10 : Vec Ideal S12 .f32)
    (a0 : S512x256.Idx → EReal) (a1 : S512x4x128x128.Idx → EReal) (a2 : S512x512.Idx → EReal)
    (a3 : S512x768.Idx → EReal) (a4 : S512.Idx → EReal) (a5 : S512x512.Idx → EReal) (a6 : S512.Idx → EReal)
    (n : Nat)
    (h0 : ∀ (p : Fin 16) (hb : 16 * n + p.val < 512), row2 x0 p = row2 a0 ⟨16 * n + p.val, hb⟩)
    (h1 : ∀ (p : Fin 16) (hb : 16 * n + p.val < 512), row4 x1 p = row4 a1 ⟨16 * n + p.val, hb⟩)
    (h2 : ∀ (p : Fin 16) (hb : 16 * n + p.val < 512), row2 x2 p = row2 a2 ⟨16 * n + p.val, hb⟩)
    (h3 : matT x3 = mat a3) (h4 : vec x4 = vec a4) (h5 : matT x5 = mat a5) (h6 : vec x6 = vec a6)
    (y : S16x512.Idx) (i : S512x512.Idx) (hi0 : (i 0).val = 16 * n + (y 0).val) (hi1 : (i 1).val = (y 1).val) :
    out0_11 (F := Ideal) x0 x1 x2 x3 x4 x5 x6 x7 x8 x9 x10 y = hidden a0 a1 a2 a3 a4 a5 a6 i := by
  obtain ⟨p, j, rfl⟩ : ∃ (p : Fin 16) (j : Fin 512), y = ix2 p j := ⟨y 0, y 1, eq_ix2 y⟩
  have hb : 16 * n + p.val < 512 := by have h : (i 0).val < 512 := (i 0).isLt; have e : (i 0).val = 16 * n + p.val := hi0; omega
  obtain rfl : i = ix2 ⟨16 * n + p.val, hb⟩ j := by
    funext a
    match a with
    | ⟨0, _⟩ => exact Fin.ext hi0
    | ⟨1, _⟩ => exact Fin.ext hi1
  rw [Block.block_hidden]
  show hid (row2 x0 p) (row4 x1 p) (row2 x2 p) (matT x3) (vec x4) (matT x5) (vec x6) j
    = hid (row2 a0 ⟨16 * n + p.val, hb⟩) (row4 a1 ⟨16 * n + p.val, hb⟩) (row2 a2 ⟨16 * n + p.val, hb⟩)
        (mat a3) (vec a4) (mat a5) (vec a6) j
  rw [h0 p hb, h1 p hb, h2 p hb, h3, h4, h5, h6]

/-- What point t writes back to the hidden output is block t of the whole-batch hidden state. -/
theorem flushed_hidden (c : Dev nD) (t : Fin cfg0.N) :
    (dats m 0 c).flushed 11 t = ((cfg0.win 11).blk t).view.read (Elt Ideal)
      (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed11]
  obtain ⟨e0, e1⟩ := idx_hidden t
  funext y
  refine hidden_entry _ _ _ _ _ _ _ _ _ _ _ _ _ _ _ _ _ _ t.val (inputs_row m c t) (stacks_row m c t) (core_row m c t)
    (wih_block m c t) (bih_block m c t) (whh_block m c t) (bhh_block m c t) y _ ?_ ?_
  · show win0_11.index t (0 : Fin 2) * 16 + 1 * (y 0).val = 16 * t.val + (y 0).val
    rw [e0]; omega
  · show win0_11.index t (1 : Fin 2) * 512 + 1 * (y 1).val = (y 1).val
    rw [e1]; omega

/-- An entry of the hidden output is in point t's block iff each coordinate is in the block's range on its axis. -/
theorem mem_hidden_block (t : Fin cfg0.N) (i : S512x512.Idx) :
    i ∈ ((cfg0.win 11).blk t).view.set ↔ ∀ a : Fin 2, win0_11.index t a * S16x512.size a ≤ (i a).val ∧ (i a).val < win0_11.index t a * S16x512.size a + S16x512.size a := by
  show i ∈ ((View.whole main_v8_0).slice (win0_11.rect t)).set ↔ _
  rw [View.set_slice_whole, Rect.mem_set_unit]
  exact Iff.rfl

/-- Every entry of the hidden output is in some point's block: row b is in the block of point b / 16. -/
theorem hidden_covered (i : S512x512.Idx) :
    ∃ t : Fin cfg0.N, (cfg0.win 11).flush t = true ∧ i ∈ ((cfg0.win 11).blk t).view.set := by
  have hi0 : (i 0).val < 512 := (i 0).isLt
  have hi1 : (i 1).val < 512 := (i 1).isLt
  have hN : cfg0.N = 32 := points
  let t : Fin cfg0.N := ⟨(i 0).val / 16, by rw [hN]; omega⟩
  have ht : t.val = (i 0).val / 16 := rfl
  obtain ⟨e0, e1⟩ := idx_hidden t
  refine ⟨t, flush0_11 t, ?_⟩
  rw [mem_hidden_block]
  intro a
  match a with
  | ⟨0, _⟩ => show win0_11.index t (0 : Fin 2) * 16 ≤ (i 0).val ∧ (i 0).val < win0_11.index t (0 : Fin 2) * 16 + 16; rw [e0, ht]; omega
  | ⟨1, _⟩ => show win0_11.index t (1 : Fin 2) * 512 ≤ (i 1).val ∧ (i 1).val < win0_11.index t (1 : Fin 2) * 512 + 512; rw [e1]; omega

/-- The hidden output after the run: the whole-batch hidden state of the launched arguments. -/
theorem final_hidden (c : Dev nD) :
    (dats m 0 c).arrAt 11 cfg0.N = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 11 (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (fun t _ => flushed_hidden m c t) hidden_covered

end Cert.StackCell.Arr

end
-- ==== Proof.ArrUpdated.lean ====
/-
  The stacks output over the whole batch.

  Point t of the grid leaves, in rows 16 t … 16 t + 15 of the stacks output, the updated stacks of those batch rows:
  its block is the block of the specification's whole-batch function. The thirty-two blocks cover the 512 rows (the
  point covering row b is b / 16), so the output ends holding that function, whatever it held before.
-/
import proofs.«169338_j85315230368210_2_alg».proof.Proof.ArrBlocks
import proofs.«169338_j85315230368210_2_alg».proof.Proof.ArrWhole
import proofs.«169338_j85315230368210_2_alg».proof.Proof.Block

noncomputable section

namespace Cert.StackCell.Arr

open Cert.KernelIdeal Cert.KernelIdeal.Gen Idealize.ShloMosaic Idealize.ShloMosaic.TcCoe Idealize.SL.Sem
open Idealize.ShloMosaic.ValueIdx Cert.StackCell

variable (m : (ℓ : Loc nD τ sig) → Buf (Elt Ideal) ℓ)

/-- One entry of a point's block of updated stacks, for blocks that are rows 16 n … 16 n + 15 of the batched arrays
    and the whole of the weights: the entry of the whole-batch updated stacks sixteen n rows further down. -/
theorem updated_entry (x0 : Vec Ideal S16x256 .f32) (x1 : Vec Ideal S16x4x128x128 .f32) (x2 : Vec Ideal S16x512 .f32)
    (x3 : Vec Ideal S768x512 .bf16) (x4 : Vec Ideal S512 .f32) (x5 : Vec Ideal S512x512 .bf16) (x6 : Vec Ideal S512 .f32)
    (x7 : Vec Ideal S512x512 .bf16) (x8 : Vec Ideal S512 .f32) (x9 : Vec Ideal S512x12 .bf16) (x10 : Vec Ideal S12 .f32)
    (a0 : S512x256.Idx → EReal) (a1 : S512x4x128x128.Idx → EReal) (a2 : S512x512.Idx → EReal)
    (a3 : S512x768.Idx → EReal) (a4 : S512.Idx → EReal) (a5 : S512x512.Idx → EReal) (a6 : S512.Idx → EReal)
    (a7 : S512x512.Idx → EReal) (a8 : S512.Idx → EReal) (a9 : S12x512.Idx → EReal) (a10 : S12.Idx → EReal)
    (n : Nat)
    (h0 : ∀ (p : Fin 16) (hb : 16 * n + p.val < 512), row2 x0 p = row2 a0 ⟨16 * n + p.val, hb⟩)
    (h1 : ∀ (p : Fin 16) (hb : 16 * n + p.val < 512), row4 x1 p = row4 a1 ⟨16 * n + p.val, hb⟩)
    (h2 : ∀ (p : Fin 16) (hb : 16 * n + p.val < 512), row2 x2 p = row2 a2 ⟨16 * n + p.val, hb⟩)
    (h3 : matT x3 = mat a3) (h4 : vec x4 = vec a4) (h5 : matT x5 = mat a5) (h6 : vec x6 = vec a6)
    (h7 : matT x7 = mat a7) (h8 : vec x8 = vec a8) (h9 : matT x9 = mat a9) (h10 : vec x10 = vec a10)
    (y : S16x4x128x128.Idx) (i : S512x4x128x128.Idx) (hi0 : (i 0).val = 16 * n + (y 0).val)
    (hi1 : (i 1).val = (y 1).val) (hi2 : (i 2).val = (y 2).val) (hi3 : (i 3).val = (y 3).val) :
    out0_12 (F := Ideal) x0 x1 x2 x3 x4 x5 x6 x7 x8 x9 x10 y = updated a0 a1 a2 a3 a4 a5 a6 a7 a8 a9 a10 i := by
  obtain ⟨p, q, s, k, rfl⟩ : ∃ (p : Fin 16) (q : Fin 4) (s k : Fin 128), y = ix4 p q s k := ⟨y 0, y 1, y 2, y 3, eq_ix4 y⟩
  have hb : 16 * n + p.val < 512 := by have h : (i 0).val < 512 := (i 0).isLt; have e : (i 0).val = 16 * n + p.val := hi0; omega
  obtain rfl : i = ix4 ⟨16 * n + p.val, hb⟩ q s k := by
    funext a
    match a with
    | ⟨0, _⟩ => exact Fin.ext hi0
    | ⟨1, _⟩ => exact Fin.ext hi1
    | ⟨2, _⟩ => exact Fin.ext hi2
    | ⟨3, _⟩ => exact Fin.ext hi3
  rw [Block.block_updated]
  show newCell (row2 x0 p) (row4 x1 p) (row2 x2 p) (matT x3) (vec x4) (matT x5) (vec x6)
      (matT x7) (vec x8) (matT x9) (vec x10) q s k
    = newCell (row2 a0 ⟨16 * n + p.val, hb⟩) (row4 a1 ⟨16 * n + p.val, hb⟩) (row2 a2 ⟨16 * n + p.val, hb⟩)
        (mat a3) (vec a4) (mat a5) (vec a6) (mat a7) (vec a8) (mat a9) (vec a10) q s k
  rw [h0 p hb, h1 p hb, h2 p hb, h3, h4, h5, h6, h7, h8, h9, h10]

/-- What point t writes back to the stacks output is block t of the whole-batch updated stacks. -/
theorem flushed_updated (c : Dev nD) (t : Fin cfg0.N) :
    (dats m 0 c).flushed 12 t = ((cfg0.win 12).blk t).view.read (Elt Ideal)
      (updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Cert.KernelIdeal.Value.flushed12]
  obtain ⟨e0, e1, e2, e3⟩ := idx_updated t
  funext y
  refine updated_entry _ _ _ _ _ _ _ _ _ _ _ _ _ _ _ _ _ _ _ _ _ _ t.val (inputs_row m c t) (stacks_row m c t) (core_row m c t)
    (wih_block m c t) (bih_block m c t) (whh_block m c t) (bhh_block m c t)
    (wpush_block m c t) (bpush_block m c t) (wact_block m c t) (bact_block m c t) y _ ?_ ?_ ?_ ?_
  · show win0_12.index t (0 : Fin 4) * 16 + 1 * (y 0).val = 16 * t.val + (y 0).val
    rw [e0]; omega
  · show win0_12.index t (1 : Fin 4) * 4 + 1 * (y 1).val = (y 1).val
    rw [e1]; omega
  · show win0_12.index t (2 : Fin 4) * 128 + 1 * (y 2).val = (y 2).val
    rw [e2]; omega
  · show win0_12.index t (3 : Fin 4) * 128 + 1 * (y 3).val = (y 3).val
    rw [e3]; omega

/-- An entry of the stacks output is in point t's block iff each coordinate is in the block's range on its axis. -/
theorem mem_updated_block (t : Fin cfg0.N) (i : S512x4x128x128.Idx) :
    i ∈ ((cfg0.win 12).blk t).view.set ↔ ∀ a : Fin 4, win0_12.index t a * S16x4x128x128.size a ≤ (i a).val ∧ (i a).val < win0_12.index t a * S16x4x128x128.size a + S16x4x128x128.size a := by
  show i ∈ ((View.whole main_v8_1).slice (win0_12.rect t)).set ↔ _
  rw [View.set_slice_whole, Rect.mem_set_unit]
  exact Iff.rfl

/-- Every entry of the stacks output is in some point's block: row b is in the block of point b / 16. -/
theorem updated_covered (i : S512x4x128x128.Idx) :
    ∃ t : Fin cfg0.N, (cfg0.win 12).flush t = true ∧ i ∈ ((cfg0.win 12).blk t).view.set := by
  have hi0 : (i 0).val < 512 := (i 0).isLt
  have hi1 : (i 1).val < 4 := (i 1).isLt
  have hi2 : (i 2).val < 128 := (i 2).isLt
  have hi3 : (i 3).val < 128 := (i 3).isLt
  have hN : cfg0.N = 32 := points
  let t : Fin cfg0.N := ⟨(i 0).val / 16, by rw [hN]; omega⟩
  have ht : t.val = (i 0).val / 16 := rfl
  obtain ⟨e0, e1, e2, e3⟩ := idx_updated t
  refine ⟨t, flush0_12 t, ?_⟩
  rw [mem_updated_block]
  intro a
  match a with
  | ⟨0, _⟩ => show win0_12.index t (0 : Fin 4) * 16 ≤ (i 0).val ∧ (i 0).val < win0_12.index t (0 : Fin 4) * 16 + 16; rw [e0, ht]; omega
  | ⟨1, _⟩ => show win0_12.index t (1 : Fin 4) * 4 ≤ (i 1).val ∧ (i 1).val < win0_12.index t (1 : Fin 4) * 4 + 4; rw [e1]; omega
  | ⟨2, _⟩ => show win0_12.index t (2 : Fin 4) * 128 ≤ (i 2).val ∧ (i 2).val < win0_12.index t (2 : Fin 4) * 128 + 128; rw [e2]; omega
  | ⟨3, _⟩ => show win0_12.index t (3 : Fin 4) * 128 ≤ (i 3).val ∧ (i 3).val < win0_12.index t (3 : Fin 4) * 128 + 128; rw [e3]; omega

/-- The stacks output after the run: the whole-batch updated stacks of the launched arguments. -/
theorem final_updated (c : Dev nD) :
    (dats m 0 c).arrAt 12 cfg0.N = updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 12 (updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (fun t _ => flushed_updated m c t) updated_covered

end Cert.StackCell.Arr

end
-- ==== Proof.ArrRun.lean ====
/-
  The run, read: after every execution of the program each core's hidden output holds the whole-batch hidden state of
  the launched arguments, its stacks output their whole-batch updated stacks, and every argument is as launched.
-/
import proofs.«169338_j85315230368210_2_alg».proof.Proof.ArrHidden
import proofs.«169338_j85315230368210_2_alg».proof.Proof.ArrUpdated

noncomputable section

namespace Cert.StackCell.Arr

open Cert.KernelIdeal Cert.KernelIdeal.Gen Idealize.ShloMosaic Idealize.ShloMosaic.TcCoe Idealize.SL.Sem
open Idealize.ShloMosaic.ValueIdx Cert.StackCell

variable (m : (ℓ : Loc nD τ sig) → Buf (Elt Ideal) ℓ) (ρ : Dev nD → PrngReg)

/-- Every weakly fair execution from the launched memory terminates with the two outputs at the specification's
    whole-batch functions of the launched arguments, the arguments unchanged. -/
theorem run : θ_run defs (onTc (τ := τ) (main (F := Ideal))) ⟨m, fun _ => 0, ρ⟩ fun r => ∀ c : Dev nD,
      r.2.mem ((c : Thread nD τ).loc main_v8_0) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v8_1) = updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_hidden m c), (h c).2.1.trans (final_updated m c), (h c).2.2⟩)
    (Cert.KernelIdeal.Value.run_blocks m ρ)

end Cert.StackCell.Arr

end
-- ==== Proof.lean ====
/-
  One step of a recurrent cell that carries four stacks of 128 cells, for a batch of 512 rows.

  The cell's input row is the 256 inputs followed by the top cells of the four stacks. The new hidden row is
  tanh((x · W_ihᵀ + b_ih) + h · W_hhᵀ + b_hh). From it come a push row (the values offered to the four stacks) and twelve
  action logits, three per stack, whose softmax is taken over all twelve together. Cell s of stack i becomes
  push-action × (the pushed value if s = 0, else the old cell s − 1) + pop-action × (zero if s = 127, else the old cell
  s + 1) + keep-action × the old cell s. Nothing mixes batch rows, so both results are one row function (Proof/Spec.lean)
  applied to each batch row.

  The kernel visits the batch in 32 blocks of sixteen rows; each visit stores the block's hidden rows whole and the
  block's updated stacks in four pieces, one per stack, built from the stack rotated by one row either way with the
  first and last rows overwritten. Entry by entry each block is the row function of the block's rows (Proof/Block.lean
  over the K… modules), the blocks tile the two result arrays (the Arr… modules), and the reference's operations,
  read one at a time at an index, compute the same row function of the same rows (the Ref… modules). At the ideal
  values a change of float format is the identity, a matrix product into a zero accumulator is the plain sum, and
  the two softmaxes are the same folds, so no finiteness of the inputs is needed: the two programs, run from memories
  that agree on the arguments, end with equal results (Proof/Claims.lean). The three frames are the generated ones,
  the reference's being its generated run with the results dropped, and the idealization rewrote no operation.
-/
import proofs.«169338_j85315230368210_2_alg».proof.Defs
import proofs.«169338_j85315230368210_2_alg».proof.Proof.Claims
import proofs.«169338_j85315230368210_2_alg».proof.Proof.ArrRun

noncomputable section

namespace Cert.Proof

theorem claim : Cert.Claim := Cert.StackCell.Claims.claim_of fun m ρ => Cert.StackCell.Arr.run m ρ

end Cert.Proof

end
